-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v84)) (v2 : (c : Dev Cert.KernelIdeal.nD) → Buf (Elt Ideal) ((c.tc : Thread Cert.KernelIdeal.nD Cert.KernelIdeal.τ).loc Cert.KernelIdeal.main_v95)) (v3 : (c : Dev Cert.KernelIdeal.nD) → Buf (Elt Ideal) ((c.tc : Thread Cert.KernelIdeal.nD Cert.KernelIdeal.τ).loc Cert.KernelIdeal.main_v96)) (v4 : (c : Dev Cert.KernelIdeal.nD) → Buf (Elt Ideal) ((c.tc : Thread Cert.KernelIdeal.nD Cert.KernelIdeal.τ).loc Cert.KernelIdeal.main_v68)) (v5 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v84) = v1 c
          ∧ r.2.mem ((c.tc : Thread Cert.KernelIdeal.nD Cert.KernelIdeal.τ).loc Cert.KernelIdeal.main_v95) = v2 c
          ∧ r.2.mem ((c.tc : Thread Cert.KernelIdeal.nD Cert.KernelIdeal.τ).loc Cert.KernelIdeal.main_v96) = v3 c
          ∧ r.2.mem ((c.tc : Thread Cert.KernelIdeal.nD Cert.KernelIdeal.τ).loc Cert.KernelIdeal.main_v68) = v4 c
          ∧ r.2.mem ((c.tc : Thread Cert.KernelIdeal.nD Cert.KernelIdeal.τ).loc Cert.KernelIdeal.main_v98) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_v51) = v4 c
          ∧ r.2.mem ((c.tc : Thread Cert.ReferenceIdeal.nD Cert.ReferenceIdeal.τ).loc Cert.ReferenceIdeal.main_v81) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3 : Shape := ⟨2, ![4096, 3]⟩
abbrev S3x3 : Shape := ⟨2, ![3, 3]⟩
abbrev S3 : Shape := ⟨1, ![3]⟩
abbrev S_ : Shape := ⟨0, ![]⟩

class Facts : Prop where
  bcast_S_S4096x3 : S_.BroadcastsInDim S4096x3 (![] : Fin 0 → Fin S4096x3.rank)
  reducesTo_S4096x3_S_d0_1 : S4096x3.ReducesTo [0, 1] S_
  h_S_ : 0 < S_.numel
  bcast_S_S3x3 : S_.BroadcastsInDim S3x3 (![] : Fin 0 → Fin S3x3.rank)
  reducesTo_S3x3_S_d0_1 : S3x3.ReducesTo [0, 1] S_

variable [Facts]

def fn {F : FTy → Type} [FloatOps F] (main_arg0 : FVec F S4096x3 .f32) (main_arg1 : FVec F S3x3 .f32) (main_arg2 : IVec S3 1) : IVec S_ 1 :=
  let main_v0 : FVec F S4096x3 .f32 := Host.absf main_arg0
  let main_cst : FVec F S_ .f32 := constant S_ .f32 0x7F800000#32
  let main_v1 : FVec F S4096x3 .f32 := broadcastInDim S4096x3 ![] bcast_S_S4096x3 main_cst
  let main_v2 : IVec S4096x3 1 := cmpf .olt main_v0 main_v1
  let main_c : IVec S_ 1 := constantI S_ 1 1#1
  let main_v3 : IVec S_ 1 := (fun x v => Host.reduce IntOp.andi x v reducesTo_S4096x3_S_d0_1 h_S_) main_v2 main_c
  let main_v4 : FVec F S3x3 .f32 := Host.absf main_arg1
  let main_cst_0 : FVec F S_ .f32 := constant S_ .f32 0x7F800000#32
  let main_v5 : FVec F S3x3 .f32 := broadcastInDim S3x3 ![] bcast_S_S3x3 main_cst_0
  let main_v6 : IVec S3x3 1 := cmpf .olt main_v4 main_v5
  let main_c_1 : IVec S_ 1 := constantI S_ 1 1#1
  let main_v7 : IVec S_ 1 := (fun x v => Host.reduce IntOp.andi x v reducesTo_S3x3_S_d0_1 h_S_) main_v6 main_c_1
  let main_v8 : IVec S_ 1 := andi main_v3 main_v7
  main_v8
-- ==== Kernel.lean ====
abbrev S4096x3 : Shape := ⟨2, ![4096, 3]⟩
abbrev S3x3 : Shape := ⟨2, ![3, 3]⟩
abbrev S3 : Shape := ⟨1, ![3]⟩
abbrev S3x4096 : Shape := ⟨2, ![3, 4096]⟩
abbrev S3x4096x4096 : Shape := ⟨3, ![3, 4096, 4096]⟩
abbrev S4096x4096 : Shape := ⟨2, ![4096, 4096]⟩
abbrev S3x512 : Shape := ⟨2, ![3, 512]⟩
abbrev S3x512x512 : Shape := ⟨3, ![3, 512, 512]⟩
abbrev S512x512 : Shape := ⟨2, ![512, 512]⟩
abbrev S3x1x512 : Shape := ⟨3, ![3, 1, 512]⟩
abbrev S3x512x1 : Shape := ⟨3, ![3, 512, 1]⟩
abbrev S_ : Shape := ⟨0, ![]⟩
abbrev S16777216 : Shape := ⟨1, ![16777216]⟩
abbrev S8386560 : Shape := ⟨1, ![8386560]⟩
abbrev S16777216x1 : Shape := ⟨2, ![16777216, 1]⟩
abbrev S8386560x1 : Shape := ⟨2, ![8386560, 1]⟩
abbrev S8386560x2 : Shape := ⟨2, ![8386560, 2]⟩
abbrev S3x8386560 : Shape := ⟨2, ![3, 8386560]⟩
abbrev S8386560x3 : Shape := ⟨2, ![8386560, 3]⟩
abbrev S16773120 : Shape := ⟨1, ![16773120]⟩
abbrev S16773120x3 : Shape := ⟨2, ![16773120, 3]⟩
abbrev S16773120x1 : Shape := ⟨2, ![16773120, 1]⟩

abbrev nBuf : Space → Nat
  | .hbm => 230
  | .vmem => 8
  | .smem => 0
  | _ => 0

abbrev hbmTy0_0 (i : Nat) : BufTy := match i % 128 with
  | 0 => ⟨S4096x3, .f32⟩
  | 1 => ⟨S3x3, .f32⟩
  | 2 => ⟨S3, .i1⟩
  | 3 => ⟨S3x4096, .f32⟩
  | 4 => ⟨S3x4096x4096, .f32⟩
  | 5 => ⟨S4096x4096, .i32⟩
  | 6 => ⟨S_, .f32⟩
  | 7 => ⟨S4096x4096, .f32⟩
  | 8 => ⟨S4096x4096, .i32⟩
  | 9 => ⟨S_, .i32⟩
  | 10 => ⟨S4096x4096, .i32⟩
  | 11 => ⟨S4096x4096, .i32⟩
  | 12 => ⟨S4096x4096, .i32⟩
  | 13 => ⟨S4096x4096, .i1⟩
  | 14 => ⟨S_, .f32⟩
  | 15 => ⟨S4096x4096, .f32⟩
  | 16 => ⟨S4096x4096, .f32⟩
  | 17 => ⟨S_, .f32⟩
  | 18 => ⟨S4096x4096, .f32⟩
  | 19 => ⟨S4096x4096, .i1⟩
  | 20 => ⟨S16777216, .i1⟩
  | 21 => ⟨S16777216, .i32⟩
  | 22 => ⟨S_, .i32⟩
  | 23 => ⟨S_, .i32⟩
  | 24 => ⟨S16777216, .i32⟩
  | 25 => ⟨S_, .i32⟩
  | 26 => ⟨S8386560, .i32⟩
  | 27 => ⟨S_, .i32⟩
  | 28 => ⟨S_, .i32⟩
  | 29 => ⟨S16777216, .i32⟩
  | 30 => ⟨S16777216, .i32⟩
  | 31 => ⟨S_, .i32⟩
  | 32 => ⟨S16777216, .i32⟩
  | 33 => ⟨S16777216, .i1⟩
  | 34 => ⟨S_, .i32⟩
  | 35 => ⟨S16777216, .i32⟩
  | 36 => ⟨S16777216, .i32⟩
  | 37 => ⟨S16777216, .i32⟩
  | 38 => ⟨S16777216x1, .i32⟩
  | 39 => ⟨S_, .i32⟩
  | 40 => ⟨S16777216, .i32⟩
  | 41 => ⟨S8386560, .i32⟩
  | 42 => ⟨S_, .i32⟩
  | 43 => ⟨S_, .i32⟩
  | 44 => ⟨S8386560, .i32⟩
  | 45 => ⟨S_, .i32⟩
  | 46 => ⟨S8386560, .i32⟩
  | 47 => ⟨S8386560, .i32⟩
  | 48 => ⟨S8386560, .i32⟩
  | 49 => ⟨S_, .i32⟩
  | 50 => ⟨S8386560, .i32⟩
  | 51 => ⟨S8386560, .i1⟩
  | 52 => ⟨S8386560, .i32⟩
  | 53 => ⟨S8386560, .i32⟩
  | 54 => ⟨S_, .i32⟩
  | 55 => ⟨S8386560, .i32⟩
  | 56 => ⟨S8386560, .i1⟩
  | 57 => ⟨S8386560, .i1⟩
  | 58 => ⟨S_, .i32⟩
  | 59 => ⟨S8386560, .i32⟩
  | 60 => ⟨S8386560, .i32⟩
  | 61 => ⟨S8386560, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S8386560, .i32⟩
  | 69 => ⟨S8386560, .i32⟩
  | 70 => ⟨S_, .i32⟩
  | 71 => ⟨S8386560, .i32⟩
  | 72 => ⟨S8386560, .i1⟩
  | 73 => ⟨S_, .i32⟩
  | 74 => ⟨S8386560, .i32⟩
  | 75 => ⟨S8386560, .i1⟩
  | 76 => ⟨S_, .i32⟩
  | 77 => ⟨S_, .i1⟩
  | 78 => ⟨S8386560, .i1⟩
  | 79 => ⟨S8386560, .i1⟩
  | 80 => ⟨S8386560, .i1⟩
  | 81 => ⟨S8386560, .i32⟩
  | 82 => ⟨S8386560, .i32⟩
  | 83 => ⟨S8386560, .i32⟩
  | 84 => ⟨S_, .i32⟩
  | 85 => ⟨S8386560, .i32⟩
  | 86 => ⟨S8386560, .i32⟩
  | 87 => ⟨S8386560, .i32⟩
  | 88 => ⟨S_, .i32⟩
  | 89 => ⟨S8386560, .i32⟩
  | 90 => ⟨S8386560, .i1⟩
  | 91 => ⟨S8386560, .i32⟩
  | 92 => ⟨S8386560, .i32⟩
  | 93 => ⟨S_, .i32⟩
  | 94 => ⟨S8386560, .i32⟩
  | 95 => ⟨S8386560, .i1⟩
  | 96 => ⟨S8386560, .i1⟩
  | 97 => ⟨S_, .i32⟩
  | 98 => ⟨S8386560, .i32⟩
  | 99 => ⟨S8386560, .i32⟩
  | 100 => ⟨S8386560, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S8386560, .i32⟩
  | 108 => ⟨S8386560, .i32⟩
  | 109 => ⟨S_, .i32⟩
  | 110 => ⟨S8386560, .i32⟩
  | 111 => ⟨S8386560, .i1⟩
  | 112 => ⟨S_, .i32⟩
  | 113 => ⟨S8386560, .i32⟩
  | 114 => ⟨S8386560, .i1⟩
  | 115 => ⟨S_, .i32⟩
  | 116 => ⟨S_, .i1⟩
  | 117 => ⟨S8386560, .i1⟩
  | 118 => ⟨S8386560, .i1⟩
  | 119 => ⟨S8386560, .i1⟩
  | 120 => ⟨S8386560, .i32⟩
  | 121 => ⟨S8386560, .i32⟩
  | 122 => ⟨S8386560, .i32⟩
  | 123 => ⟨S_, .i32⟩
  | 124 => ⟨S8386560, .i32⟩
  | 125 => ⟨S8386560, .i1⟩
  | 126 => ⟨S_, .i32⟩
  | 127 => ⟨S8386560, .i32⟩
  | _ => ⟨S4096x3, .f32⟩

abbrev hbmTy0_1 (i : Nat) : BufTy := match i % 128 with
  | 0 => ⟨S8386560, .i32⟩
  | 1 => ⟨S8386560, .i32⟩
  | 2 => ⟨S_, .i32⟩
  | 3 => ⟨S8386560, .i32⟩
  | 4 => ⟨S8386560, .i1⟩
  | 5 => ⟨S_, .i32⟩
  | 6 => ⟨S8386560, .i32⟩
  | 7 => ⟨S8386560, .i32⟩
  | 8 => ⟨S8386560, .i32⟩
  | 9 => ⟨S8386560x1, .i32⟩
  | 10 => ⟨S8386560x1, .i32⟩
  | 11 => ⟨S8386560x2, .i32⟩
  | 12 => ⟨S3x8386560, .f32⟩
  | 13 => ⟨S8386560x3, .f32⟩
  | 14 => ⟨S8386560x3, .f32⟩
  | 15 => ⟨S_, .i32⟩
  | 16 => ⟨S8386560, .i32⟩
  | 17 => ⟨S8386560, .i1⟩
  | 18 => ⟨S_, .i32⟩
  | 19 => ⟨S8386560, .i32⟩
  | 20 => ⟨S8386560, .i32⟩
  | 21 => ⟨S8386560, .i32⟩
  | 22 => ⟨S_, .i32⟩
  | 23 => ⟨S8386560, .i32⟩
  | 24 => ⟨S8386560, .i1⟩
  | 25 => ⟨S_, .i32⟩
  | 26 => ⟨S8386560, .i32⟩
  | 27 => ⟨S8386560, .i32⟩
  | 28 => ⟨S8386560, .i32⟩
  | 29 => ⟨S8386560x1, .i32⟩
  | 30 => ⟨S8386560x1, .i32⟩
  | 31 => ⟨S8386560x2, .i32⟩
  | 32 => ⟨S8386560, .i32⟩
  | 33 => ⟨S_, .i32⟩
  | 34 => ⟨S8386560, .i32⟩
  | 35 => ⟨S8386560, .i1⟩
  | 36 => ⟨S8386560, .i1⟩
  | 37 => ⟨S16773120, .i32⟩
  | 38 => ⟨S16773120, .i32⟩
  | 39 => ⟨S8386560x3, .f32⟩
  | 40 => ⟨S16773120x3, .f32⟩
  | 41 => ⟨S16773120, .i1⟩
  | 42 => ⟨S_, .i32⟩
  | 43 => ⟨S_, .i32⟩
  | 44 => ⟨S16773120, .i32⟩
  | 45 => ⟨S16773120, .i32⟩
  | 46 => ⟨S16773120, .i32⟩
  | 47 => ⟨S16773120, .i32⟩
  | 48 => ⟨S16773120, .i32⟩
  | 49 => ⟨S_, .i32⟩
  | 50 => ⟨S16773120, .i32⟩
  | 51 => ⟨S16773120, .i1⟩
  | 52 => ⟨S_, .i32⟩
  | 53 => ⟨S16773120, .i32⟩
  | 54 => ⟨S16773120, .i32⟩
  | 55 => ⟨S16773120, .i32⟩
  | 56 => ⟨S16773120x1, .i32⟩
  | 57 => ⟨S16773120, .i1⟩
  | 58 => ⟨S_, .i32⟩
  | 59 => ⟨S16773120, .i32⟩
  | 60 => ⟨S16773120, .i1⟩
  | 61 => ⟨S_, .i32⟩
  | 62 => ⟨S16773120, .i32⟩
  | 63 => ⟨S16773120, .i32⟩
  | 64 => ⟨S16773120, .i32⟩
  | 65 => ⟨S16773120x1, .i32⟩
  | 66 => ⟨S16773120, .i32⟩
  | 67 => ⟨S_, .i32⟩
  | 68 => ⟨S_, .i32⟩
  | 69 => ⟨S16773120, .i32⟩
  | 70 => ⟨S16773120, .i32⟩
  | 71 => ⟨S_, .i32⟩
  | 72 => ⟨S16773120, .i32⟩
  | 73 => ⟨S16773120, .i1⟩
  | 74 => ⟨S_, .i32⟩
  | 75 => ⟨S16773120, .i32⟩
  | 76 => ⟨S16773120, .i32⟩
  | 77 => ⟨S16773120, .i32⟩
  | 78 => ⟨S16773120x1, .i32⟩
  | 79 => ⟨S16773120, .i32⟩
  | 80 => ⟨S_, .i32⟩
  | 81 => ⟨S_, .i32⟩
  | 82 => ⟨S16773120, .i32⟩
  | 83 => ⟨S16773120, .i32⟩
  | 84 => ⟨S_, .i32⟩
  | 85 => ⟨S16773120, .i32⟩
  | 86 => ⟨S16773120, .i1⟩
  | 87 => ⟨S_, .i32⟩
  | 88 => ⟨S16773120, .i32⟩
  | 89 => ⟨S16773120, .i32⟩
  | 90 => ⟨S16773120, .i32⟩
  | 91 => ⟨S16773120x1, .i32⟩
  | 92 => ⟨S16773120x3, .f32⟩
  | 93 => ⟨S16773120x1, .i1⟩
  | 94 => ⟨S16773120x1, .f32⟩
  | 95 => ⟨S16773120x3, .f32⟩
  | 96 => ⟨S16773120x3, .f32⟩
  | 97 => ⟨S_, .i32⟩
  | 98 => ⟨S16773120x3, .i32⟩
  | 99 => ⟨S16773120, .i32⟩
  | 100 => ⟨S_, .i32⟩
  | 101 => ⟨S_, .i32⟩
  | _ => ⟨S4096x3, .f32⟩

abbrev hbmTy (i : Nat) : BufTy := match i / 128 with
  | 0 => hbmTy0_0 i
  | 1 => hbmTy0_1 i
  | _ => ⟨S4096x3, .f32⟩

abbrev bufTy : (tb : Table) → Fin (tcTables nBuf tb) → BufTy
  | .hbm, ⟨i, _⟩ => hbmTy i
  | .local _ .vmem, ⟨0, _⟩ => ⟨S3x512, .f32⟩
  | .local _ .vmem, ⟨1, _⟩ => ⟨S3x512, .f32⟩
  | .local _ .vmem, ⟨2, _⟩ => ⟨S3x512, .f32⟩
  | .local _ .vmem, ⟨3, _⟩ => ⟨S3x512, .f32⟩
  | .local _ .vmem, ⟨4, _⟩ => ⟨S3x512x512, .f32⟩
  | .local _ .vmem, ⟨5, _⟩ => ⟨S3x512x512, .f32⟩
  | .local _ .vmem, ⟨6, _⟩ => ⟨S512x512, .i32⟩
  | .local _ .vmem, ⟨7, _⟩ => ⟨S512x512, .i32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst : Ref sig .tc := ⟨.hbm, 14, rfl⟩
abbrev main_call0_v5 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_call0_c : Ref sig .tc := ⟨.hbm, 22, rfl⟩
abbrev main_call1_call0_v0 : Ref sig .tc := ⟨.hbm, 23, rfl⟩
abbrev main_v6 : Ref sig .tc := ⟨.hbm, 24, rfl⟩
abbrev main_c : Ref sig .tc := ⟨.hbm, 25, rfl⟩
abbrev main_v7 : Ref sig .tc := ⟨.hbm, 26, rfl⟩
abbrev main_c_1 : Ref sig .tc := ⟨.hbm, 27, rfl⟩
abbrev main_call2_v0 : Ref sig .tc := ⟨.hbm, 28, rfl⟩
abbrev main_call2_v1 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_c_3 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_c_4 : Ref sig .tc := ⟨.hbm, 39, rfl⟩
abbrev main_v15 : Ref sig .tc := ⟨.hbm, 40, rfl⟩
abbrev main_v16 : Ref sig .tc := ⟨.hbm, 41, rfl⟩
abbrev main_call3_call0_c : Ref sig .tc := ⟨.hbm, 42, rfl⟩
abbrev main_call3_call0_v0 : Ref sig .tc := ⟨.hbm, 43, rfl⟩
abbrev main_v17 : Ref sig .tc := ⟨.hbm, 44, rfl⟩
abbrev main_c_5 : Ref sig .tc := ⟨.hbm, 45, rfl⟩
abbrev main_call4_v0 : Ref sig .tc := ⟨.hbm, 46, rfl⟩
abbrev main_call4_v1 : Ref sig .tc := ⟨.hbm, 47, rfl⟩
abbrev main_call4_v2 : Ref sig .tc := ⟨.hbm, 48, rfl⟩
abbrev main_call4_v3 : Ref sig .tc := ⟨.hbm, 49, rfl⟩
abbrev main_call4_v4 : Ref sig .tc := ⟨.hbm, 50, rfl⟩
abbrev main_call4_v5 : Ref sig .tc := ⟨.hbm, 51, rfl⟩
abbrev main_call4_v6 : Ref sig .tc := ⟨.hbm, 52, rfl⟩
abbrev main_call4_v7 : Ref sig .tc := ⟨.hbm, 53, rfl⟩
abbrev main_call4_c : Ref sig .tc := ⟨.hbm, 54, rfl⟩
abbrev main_call4_v8 : Ref sig .tc := ⟨.hbm, 55, rfl⟩
abbrev main_call4_v9 : Ref sig .tc := ⟨.hbm, 56, rfl⟩
abbrev main_call4_v10 : Ref sig .tc := ⟨.hbm, 57, rfl⟩
abbrev main_call4_c_0 : Ref sig .tc := ⟨.hbm, 58, rfl⟩
abbrev main_call4_v11 : Ref sig .tc := ⟨.hbm, 59, rfl⟩
abbrev main_call4_v12 : Ref sig .tc := ⟨.hbm, 60, rfl⟩
abbrev main_v18 : Ref sig .tc := ⟨.hbm, 61, rfl⟩
abbrev main_c_6 : Ref sig .tc := ⟨.hbm, 62, rfl⟩
abbrev main_call5_v0 : Ref sig .tc := ⟨.hbm, 63, rfl⟩
abbrev main_call5_c : Ref sig .tc := ⟨.hbm, 64, rfl⟩
abbrev main_call5_v1 : Ref sig .tc := ⟨.hbm, 65, rfl⟩
abbrev main_call5_c_0 : Ref sig .tc := ⟨.hbm, 66, rfl⟩
abbrev main_call5_v2 : Ref sig .tc := ⟨.hbm, 67, rfl⟩
abbrev main_call5_v3 : Ref sig .tc := ⟨.hbm, 68, rfl⟩
abbrev main_call5_v4 : Ref sig .tc := ⟨.hbm, 69, rfl⟩
abbrev main_call5_c_1 : Ref sig .tc := ⟨.hbm, 70, rfl⟩
abbrev main_call5_v5 : Ref sig .tc := ⟨.hbm, 71, rfl⟩
abbrev main_call5_v6 : Ref sig .tc := ⟨.hbm, 72, rfl⟩
abbrev main_call5_c_2 : Ref sig .tc := ⟨.hbm, 73, rfl⟩
abbrev main_call5_v7 : Ref sig .tc := ⟨.hbm, 74, rfl⟩
abbrev main_call5_v8 : Ref sig .tc := ⟨.hbm, 75, rfl⟩
abbrev main_call5_c_3 : Ref sig .tc := ⟨.hbm, 76, rfl⟩
abbrev main_call5_v9 : Ref sig .tc := ⟨.hbm, 77, rfl⟩
abbrev main_call5_v10 : Ref sig .tc := ⟨.hbm, 78, rfl⟩
abbrev main_call5_v11 : Ref sig .tc := ⟨.hbm, 79, rfl⟩
abbrev main_call5_v12 : Ref sig .tc := ⟨.hbm, 80, rfl⟩
abbrev main_call5_v13 : Ref sig .tc := ⟨.hbm, 81, rfl⟩
abbrev main_call5_v14 : Ref sig .tc := ⟨.hbm, 82, rfl⟩
abbrev main_v19 : Ref sig .tc := ⟨.hbm, 83, rfl⟩
abbrev main_c_7 : Ref sig .tc := ⟨.hbm, 84, rfl⟩
abbrev main_call6_v0 : Ref sig .tc := ⟨.hbm, 85, rfl⟩
abbrev main_call6_v1 : Ref sig .tc := ⟨.hbm, 86, rfl⟩
abbrev main_call6_v2 : Ref sig .tc := ⟨.hbm, 87, rfl⟩
abbrev main_call6_v3 : Ref sig .tc := ⟨.hbm, 88, rfl⟩
abbrev main_call6_v4 : Ref sig .tc := ⟨.hbm, 89, rfl⟩
abbrev main_call6_v5 : Ref sig .tc := ⟨.hbm, 90, rfl⟩
abbrev main_call6_v6 : Ref sig .tc := ⟨.hbm, 91, rfl⟩
abbrev main_call6_v7 : Ref sig .tc := ⟨.hbm, 92, rfl⟩
abbrev main_call6_c : Ref sig .tc := ⟨.hbm, 93, rfl⟩
abbrev main_call6_v8 : Ref sig .tc := ⟨.hbm, 94, rfl⟩
abbrev main_call6_v9 : Ref sig .tc := ⟨.hbm, 95, rfl⟩
abbrev main_call6_v10 : Ref sig .tc := ⟨.hbm, 96, rfl⟩
abbrev main_call6_c_0 : Ref sig .tc := ⟨.hbm, 97, rfl⟩
abbrev main_call6_v11 : Ref sig .tc := ⟨.hbm, 98, rfl⟩
abbrev main_call6_v12 : Ref sig .tc := ⟨.hbm, 99, rfl⟩
abbrev main_v20 : Ref sig .tc := ⟨.hbm, 100, rfl⟩
abbrev main_c_8 : Ref sig .tc := ⟨.hbm, 101, rfl⟩
abbrev main_call7_v0 : Ref sig .tc := ⟨.hbm, 102, rfl⟩
abbrev main_call7_c : Ref sig .tc := ⟨.hbm, 103, rfl⟩
abbrev main_call7_v1 : Ref sig .tc := ⟨.hbm, 104, rfl⟩
abbrev main_call7_c_0 : Ref sig .tc := ⟨.hbm, 105, rfl⟩
abbrev main_call7_v2 : Ref sig .tc := ⟨.hbm, 106, rfl⟩
abbrev main_call7_v3 : Ref sig .tc := ⟨.hbm, 107, rfl⟩
abbrev main_call7_v4 : Ref sig .tc := ⟨.hbm, 108, rfl⟩
abbrev main_call7_c_1 : Ref sig .tc := ⟨.hbm, 109, rfl⟩
abbrev main_call7_v5 : Ref sig .tc := ⟨.hbm, 110, rfl⟩
abbrev main_call7_v6 : Ref sig .tc := ⟨.hbm, 111, rfl⟩
abbrev main_call7_c_2 : Ref sig .tc := ⟨.hbm, 112, rfl⟩
abbrev main_call7_v7 : Ref sig .tc := ⟨.hbm, 113, rfl⟩
abbrev main_call7_v8 : Ref sig .tc := ⟨.hbm, 114, rfl⟩
abbrev main_call7_c_3 : Ref sig .tc := ⟨.hbm, 115, rfl⟩
abbrev main_call7_v9 : Ref sig .tc := ⟨.hbm, 116, rfl⟩
abbrev main_call7_v10 : Ref sig .tc := ⟨.hbm, 117, rfl⟩
abbrev main_call7_v11 : Ref sig .tc := ⟨.hbm, 118, rfl⟩
abbrev main_call7_v12 : Ref sig .tc := ⟨.hbm, 119, rfl⟩
abbrev main_call7_v13 : Ref sig .tc := ⟨.hbm, 120, rfl⟩
abbrev main_call7_v14 : Ref sig .tc := ⟨.hbm, 121, rfl⟩
abbrev main_v21 : Ref sig .tc := ⟨.hbm, 122, rfl⟩
abbrev main_c_9 : Ref sig .tc := ⟨.hbm, 123, rfl⟩
abbrev main_v22 : Ref sig .tc := ⟨.hbm, 124, rfl⟩
abbrev main_v23 : Ref sig .tc := ⟨.hbm, 125, rfl⟩
abbrev main_c_10 : Ref sig .tc := ⟨.hbm, 126, rfl⟩
abbrev main_v24 : Ref sig .tc := ⟨.hbm, 127, rfl⟩
abbrev main_v25 : Ref sig .tc := ⟨.hbm, 128, rfl⟩
abbrev main_v26 : Ref sig .tc := ⟨.hbm, 129, rfl⟩
abbrev main_c_11 : Ref sig .tc := ⟨.hbm, 130, rfl⟩
abbrev main_v27 : Ref sig .tc := ⟨.hbm, 131, rfl⟩
abbrev main_v28 : Ref sig .tc := ⟨.hbm, 132, rfl⟩
abbrev main_c_12 : Ref sig .tc := ⟨.hbm, 133, rfl⟩
abbrev main_v29 : Ref sig .tc := ⟨.hbm, 134, rfl⟩
abbrev main_v30 : Ref sig .tc := ⟨.hbm, 135, rfl⟩
abbrev main_v31 : Ref sig .tc := ⟨.hbm, 136, rfl⟩
abbrev main_v32 : Ref sig .tc := ⟨.hbm, 137, rfl⟩
abbrev main_v33 : Ref sig .tc := ⟨.hbm, 138, rfl⟩
abbrev main_v34 : Ref sig .tc := ⟨.hbm, 139, rfl⟩
abbrev main_v35 : Ref sig .tc := ⟨.hbm, 140, rfl⟩
abbrev main_v36 : Ref sig .tc := ⟨.hbm, 141, rfl⟩
abbrev main_v37 : Ref sig .tc := ⟨.hbm, 142, rfl⟩
abbrev main_c_13 : Ref sig .tc := ⟨.hbm, 143, rfl⟩
abbrev main_v38 : Ref sig .tc := ⟨.hbm, 144, rfl⟩
abbrev main_v39 : Ref sig .tc := ⟨.hbm, 145, rfl⟩
abbrev main_c_14 : Ref sig .tc := ⟨.hbm, 146, rfl⟩
abbrev main_v40 : Ref sig .tc := ⟨.hbm, 147, rfl⟩
abbrev main_v41 : Ref sig .tc := ⟨.hbm, 148, rfl⟩
abbrev main_v42 : Ref sig .tc := ⟨.hbm, 149, rfl⟩
abbrev main_c_15 : Ref sig .tc := ⟨.hbm, 150, rfl⟩
abbrev main_v43 : Ref sig .tc := ⟨.hbm, 151, rfl⟩
abbrev main_v44 : Ref sig .tc := ⟨.hbm, 152, rfl⟩
abbrev main_c_16 : Ref sig .tc := ⟨.hbm, 153, rfl⟩
abbrev main_v45 : Ref sig .tc := ⟨.hbm, 154, rfl⟩
abbrev main_v46 : Ref sig .tc := ⟨.hbm, 155, rfl⟩
abbrev main_v47 : Ref sig .tc := ⟨.hbm, 156, rfl⟩
abbrev main_v48 : Ref sig .tc := ⟨.hbm, 157, rfl⟩
abbrev main_v49 : Ref sig .tc := ⟨.hbm, 158, rfl⟩
abbrev main_v50 : Ref sig .tc := ⟨.hbm, 159, rfl⟩
abbrev main_v51 : Ref sig .tc := ⟨.hbm, 160, rfl⟩
abbrev main_c_17 : Ref sig .tc := ⟨.hbm, 161, rfl⟩
abbrev main_v52 : Ref sig .tc := ⟨.hbm, 162, rfl⟩
abbrev main_v53 : Ref sig .tc := ⟨.hbm, 163, rfl⟩
abbrev main_v54 : Ref sig .tc := ⟨.hbm, 164, rfl⟩
abbrev main_v55 : Ref sig .tc := ⟨.hbm, 165, rfl⟩
abbrev main_v56 : Ref sig .tc := ⟨.hbm, 166, rfl⟩
abbrev main_v57 : Ref sig .tc := ⟨.hbm, 167, rfl⟩
abbrev main_v58 : Ref sig .tc := ⟨.hbm, 168, rfl⟩
abbrev main_v59 : Ref sig .tc := ⟨.hbm, 169, rfl⟩
abbrev main_c_18 : Ref sig .tc := ⟨.hbm, 170, rfl⟩
abbrev main_call8_v0 : Ref sig .tc := ⟨.hbm, 171, rfl⟩
abbrev main_call8_v1 : Ref sig .tc := ⟨.hbm, 172, rfl⟩
abbrev main_v60 : Ref sig .tc := ⟨.hbm, 173, rfl⟩
abbrev main_call9_v0 : Ref sig .tc := ⟨.hbm, 174, rfl⟩
abbrev main_call9_v1_0 : Ref sig .tc := ⟨.hbm, 175, rfl⟩
abbrev main_v61 : Ref sig .tc := ⟨.hbm, 176, rfl⟩
abbrev main_c_19 : Ref sig .tc := ⟨.hbm, 177, rfl⟩
abbrev main_v62 : Ref sig .tc := ⟨.hbm, 178, rfl⟩
abbrev main_v63 : Ref sig .tc := ⟨.hbm, 179, rfl⟩
abbrev main_c_20 : Ref sig .tc := ⟨.hbm, 180, rfl⟩
abbrev main_v64 : Ref sig .tc := ⟨.hbm, 181, rfl⟩
abbrev main_v65 : Ref sig .tc := ⟨.hbm, 182, rfl⟩
abbrev main_v66 : Ref sig .tc := ⟨.hbm, 183, rfl⟩
abbrev main_v67 : Ref sig .tc := ⟨.hbm, 184, rfl⟩
abbrev main_v68 : Ref sig .tc := ⟨.hbm, 185, rfl⟩
abbrev main_c_21 : Ref sig .tc := ⟨.hbm, 186, rfl⟩
abbrev main_v69 : Ref sig .tc := ⟨.hbm, 187, rfl⟩
abbrev main_v70 : Ref sig .tc := ⟨.hbm, 188, rfl⟩
abbrev main_c_22 : Ref sig .tc := ⟨.hbm, 189, rfl⟩
abbrev main_v71 : Ref sig .tc := ⟨.hbm, 190, rfl⟩
abbrev main_v72 : Ref sig .tc := ⟨.hbm, 191, rfl⟩
abbrev main_v73 : Ref sig .tc := ⟨.hbm, 192, rfl⟩
abbrev main_v74 : Ref sig .tc := ⟨.hbm, 193, rfl⟩
abbrev main_v75 : Ref sig .tc := ⟨.hbm, 194, rfl⟩
abbrev main_c_23 : Ref sig .tc := ⟨.hbm, 195, rfl⟩
abbrev main_call10_v0 : Ref sig .tc := ⟨.hbm, 196, rfl⟩
abbrev main_call10_v1 : Ref sig .tc := ⟨.hbm, 197, rfl⟩
abbrev main_v76 : Ref sig .tc := ⟨.hbm, 198, rfl⟩
abbrev main_c_24 : Ref sig .tc := ⟨.hbm, 199, rfl⟩
abbrev main_v77 : Ref sig .tc := ⟨.hbm, 200, rfl⟩
abbrev main_v78 : Ref sig .tc := ⟨.hbm, 201, rfl⟩
abbrev main_c_25 : Ref sig .tc := ⟨.hbm, 202, rfl⟩
abbrev main_v79 : Ref sig .tc := ⟨.hbm, 203, rfl⟩
abbrev main_v80 : Ref sig .tc := ⟨.hbm, 204, rfl⟩
abbrev main_v81 : Ref sig .tc := ⟨.hbm, 205, rfl⟩
abbrev main_v82 : Ref sig .tc := ⟨.hbm, 206, rfl⟩
abbrev main_v83 : Ref sig .tc := ⟨.hbm, 207, rfl⟩
abbrev main_c_26 : Ref sig .tc := ⟨.hbm, 208, rfl⟩
abbrev main_call11_v0 : Ref sig .tc := ⟨.hbm, 209, rfl⟩
abbrev main_call11_v1 : Ref sig .tc := ⟨.hbm, 210, rfl⟩
abbrev main_v84 : Ref sig .tc := ⟨.hbm, 211, rfl⟩
abbrev main_c_27 : Ref sig .tc := ⟨.hbm, 212, rfl⟩
abbrev main_v85 : Ref sig .tc := ⟨.hbm, 213, rfl⟩
abbrev main_v86 : Ref sig .tc := ⟨.hbm, 214, rfl⟩
abbrev main_c_28 : Ref sig .tc := ⟨.hbm, 215, rfl⟩
abbrev main_v87 : Ref sig .tc := ⟨.hbm, 216, rfl⟩
abbrev main_v88 : Ref sig .tc := ⟨.hbm, 217, rfl⟩
abbrev main_v89 : Ref sig .tc := ⟨.hbm, 218, rfl⟩
abbrev main_v90 : Ref sig .tc := ⟨.hbm, 219, rfl⟩
abbrev main_v91 : Ref sig .tc := ⟨.hbm, 220, rfl⟩
abbrev main_v92 : Ref sig .tc := ⟨.hbm, 221, rfl⟩
abbrev main_v93 : Ref sig .tc := ⟨.hbm, 222, rfl⟩
abbrev main_v94 : Ref sig .tc := ⟨.hbm, 223, rfl⟩
abbrev main_v95 : Ref sig .tc := ⟨.hbm, 224, rfl⟩
abbrev main_c_29 : Ref sig .tc := ⟨.hbm, 225, rfl⟩
abbrev main_v96 : Ref sig .tc := ⟨.hbm, 226, rfl⟩
abbrev main_v97 : Ref sig .tc := ⟨.hbm, 227, rfl⟩
abbrev main_c_30 : Ref sig .tc := ⟨.hbm, 228, rfl⟩
abbrev main_v98 : Ref sig .tc := ⟨.hbm, 229, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S4096x3_S3x4096_1_0 : S4096x3.Transposes [1, 0] S3x4096
  inb_S3x512_S3x512_0_0 : ∀ a, (![0, 0] : Fin 2 → Nat) a + S3x512.size a ≤ S3x512.size a
  h_S3x512 : 0 < S3x512.numel
  shapeCasts_S3x512_S3x512 : S3x512.ShapeCasts S3x512
  shapeCasts_S3x512_S3x1x512 : S3x512.ShapeCasts S3x1x512
  shapeCasts_S3x512_S3x512x1 : S3x512.ShapeCasts S3x512x1
  broadcasts_S3x1x512_S3x512x512 : S3x1x512.Broadcasts S3x512x512
  broadcasts_S3x512x1_S3x512x512 : S3x512x1.Broadcasts S3x512x512
  reduces_S3x512x512_S512x512 : S3x512x512.Reduces [0] S512x512
  natLt_1_32 : 1 < 32
  inb_S3x512x512_S3x512x512_0_0_0 : ∀ a, (![0, 0, 0] : Fin 3 → Nat) a + S3x512x512.size a ≤ S3x512x512.size a
  h_S3x512x512 : 0 < S3x512x512.numel
  inb_S512x512_S512x512_0_0 : ∀ a, (![0, 0] : Fin 2 → Nat) a + S512x512.size a ≤ S512x512.size a
  h_S512x512 : 0 < S512x512.numel
  bcast_S_S4096x4096 : S_.BroadcastsInDim S4096x4096 (![] : Fin 0 → Fin S4096x4096.rank)
  shapeCasts_S4096x4096_S16777216 : S4096x4096.ShapeCasts S16777216
  bcast_S_S_ : S_.BroadcastsInDim S_ (![] : Fin 0 → Fin S_.rank)
  reduceWindows_S16777216_S16777216_w16777216s1p16777215_0 : S16777216.ReduceWindows (![16777216] : Fin 1 → Nat) ![1] ![16777215] ![0] S16777216
  h_S_ : 0 < S_.numel
  bcast_S_S8386560 : S_.BroadcastsInDim S8386560 (![] : Fin 0 → Fin S8386560.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  reduceWindows_S8386560_S8386560_w8386560s1p8386559_0 : S8386560.ReduceWindows (![8386560] : Fin 1 → Nat) ![1] ![8386559] ![0] S8386560
  bcast_S8386560_S8386560x1_0 : S8386560.BroadcastsInDim S8386560x1 (![0] : Fin 1 → Fin S8386560x1.rank)
  concatenates_S8386560x1_S8386560x1_S8386560x2_d1 : Shape.Concatenates [S8386560x1, S8386560x1] S8386560x2 1
  transposes_S3x8386560_S8386560x3_1_0 : S3x8386560.Transposes [1, 0] S8386560x3
  concatenates_S8386560_S8386560_S16773120_d0 : Shape.Concatenates [S8386560, S8386560] S16773120 0
  concatenates_S8386560x3_S8386560x3_S16773120x3_d0 : Shape.Concatenates [S8386560x3, S8386560x3] S16773120x3 0
  bcast_S_S16773120 : S_.BroadcastsInDim S16773120 (![] : Fin 0 → Fin S16773120.rank)
  bcast_S16773120_S16773120x1_0 : S16773120.BroadcastsInDim S16773120x1 (![0] : Fin 1 → Fin S16773120x1.rank)
  bcast_S16773120x1_S16773120x3_0_1 : S16773120x1.BroadcastsInDim S16773120x3 (![0, 1] : Fin 2 → Fin S16773120x3.rank)
  bcast_S_S16773120x3 : S_.BroadcastsInDim S16773120x3 (![] : Fin 0 → Fin S16773120x3.rank)
  reducesTo_S16773120_S_d0 : S16773120.ReducesTo [0] S_
  scatter_S8386560_S16777216x1_S16777216_n_0_0_1_wf : ScatterDims.WF S8386560 S16777216x1 S16777216 [] [0] [0] 1
  gather_S3x4096x4096_S8386560x2_S3x8386560_0_12_n_n_12_1_311_wf : GatherDims.WF S3x4096x4096 S8386560x2 S3x8386560 [0] [1, 2] [] [1, 2] [] 1 ![3, 1, 1]
  gather_S4096x4096_S8386560x2_S8386560_n_01_n_n_01_1_11_wf : GatherDims.WF S4096x4096 S8386560x2 S8386560 [] [0, 1] [] [0, 1] [] 1 ![1, 1]
  gather_S16773120_S16773120x1_S16773120_n_0_n_n_0_1_1_wf : GatherDims.WF S16773120 S16773120x1 S16773120 [] [0] [] [0] [] 1 ![1]
  gather_S16773120x3_S16773120x1_S16773120x3_1_0_n_n_0_1_13_wf : GatherDims.WF S16773120x3 S16773120x1 S16773120x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x512.size a ≤ S3x4096.size a
  hwx0_0 : ∀ i : grid0.Coords, EltTy.bits .f32 = 32 ∨ (Rect.block (s := S3x4096) S3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x512.size a ≤ S3x4096.size a
  hwx0_1 : ∀ i : grid0.Coords, EltTy.bits .f32 = 32 ∨ (Rect.block (s := S3x4096) S3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x512x512.size a ≤ S3x4096x4096.size a
  hwx0_2 : ∀ i : grid0.Coords, EltTy.bits .f32 = 32 ∨ (Rect.block (s := S3x4096x4096) S3x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .i32 = 32 ∨ (Rect.block (s := S4096x4096) S512x512.size (cc0_transform_3 i) (hinb0_3 i)).WholeWords (EltTy.packing .i32)

variable [Facts₀]

def scatter_S8386560_S16777216x1_S16777216_n_0_0_1 : ScatterDims S8386560 S16777216x1 S16777216 where
  updateWindowDims := []
  insertedWindowDims := [0]
  scatterDimsToOperandDims := [0]
  indexVectorDim := 1
  wf := scatter_S8386560_S16777216x1_S16777216_n_0_0_1_wf
def gather_S3x4096x4096_S8386560x2_S3x8386560_0_12_n_n_12_1_311 : GatherDims S3x4096x4096 S8386560x2 S3x8386560 where
  offsetDims := [0]
  collapsedSliceDims := [1, 2]
  operandBatchingDims := []
  startIndicesBatchingDims := []
  startIndexMap := [1, 2]
  indexVectorDim := 1
  sliceSizes := ![3, 1, 1]
  wf := gather_S3x4096x4096_S8386560x2_S3x8386560_0_12_n_n_12_1_311_wf
def gather_S4096x4096_S8386560x2_S8386560_n_01_n_n_01_1_11 : GatherDims S4096x4096 S8386560x2 S8386560 where
  offsetDims := []
  collapsedSliceDims := [0, 1]
  operandBatchingDims := []
  startIndicesBatchingDims := []
  startIndexMap := [0, 1]
  indexVectorDim := 1
  sliceSizes := ![1, 1]
  wf := gather_S4096x4096_S8386560x2_S8386560_n_01_n_n_01_1_11_wf
def comparator_i32_i32_d0 : BitVec 32 × BitVec 32 → BitVec 32 × BitVec 32 → BitVec 1 :=
  fun l r =>
    let v2 := IntOp.cmpi .slt l.1 r.1
    v2
def gather_S16773120_S16773120x1_S16773120_n_0_n_n_0_1_1 : GatherDims S16773120 S16773120x1 S16773120 where
  offsetDims := []
  collapsedSliceDims := [0]
  operandBatchingDims := []
  startIndicesBatchingDims := []
  startIndexMap := [0]
  indexVectorDim := 1
  sliceSizes := ![1]
  wf := gather_S16773120_S16773120x1_S16773120_n_0_n_n_0_1_1_wf
def gather_S16773120x3_S16773120x1_S16773120x3_1_0_n_n_0_1_13 : GatherDims S16773120x3 S16773120x1 S16773120x3 where
  offsetDims := [1]
  collapsedSliceDims := [0]
  operandBatchingDims := []
  startIndicesBatchingDims := []
  startIndexMap := [0]
  indexVectorDim := 1
  sliceSizes := ![1, 3]
  wf := gather_S16773120x3_S16773120x1_S16773120x3_1_0_n_n_0_1_13_wf

abbrev win0_0 : Pipeline.Window sig grid0 :=
  Pipeline.Window.ofSpec (Memref.whole main_v0) S3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S3x512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x3 : Shape := ⟨2, ![4096, 3]⟩
abbrev S3x3 : Shape := ⟨2, ![3, 3]⟩
abbrev S3 : Shape := ⟨1, ![3]⟩
abbrev S_ : Shape := ⟨0, ![]⟩
abbrev S4096x4096 : Shape := ⟨2, ![4096, 4096]⟩
abbrev S16777216 : Shape := ⟨1, ![16777216]⟩
abbrev S8386560 : Shape := ⟨1, ![8386560]⟩
abbrev S16777216x1 : Shape := ⟨2, ![16777216, 1]⟩
abbrev S8386560x1 : Shape := ⟨2, ![8386560, 1]⟩
abbrev S8386560x3 : Shape := ⟨2, ![8386560, 3]⟩
abbrev S16773120 : Shape := ⟨1, ![16773120]⟩
abbrev S16773120x3 : Shape := ⟨2, ![16773120, 3]⟩
abbrev S16773120x1 : Shape := ⟨2, ![16773120, 1]⟩

abbrev nBuf : Space → Nat
  | .hbm => 211
  | .vmem => 0
  | .smem => 0
  | _ => 0

abbrev hbmTy0_0 (i : Nat) : BufTy := match i % 128 with
  | 0 => ⟨S4096x3, .f32⟩
  | 1 => ⟨S3x3, .f32⟩
  | 2 => ⟨S3, .i1⟩
  | 3 => ⟨S_, .f32⟩
  | 4 => ⟨S4096x4096, .f32⟩
  | 5 => ⟨S4096x4096, .i32⟩
  | 6 => ⟨S_, .i32⟩
  | 7 => ⟨S4096x4096, .i32⟩
  | 8 => ⟨S4096x4096, .i32⟩
  | 9 => ⟨S4096x4096, .i32⟩
  | 10 => ⟨S4096x4096, .i1⟩
  | 11 => ⟨S_, .f32⟩
  | 12 => ⟨S4096x4096, .f32⟩
  | 13 => ⟨S4096x4096, .f32⟩
  | 14 => ⟨S_, .f32⟩
  | 15 => ⟨S4096x4096, .f32⟩
  | 16 => ⟨S4096x4096, .i1⟩
  | 17 => ⟨S16777216, .i1⟩
  | 18 => ⟨S16777216, .i32⟩
  | 19 => ⟨S_, .i32⟩
  | 20 => ⟨S_, .i32⟩
  | 21 => ⟨S16777216, .i32⟩
  | 22 => ⟨S_, .i32⟩
  | 23 => ⟨S8386560, .i32⟩
  | 24 => ⟨S_, .i32⟩
  | 25 => ⟨S_, .i32⟩
  | 26 => ⟨S16777216, .i32⟩
  | 27 => ⟨S16777216, .i32⟩
  | 28 => ⟨S_, .i32⟩
  | 29 => ⟨S16777216, .i32⟩
  | 30 => ⟨S16777216, .i1⟩
  | 31 => ⟨S_, .i32⟩
  | 32 => ⟨S16777216, .i32⟩
  | 33 => ⟨S16777216, .i32⟩
  | 34 => ⟨S16777216, .i32⟩
  | 35 => ⟨S16777216x1, .i32⟩
  | 36 => ⟨S_, .i32⟩
  | 37 => ⟨S16777216, .i32⟩
  | 38 => ⟨S8386560, .i32⟩
  | 39 => ⟨S_, .i32⟩
  | 40 => ⟨S_, .i32⟩
  | 41 => ⟨S8386560, .i32⟩
  | 42 => ⟨S_, .i32⟩
  | 43 => ⟨S8386560, .i32⟩
  | 44 => ⟨S8386560, .i32⟩
  | 45 => ⟨S8386560, .i32⟩
  | 46 => ⟨S_, .i32⟩
  | 47 => ⟨S8386560, .i32⟩
  | 48 => ⟨S8386560, .i1⟩
  | 49 => ⟨S8386560, .i32⟩
  | 50 => ⟨S8386560, .i32⟩
  | 51 => ⟨S_, .i32⟩
  | 52 => ⟨S8386560, .i32⟩
  | 53 => ⟨S8386560, .i1⟩
  | 54 => ⟨S8386560, .i1⟩
  | 55 => ⟨S_, .i32⟩
  | 56 => ⟨S8386560, .i32⟩
  | 57 => ⟨S8386560, .i32⟩
  | 58 => ⟨S8386560, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S8386560, .i32⟩
  | 66 => ⟨S8386560, .i32⟩
  | 67 => ⟨S_, .i32⟩
  | 68 => ⟨S8386560, .i32⟩
  | 69 => ⟨S8386560, .i1⟩
  | 70 => ⟨S_, .i32⟩
  | 71 => ⟨S8386560, .i32⟩
  | 72 => ⟨S8386560, .i1⟩
  | 73 => ⟨S_, .i32⟩
  | 74 => ⟨S_, .i1⟩
  | 75 => ⟨S8386560, .i1⟩
  | 76 => ⟨S8386560, .i1⟩
  | 77 => ⟨S8386560, .i1⟩
  | 78 => ⟨S8386560, .i32⟩
  | 79 => ⟨S8386560, .i32⟩
  | 80 => ⟨S8386560, .i32⟩
  | 81 => ⟨S_, .i32⟩
  | 82 => ⟨S8386560, .i32⟩
  | 83 => ⟨S8386560, .i32⟩
  | 84 => ⟨S8386560, .i32⟩
  | 85 => ⟨S_, .i32⟩
  | 86 => ⟨S8386560, .i32⟩
  | 87 => ⟨S8386560, .i1⟩
  | 88 => ⟨S8386560, .i32⟩
  | 89 => ⟨S8386560, .i32⟩
  | 90 => ⟨S_, .i32⟩
  | 91 => ⟨S8386560, .i32⟩
  | 92 => ⟨S8386560, .i1⟩
  | 93 => ⟨S8386560, .i1⟩
  | 94 => ⟨S_, .i32⟩
  | 95 => ⟨S8386560, .i32⟩
  | 96 => ⟨S8386560, .i32⟩
  | 97 => ⟨S8386560, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S8386560, .i32⟩
  | 105 => ⟨S8386560, .i32⟩
  | 106 => ⟨S_, .i32⟩
  | 107 => ⟨S8386560, .i32⟩
  | 108 => ⟨S8386560, .i1⟩
  | 109 => ⟨S_, .i32⟩
  | 110 => ⟨S8386560, .i32⟩
  | 111 => ⟨S8386560, .i1⟩
  | 112 => ⟨S_, .i32⟩
  | 113 => ⟨S_, .i1⟩
  | 114 => ⟨S8386560, .i1⟩
  | 115 => ⟨S8386560, .i1⟩
  | 116 => ⟨S8386560, .i1⟩
  | 117 => ⟨S8386560, .i32⟩
  | 118 => ⟨S8386560, .i32⟩
  | 119 => ⟨S8386560, .i32⟩
  | 120 => ⟨S_, .i32⟩
  | 121 => ⟨S8386560, .i32⟩
  | 122 => ⟨S8386560, .i1⟩
  | 123 => ⟨S_, .i32⟩
  | 124 => ⟨S8386560, .i32⟩
  | 125 => ⟨S8386560, .i32⟩
  | 126 => ⟨S8386560, .i32⟩
  | 127 => ⟨S8386560x1, .i32⟩
  | _ => ⟨S4096x3, .f32⟩

abbrev hbmTy0_1 (i : Nat) : BufTy := match i % 128 with
  | 0 => ⟨S8386560x3, .f32⟩
  | 1 => ⟨S_, .i32⟩
  | 2 => ⟨S8386560, .i32⟩
  | 3 => ⟨S8386560, .i1⟩
  | 4 => ⟨S_, .i32⟩
  | 5 => ⟨S8386560, .i32⟩
  | 6 => ⟨S8386560, .i32⟩
  | 7 => ⟨S8386560, .i32⟩
  | 8 => ⟨S8386560x1, .i32⟩
  | 9 => ⟨S8386560x3, .f32⟩
  | 10 => ⟨S8386560x3, .f32⟩
  | 11 => ⟨S8386560x3, .f32⟩
  | 12 => ⟨S_, .f32⟩
  | 13 => ⟨S8386560, .f32⟩
  | 14 => ⟨S8386560, .f32⟩
  | 15 => ⟨S_, .f32⟩
  | 16 => ⟨S8386560, .f32⟩
  | 17 => ⟨S8386560, .i1⟩
  | 18 => ⟨S16773120, .i32⟩
  | 19 => ⟨S16773120, .i32⟩
  | 20 => ⟨S8386560x3, .f32⟩
  | 21 => ⟨S16773120x3, .f32⟩
  | 22 => ⟨S16773120, .i1⟩
  | 23 => ⟨S_, .i32⟩
  | 24 => ⟨S_, .i32⟩
  | 25 => ⟨S16773120, .i32⟩
  | 26 => ⟨S16773120, .i32⟩
  | 27 => ⟨S16773120, .i32⟩
  | 28 => ⟨S16773120, .i32⟩
  | 29 => ⟨S16773120, .i32⟩
  | 30 => ⟨S_, .i32⟩
  | 31 => ⟨S16773120, .i32⟩
  | 32 => ⟨S16773120, .i1⟩
  | 33 => ⟨S_, .i32⟩
  | 34 => ⟨S16773120, .i32⟩
  | 35 => ⟨S16773120, .i32⟩
  | 36 => ⟨S16773120, .i32⟩
  | 37 => ⟨S16773120x1, .i32⟩
  | 38 => ⟨S16773120, .i1⟩
  | 39 => ⟨S_, .i32⟩
  | 40 => ⟨S16773120, .i32⟩
  | 41 => ⟨S16773120, .i1⟩
  | 42 => ⟨S_, .i32⟩
  | 43 => ⟨S16773120, .i32⟩
  | 44 => ⟨S16773120, .i32⟩
  | 45 => ⟨S16773120, .i32⟩
  | 46 => ⟨S16773120x1, .i32⟩
  | 47 => ⟨S16773120, .i32⟩
  | 48 => ⟨S_, .i32⟩
  | 49 => ⟨S_, .i32⟩
  | 50 => ⟨S16773120, .i32⟩
  | 51 => ⟨S16773120, .i32⟩
  | 52 => ⟨S_, .i32⟩
  | 53 => ⟨S16773120, .i32⟩
  | 54 => ⟨S16773120, .i1⟩
  | 55 => ⟨S_, .i32⟩
  | 56 => ⟨S16773120, .i32⟩
  | 57 => ⟨S16773120, .i32⟩
  | 58 => ⟨S16773120, .i32⟩
  | 59 => ⟨S16773120x1, .i32⟩
  | 60 => ⟨S16773120, .i32⟩
  | 61 => ⟨S_, .i32⟩
  | 62 => ⟨S_, .i32⟩
  | 63 => ⟨S16773120, .i32⟩
  | 64 => ⟨S16773120, .i32⟩
  | 65 => ⟨S_, .i32⟩
  | 66 => ⟨S16773120, .i32⟩
  | 67 => ⟨S16773120, .i1⟩
  | 68 => ⟨S_, .i32⟩
  | 69 => ⟨S16773120, .i32⟩
  | 70 => ⟨S16773120, .i32⟩
  | 71 => ⟨S16773120, .i32⟩
  | 72 => ⟨S16773120x1, .i32⟩
  | 73 => ⟨S16773120x3, .f32⟩
  | 74 => ⟨S16773120x1, .i1⟩
  | 75 => ⟨S16773120x1, .f32⟩
  | 76 => ⟨S16773120x3, .f32⟩
  | 77 => ⟨S16773120x3, .f32⟩
  | 78 => ⟨S_, .i32⟩
  | 79 => ⟨S16773120x3, .i32⟩
  | 80 => ⟨S16773120, .i32⟩
  | 81 => ⟨S_, .i32⟩
  | 82 => ⟨S_, .i32⟩
  | _ => ⟨S4096x3, .f32⟩

abbrev hbmTy (i : Nat) : BufTy := match i / 128 with
  | 0 => hbmTy0_0 i
  | 1 => hbmTy0_1 i
  | _ => ⟨S4096x3, .f32⟩

abbrev bufTy : (tb : Table) → Fin (tcTables nBuf tb) → BufTy
  | .hbm, ⟨i, _⟩ => hbmTy i
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_call1_v0 : Ref sig .tc := ⟨.hbm, 17, rfl⟩
abbrev main_call1_v1 : Ref sig .tc := ⟨.hbm, 18, rfl⟩
abbrev main_call1_call0_c : Ref sig .tc := ⟨.hbm, 19, rfl⟩
abbrev main_call1_call0_v0 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_c_1 : Ref sig .tc := ⟨.hbm, 24, rfl⟩
abbrev main_call2_v0 : Ref sig .tc := ⟨.hbm, 25, rfl⟩
abbrev main_call2_v1 : Ref sig .tc := ⟨.hbm, 26, rfl⟩
abbrev main_v6 : Ref sig .tc := ⟨.hbm, 27, rfl⟩
abbrev main_c_2 : Ref sig .tc := ⟨.hbm, 28, rfl⟩
abbrev main_v7 : Ref sig .tc := ⟨.hbm, 29, rfl⟩
abbrev main_v8 : Ref sig .tc := ⟨.hbm, 30, rfl⟩
abbrev main_c_3 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_4 : Ref sig .tc := ⟨.hbm, 36, rfl⟩
abbrev main_v13 : Ref sig .tc := ⟨.hbm, 37, rfl⟩
abbrev main_v14 : Ref sig .tc := ⟨.hbm, 38, rfl⟩
abbrev main_call3_call0_c : Ref sig .tc := ⟨.hbm, 39, rfl⟩
abbrev main_call3_call0_v0 : Ref sig .tc := ⟨.hbm, 40, rfl⟩
abbrev main_v15 : Ref sig .tc := ⟨.hbm, 41, rfl⟩
abbrev main_c_5 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_call4_v5 : Ref sig .tc := ⟨.hbm, 48, rfl⟩
abbrev main_call4_v6 : Ref sig .tc := ⟨.hbm, 49, rfl⟩
abbrev main_call4_v7 : Ref sig .tc := ⟨.hbm, 50, rfl⟩
abbrev main_call4_c : Ref sig .tc := ⟨.hbm, 51, rfl⟩
abbrev main_call4_v8 : Ref sig .tc := ⟨.hbm, 52, rfl⟩
abbrev main_call4_v9 : Ref sig .tc := ⟨.hbm, 53, rfl⟩
abbrev main_call4_v10 : Ref sig .tc := ⟨.hbm, 54, rfl⟩
abbrev main_call4_c_0 : Ref sig .tc := ⟨.hbm, 55, rfl⟩
abbrev main_call4_v11 : Ref sig .tc := ⟨.hbm, 56, rfl⟩
abbrev main_call4_v12 : Ref sig .tc := ⟨.hbm, 57, rfl⟩
abbrev main_v16 : Ref sig .tc := ⟨.hbm, 58, rfl⟩
abbrev main_c_6 : Ref sig .tc := ⟨.hbm, 59, rfl⟩
abbrev main_call5_v0 : Ref sig .tc := ⟨.hbm, 60, rfl⟩
abbrev main_call5_c : Ref sig .tc := ⟨.hbm, 61, rfl⟩
abbrev main_call5_v1 : Ref sig .tc := ⟨.hbm, 62, rfl⟩
abbrev main_call5_c_0 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_call5_c_1 : Ref sig .tc := ⟨.hbm, 67, rfl⟩
abbrev main_call5_v5 : Ref sig .tc := ⟨.hbm, 68, rfl⟩
abbrev main_call5_v6 : Ref sig .tc := ⟨.hbm, 69, rfl⟩
abbrev main_call5_c_2 : Ref sig .tc := ⟨.hbm, 70, rfl⟩
abbrev main_call5_v7 : Ref sig .tc := ⟨.hbm, 71, rfl⟩
abbrev main_call5_v8 : Ref sig .tc := ⟨.hbm, 72, rfl⟩
abbrev main_call5_c_3 : Ref sig .tc := ⟨.hbm, 73, rfl⟩
abbrev main_call5_v9 : Ref sig .tc := ⟨.hbm, 74, rfl⟩
abbrev main_call5_v10 : Ref sig .tc := ⟨.hbm, 75, rfl⟩
abbrev main_call5_v11 : Ref sig .tc := ⟨.hbm, 76, rfl⟩
abbrev main_call5_v12 : Ref sig .tc := ⟨.hbm, 77, rfl⟩
abbrev main_call5_v13 : Ref sig .tc := ⟨.hbm, 78, rfl⟩
abbrev main_call5_v14 : Ref sig .tc := ⟨.hbm, 79, rfl⟩
abbrev main_v17 : Ref sig .tc := ⟨.hbm, 80, rfl⟩
abbrev main_c_7 : Ref sig .tc := ⟨.hbm, 81, rfl⟩
abbrev main_call6_v0 : Ref sig .tc := ⟨.hbm, 82, rfl⟩
abbrev main_call6_v1 : Ref sig .tc := ⟨.hbm, 83, rfl⟩
abbrev main_call6_v2 : Ref sig .tc := ⟨.hbm, 84, rfl⟩
abbrev main_call6_v3 : Ref sig .tc := ⟨.hbm, 85, rfl⟩
abbrev main_call6_v4 : Ref sig .tc := ⟨.hbm, 86, rfl⟩
abbrev main_call6_v5 : Ref sig .tc := ⟨.hbm, 87, rfl⟩
abbrev main_call6_v6 : Ref sig .tc := ⟨.hbm, 88, rfl⟩
abbrev main_call6_v7 : Ref sig .tc := ⟨.hbm, 89, rfl⟩
abbrev main_call6_c : Ref sig .tc := ⟨.hbm, 90, rfl⟩
abbrev main_call6_v8 : Ref sig .tc := ⟨.hbm, 91, rfl⟩
abbrev main_call6_v9 : Ref sig .tc := ⟨.hbm, 92, rfl⟩
abbrev main_call6_v10 : Ref sig .tc := ⟨.hbm, 93, rfl⟩
abbrev main_call6_c_0 : Ref sig .tc := ⟨.hbm, 94, rfl⟩
abbrev main_call6_v11 : Ref sig .tc := ⟨.hbm, 95, rfl⟩
abbrev main_call6_v12 : Ref sig .tc := ⟨.hbm, 96, rfl⟩
abbrev main_v18 : Ref sig .tc := ⟨.hbm, 97, rfl⟩
abbrev main_c_8 : Ref sig .tc := ⟨.hbm, 98, rfl⟩
abbrev main_call7_v0 : Ref sig .tc := ⟨.hbm, 99, rfl⟩
abbrev main_call7_c : Ref sig .tc := ⟨.hbm, 100, rfl⟩
abbrev main_call7_v1 : Ref sig .tc := ⟨.hbm, 101, rfl⟩
abbrev main_call7_c_0 : Ref sig .tc := ⟨.hbm, 102, rfl⟩
abbrev main_call7_v2 : Ref sig .tc := ⟨.hbm, 103, rfl⟩
abbrev main_call7_v3 : Ref sig .tc := ⟨.hbm, 104, rfl⟩
abbrev main_call7_v4 : Ref sig .tc := ⟨.hbm, 105, rfl⟩
abbrev main_call7_c_1 : Ref sig .tc := ⟨.hbm, 106, rfl⟩
abbrev main_call7_v5 : Ref sig .tc := ⟨.hbm, 107, rfl⟩
abbrev main_call7_v6 : Ref sig .tc := ⟨.hbm, 108, rfl⟩
abbrev main_call7_c_2 : Ref sig .tc := ⟨.hbm, 109, rfl⟩
abbrev main_call7_v7 : Ref sig .tc := ⟨.hbm, 110, rfl⟩
abbrev main_call7_v8 : Ref sig .tc := ⟨.hbm, 111, rfl⟩
abbrev main_call7_c_3 : Ref sig .tc := ⟨.hbm, 112, rfl⟩
abbrev main_call7_v9 : Ref sig .tc := ⟨.hbm, 113, rfl⟩
abbrev main_call7_v10 : Ref sig .tc := ⟨.hbm, 114, rfl⟩
abbrev main_call7_v11 : Ref sig .tc := ⟨.hbm, 115, rfl⟩
abbrev main_call7_v12 : Ref sig .tc := ⟨.hbm, 116, rfl⟩
abbrev main_call7_v13 : Ref sig .tc := ⟨.hbm, 117, rfl⟩
abbrev main_call7_v14 : Ref sig .tc := ⟨.hbm, 118, rfl⟩
abbrev main_v19 : Ref sig .tc := ⟨.hbm, 119, rfl⟩
abbrev main_c_9 : Ref sig .tc := ⟨.hbm, 120, rfl⟩
abbrev main_v20 : Ref sig .tc := ⟨.hbm, 121, rfl⟩
abbrev main_v21 : Ref sig .tc := ⟨.hbm, 122, rfl⟩
abbrev main_c_10 : Ref sig .tc := ⟨.hbm, 123, rfl⟩
abbrev main_v22 : Ref sig .tc := ⟨.hbm, 124, rfl⟩
abbrev main_v23 : Ref sig .tc := ⟨.hbm, 125, rfl⟩
abbrev main_v24 : Ref sig .tc := ⟨.hbm, 126, rfl⟩
abbrev main_v25 : Ref sig .tc := ⟨.hbm, 127, rfl⟩
abbrev main_v26 : Ref sig .tc := ⟨.hbm, 128, rfl⟩
abbrev main_c_11 : Ref sig .tc := ⟨.hbm, 129, rfl⟩
abbrev main_v27 : Ref sig .tc := ⟨.hbm, 130, rfl⟩
abbrev main_v28 : Ref sig .tc := ⟨.hbm, 131, rfl⟩
abbrev main_c_12 : Ref sig .tc := ⟨.hbm, 132, rfl⟩
abbrev main_v29 : Ref sig .tc := ⟨.hbm, 133, rfl⟩
abbrev main_v30 : Ref sig .tc := ⟨.hbm, 134, rfl⟩
abbrev main_v31 : Ref sig .tc := ⟨.hbm, 135, rfl⟩
abbrev main_v32 : Ref sig .tc := ⟨.hbm, 136, rfl⟩
abbrev main_v33 : Ref sig .tc := ⟨.hbm, 137, rfl⟩
abbrev main_v34 : Ref sig .tc := ⟨.hbm, 138, rfl⟩
abbrev main_call8_v0 : Ref sig .tc := ⟨.hbm, 139, rfl⟩
abbrev main_call8_cst : Ref sig .tc := ⟨.hbm, 140, rfl⟩
abbrev main_call8_v1 : Ref sig .tc := ⟨.hbm, 141, rfl⟩
abbrev main_v35 : Ref sig .tc := ⟨.hbm, 142, rfl⟩
abbrev main_cst_13 : Ref sig .tc := ⟨.hbm, 143, rfl⟩
abbrev main_v36 : Ref sig .tc := ⟨.hbm, 144, rfl⟩
abbrev main_v37 : Ref sig .tc := ⟨.hbm, 145, rfl⟩
abbrev main_v38 : Ref sig .tc := ⟨.hbm, 146, rfl⟩
abbrev main_v39 : Ref sig .tc := ⟨.hbm, 147, rfl⟩
abbrev main_v40 : Ref sig .tc := ⟨.hbm, 148, rfl⟩
abbrev main_v41 : Ref sig .tc := ⟨.hbm, 149, rfl⟩
abbrev main_v42 : Ref sig .tc := ⟨.hbm, 150, rfl⟩
abbrev main_c_14 : Ref sig .tc := ⟨.hbm, 151, rfl⟩
abbrev main_call9_v0 : Ref sig .tc := ⟨.hbm, 152, rfl⟩
abbrev main_call9_v1 : Ref sig .tc := ⟨.hbm, 153, rfl⟩
abbrev main_v43 : Ref sig .tc := ⟨.hbm, 154, rfl⟩
abbrev main_call10_v0 : Ref sig .tc := ⟨.hbm, 155, rfl⟩
abbrev main_call10_v1_0 : Ref sig .tc := ⟨.hbm, 156, rfl⟩
abbrev main_v44 : Ref sig .tc := ⟨.hbm, 157, rfl⟩
abbrev main_c_15 : Ref sig .tc := ⟨.hbm, 158, rfl⟩
abbrev main_v45 : Ref sig .tc := ⟨.hbm, 159, rfl⟩
abbrev main_v46 : Ref sig .tc := ⟨.hbm, 160, rfl⟩
abbrev main_c_16 : Ref sig .tc := ⟨.hbm, 161, rfl⟩
abbrev main_v47 : Ref sig .tc := ⟨.hbm, 162, rfl⟩
abbrev main_v48 : Ref sig .tc := ⟨.hbm, 163, rfl⟩
abbrev main_v49 : Ref sig .tc := ⟨.hbm, 164, rfl⟩
abbrev main_v50 : Ref sig .tc := ⟨.hbm, 165, rfl⟩
abbrev main_v51 : Ref sig .tc := ⟨.hbm, 166, rfl⟩
abbrev main_c_17 : Ref sig .tc := ⟨.hbm, 167, rfl⟩
abbrev main_v52 : Ref sig .tc := ⟨.hbm, 168, rfl⟩
abbrev main_v53 : Ref sig .tc := ⟨.hbm, 169, rfl⟩
abbrev main_c_18 : Ref sig .tc := ⟨.hbm, 170, rfl⟩
abbrev main_v54 : Ref sig .tc := ⟨.hbm, 171, rfl⟩
abbrev main_v55 : Ref sig .tc := ⟨.hbm, 172, rfl⟩
abbrev main_v56 : Ref sig .tc := ⟨.hbm, 173, rfl⟩
abbrev main_v57 : Ref sig .tc := ⟨.hbm, 174, rfl⟩
abbrev main_v58 : Ref sig .tc := ⟨.hbm, 175, rfl⟩
abbrev main_c_19 : Ref sig .tc := ⟨.hbm, 176, rfl⟩
abbrev main_call11_v0 : Ref sig .tc := ⟨.hbm, 177, rfl⟩
abbrev main_call11_v1 : Ref sig .tc := ⟨.hbm, 178, rfl⟩
abbrev main_v59 : Ref sig .tc := ⟨.hbm, 179, rfl⟩
abbrev main_c_20 : Ref sig .tc := ⟨.hbm, 180, rfl⟩
abbrev main_v60 : Ref sig .tc := ⟨.hbm, 181, rfl⟩
abbrev main_v61 : Ref sig .tc := ⟨.hbm, 182, rfl⟩
abbrev main_c_21 : Ref sig .tc := ⟨.hbm, 183, rfl⟩
abbrev main_v62 : Ref sig .tc := ⟨.hbm, 184, rfl⟩
abbrev main_v63 : Ref sig .tc := ⟨.hbm, 185, rfl⟩
abbrev main_v64 : Ref sig .tc := ⟨.hbm, 186, rfl⟩
abbrev main_v65 : Ref sig .tc := ⟨.hbm, 187, rfl⟩
abbrev main_v66 : Ref sig .tc := ⟨.hbm, 188, rfl⟩
abbrev main_c_22 : Ref sig .tc := ⟨.hbm, 189, rfl⟩
abbrev main_call12_v0 : Ref sig .tc := ⟨.hbm, 190, rfl⟩
abbrev main_call12_v1 : Ref sig .tc := ⟨.hbm, 191, rfl⟩
abbrev main_v67 : Ref sig .tc := ⟨.hbm, 192, rfl⟩
abbrev main_c_23 : Ref sig .tc := ⟨.hbm, 193, rfl⟩
abbrev main_v68 : Ref sig .tc := ⟨.hbm, 194, rfl⟩
abbrev main_v69 : Ref sig .tc := ⟨.hbm, 195, rfl⟩
abbrev main_c_24 : Ref sig .tc := ⟨.hbm, 196, rfl⟩
abbrev main_v70 : Ref sig .tc := ⟨.hbm, 197, rfl⟩
abbrev main_v71 : Ref sig .tc := ⟨.hbm, 198, rfl⟩
abbrev main_v72 : Ref sig .tc := ⟨.hbm, 199, rfl⟩
abbrev main_v73 : Ref sig .tc := ⟨.hbm, 200, rfl⟩
abbrev main_v74 : Ref sig .tc := ⟨.hbm, 201, rfl⟩
abbrev main_v75 : Ref sig .tc := ⟨.hbm, 202, rfl⟩
abbrev main_v76 : Ref sig .tc := ⟨.hbm, 203, rfl⟩
abbrev main_v77 : Ref sig .tc := ⟨.hbm, 204, rfl⟩
abbrev main_v78 : Ref sig .tc := ⟨.hbm, 205, rfl⟩
abbrev main_c_25 : Ref sig .tc := ⟨.hbm, 206, rfl⟩
abbrev main_v79 : Ref sig .tc := ⟨.hbm, 207, rfl⟩
abbrev main_v80 : Ref sig .tc := ⟨.hbm, 208, rfl⟩
abbrev main_c_26 : Ref sig .tc := ⟨.hbm, 209, rfl⟩
abbrev main_v81 : Ref sig .tc := ⟨.hbm, 210, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  shapeCasts_S4096x4096_S16777216 : S4096x4096.ShapeCasts S16777216
  natLt_1_32 : 1 < 32
  bcast_S_S_ : S_.BroadcastsInDim S_ (![] : Fin 0 → Fin S_.rank)
  reduceWindows_S16777216_S16777216_w16777216s1p16777215_0 : S16777216.ReduceWindows (![16777216] : Fin 1 → Nat) ![1] ![16777215] ![0] S16777216
  h_S_ : 0 < S_.numel
  bcast_S_S8386560 : S_.BroadcastsInDim S8386560 (![] : Fin 0 → Fin S8386560.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  reduceWindows_S8386560_S8386560_w8386560s1p8386559_0 : S8386560.ReduceWindows (![8386560] : Fin 1 → Nat) ![1] ![8386559] ![0] S8386560
  bcast_S8386560_S8386560x1_0 : S8386560.BroadcastsInDim S8386560x1 (![0] : Fin 1 → Fin S8386560x1.rank)
  reducesTo_S8386560x3_S8386560_d1 : S8386560x3.ReducesTo [1] S8386560
  concatenates_S8386560_S8386560_S16773120_d0 : Shape.Concatenates [S8386560, S8386560] S16773120 0
  concatenates_S8386560x3_S8386560x3_S16773120x3_d0 : Shape.Concatenates [S8386560x3, S8386560x3] S16773120x3 0
  bcast_S_S16773120 : S_.BroadcastsInDim S16773120 (![] : Fin 0 → Fin S16773120.rank)
  bcast_S16773120_S16773120x1_0 : S16773120.BroadcastsInDim S16773120x1 (![0] : Fin 1 → Fin S16773120x1.rank)
  bcast_S16773120x1_S16773120x3_0_1 : S16773120x1.BroadcastsInDim S16773120x3 (![0, 1] : Fin 2 → Fin S16773120x3.rank)
  bcast_S_S16773120x3 : S_.BroadcastsInDim S16773120x3 (![] : Fin 0 → Fin S16773120x3.rank)
  reducesTo_S16773120_S_d0 : S16773120.ReducesTo [0] S_
  scatter_S8386560_S16777216x1_S16777216_n_0_0_1_wf : ScatterDims.WF S8386560 S16777216x1 S16777216 [] [0] [0] 1
  gather_S4096x3_S8386560x1_S8386560x3_1_0_n_n_0_1_13_wf : GatherDims.WF S4096x3 S8386560x1 S8386560x3 [1] [0] [] [0] [] 1 ![1, 3]
  gather_S16773120_S16773120x1_S16773120_n_0_n_n_0_1_1_wf : GatherDims.WF S16773120 S16773120x1 S16773120 [] [0] [] [0] [] 1 ![1]
  gather_S16773120x3_S16773120x1_S16773120x3_1_0_n_n_0_1_13_wf : GatherDims.WF S16773120x3 S16773120x1 S16773120x3 [1] [0] [] [0] [] 1 ![1, 3]

variable [Facts₀]

def scatter_S8386560_S16777216x1_S16777216_n_0_0_1 : ScatterDims S8386560 S16777216x1 S16777216 where
  updateWindowDims := []
  insertedWindowDims := [0]
  scatterDimsToOperandDims := [0]
  indexVectorDim := 1
  wf := scatter_S8386560_S16777216x1_S16777216_n_0_0_1_wf
def gather_S4096x3_S8386560x1_S8386560x3_1_0_n_n_0_1_13 : GatherDims S4096x3 S8386560x1 S8386560x3 where
  offsetDims := [1]
  collapsedSliceDims := [0]
  operandBatchingDims := []
  startIndicesBatchingDims := []
  startIndexMap := [0]
  indexVectorDim := 1
  sliceSizes := ![1, 3]
  wf := gather_S4096x3_S8386560x1_S8386560x3_1_0_n_n_0_1_13_wf
def comparator_i32_i32_d0 : BitVec 32 × BitVec 32 → BitVec 32 × BitVec 32 → BitVec 1 :=
  fun l r =>
    let v2 := IntOp.cmpi .slt l.1 r.1
    v2
def gather_S16773120_S16773120x1_S16773120_n_0_n_n_0_1_1 : GatherDims S16773120 S16773120x1 S16773120 where
  offsetDims := []
  collapsedSliceDims := [0]
  operandBatchingDims := []
  startIndicesBatchingDims := []
  startIndexMap := [0]
  indexVectorDim := 1
  sliceSizes := ![1]
  wf := gather_S16773120_S16773120x1_S16773120_n_0_n_n_0_1_1_wf
def gather_S16773120x3_S16773120x1_S16773120x3_1_0_n_n_0_1_13 : GatherDims S16773120x3 S16773120x1 S16773120x3 where
  offsetDims := [1]
  collapsedSliceDims := [0]
  operandBatchingDims := []
  startIndicesBatchingDims := []
  startIndexMap := [0]
  indexVectorDim := 1
  sliceSizes := ![1, 3]
  wf := gather_S16773120x3_S16773120x1_S16773120x3_1_0_n_n_0_1_13_wf

class Facts : Prop extends Facts₀ where

variable [Facts]
-- ==== Proof.BRegion.lean ====
/-
  The pairwise kernel's region: what the body leaves, the proof data, the body obligation.

  The kernel is launched over an 8 × 8 grid. At point (i, j) it is handed two blocks of ONE array, the transposed
  positions [3, 4096]: columns 512·i … 512·i + 511 through window 0 and columns 512·j … 512·j + 511 through window 1.
  Its body loads both blocks, stores the displacement block (window 2, [3, 512, 512]) and the cutoff block
  (window 3, [512, 512]), each whole. Both input windows read the same array, so the array's full share is divided
  between them: window 0 holds the left half, window 1 the right half.
-/
import proofs.«127677_j1614907703797_1_alg».proof.Proof.Gen.Kernel.Launch
import proofs.«127677_j1614907703797_1_alg».proof.Proof.Gen.Kernel.Skeleton
import proofs.«127677_j1614907703797_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: after the one host line before it (the transposition). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rIn : Rect S3x512 := Rect.unit (s := S3x512) ![0, 0] S3x512.size inb_S3x512_S3x512_0_0
abbrev rRij : Rect S3x512x512 := Rect.unit (s := S3x512x512) ![0, 0, 0] S3x512x512.size inb_S3x512x512_S3x512x512_0_0_0
abbrev rCut : Rect S512x512 := Rect.unit (s := S512x512) ![0, 0] S512x512.size inb_S512x512_S512x512_0_0

/-- The displacement window's buffer after the body: its one store, of the first payload of the two input blocks. -/
def outRij (x0 x1 : Vec F S3x512 .f32) : Vec F S3x512x512 .f32 :=
  View.canon [⟨rRij, k0_pay1 (View.ld x0 rIn) (View.ld x1 rIn)⟩]
/-- The cutoff window's buffer after the body: its one store, of the second payload. -/
def outCut (x0 x1 : Vec F S3x512 .f32) : Vec F S512x512 .i32 :=
  View.canon [⟨rCut, k0_pay2 (View.ld x0 rIn) (View.ld x1 rIn)⟩]

theorem coverRij (p0 : Vec F S3x512x512 .f32) (y : S3x512x512.Idx) :
    ∃ pc ∈ ([⟨rRij, p0⟩] : List (View.Piece (Elt F) S3x512x512 .f32)), y ∈ pc.1.set :=
  View.cover_of_tiled [⟨rRij, p0⟩] S3x512x512.size (by rfl) y
theorem coverCut (p0 : Vec F S512x512 .i32) (y : S512x512.Idx) :
    ∃ pc ∈ ([⟨rCut, p0⟩] : List (View.Piece (Elt F) S512x512 .i32)), y ∈ pc.1.set :=
  View.cover_of_tiled [⟨rCut, p0⟩] S512x512.size (by rfl) y

/-! ## The body's triple -/

set_option maxHeartbeats 4000000 in
/-- The body on whole staging memrefs, the inputs' at contents `x0`, `x1` and the outputs' at anything, runs to the
    continuation holding the inputs' as they were and the outputs' at `outRij`, `outCut` of the inputs'. -/
theorem sound_kernel (c : Dev nD) (E : Set ℕ) (i : grid0.Coords)
    (arg2 : Memref sig .tc .vmem S3x512 .f32) (harg2 : arg2.IsWhole) (arg3 : Memref sig .tc .vmem S3x512 .f32) (harg3 : arg3.IsWhole)
    (arg4 : Memref sig .tc .vmem S3x512x512 .f32) (harg4 : arg4.IsWhole) (arg5 : Memref sig .tc .vmem S512x512 .i32) (harg5 : arg5.IsWhole)
    (x0 x1 : Vec F S3x512 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (outRij x0 x1) ∗ owns (c : Thread nD τ) arg5 fullShare (outCut x0 x1)) -∗ K ⟨⟩))
      ⊢ wp frame (wpE (defs₀ (F := F)) Variants.none c none) E (cc0__pairwise_kernel i arg2 harg2 arg3 harg3 arg4 harg4 arg5 harg5) K := by
  simp only [cc0__pairwise_kernel_eq_skeleton]; unfold cc0__pairwise_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverRij _)
  · iexists _; isplitr
    swap; · iexact H3
    ipureintro
    exact View.read_writes_eq_canon _ _ _ (coverCut _)

/-! ## The proof data -/

/-- The region's proof data on core `c`: the arrays as the region finds them; after the body each input's buffer at
    its block and each output's at what the body stored; the invariant the scoped buffers the pipeline does not stage
    (none); nothing owed; the two input windows hold the halves of their common array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outRij (iblk m c 0 t) (iblk m c 1 t)
    | ⟨3, _⟩ => outCut (iblk m c 0 t) (iblk m c 1 t)
  Φ _ := Pipeline.scopedRest spec0 c
  q w := match w with
    | ⟨0, _⟩ => fullShare.left
    | _ => fullShare.right
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outRij (iblk m c 0 t) (iblk m c 1 t) := by dsimp only [dats]
theorem after0_3 (c : Dev nD) (t : Fin cfg0.N) : (dats m 0 c).after 3 t = outCut (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

end Cert.Kernel.Region

end
-- ==== Proof.BTail.lean ====
/-
  The host lines after the pairwise kernel's region, stretch by stretch: they touch unscoped TensorCore buffers only
  and allocate nothing.
-/
import proofs.«127677_j1614907703797_1_alg».proof.Proof.Gen.Kernel.Launch
import Idealize.ShloMosaic.Lib.Pipeline.FrameSuffix
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The host lines after the region, stretch by stretch. -/
abbrev tailOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor
theorem hostOps1_20_fresh : (hostOps1_20 : List (HloOp τ sig (Elt F))).Forall fun op => op.fresh = ∅ := by
  simp only [List.Forall]; repeat' constructor
theorem hostOps1_21_fresh : (hostOps1_21 : List (HloOp τ sig (Elt F))).Forall fun op => op.fresh = ∅ := by
  simp only [List.Forall]; repeat' constructor
theorem hostOps1_22_fresh : (hostOps1_22 : List (HloOp τ sig (Elt F))).Forall fun op => op.fresh = ∅ := by
  simp only [List.Forall]; repeat' constructor
theorem hostOps1_23_fresh : (hostOps1_23 : List (HloOp τ sig (Elt F))).Forall fun op => op.fresh = ∅ := by
  simp only [List.Forall]; repeat' constructor

/-- The lines after the region touch unscoped TensorCore buffers only. -/
theorem sfx_sub : ∀ ops ∈ (tailOps : List (List (HloOp τ sig (Elt F)))), ∀ op ∈ ops, op.bufs ⊆ Pipeline.ucRefs τ sig := by
  intro ops hops op hop
  simp only [tailOps, List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)
  · exact Pipeline.sub_ucRefs op ((List.forall_iff_forall_mem.mp hostOps1_19_sub) op hop)
  · exact Pipeline.sub_ucRefs op ((List.forall_iff_forall_mem.mp hostOps1_20_sub) op hop)
  · exact Pipeline.sub_ucRefs op ((List.forall_iff_forall_mem.mp hostOps1_21_sub) op hop)
  · exact Pipeline.sub_ucRefs op ((List.forall_iff_forall_mem.mp hostOps1_22_sub) op hop)
  · exact Pipeline.sub_ucRefs op ((List.forall_iff_forall_mem.mp hostOps1_23_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop
  · exact (List.forall_iff_forall_mem.mp hostOps1_18_fresh) op hop
  · exact (List.forall_iff_forall_mem.mp hostOps1_19_fresh) op hop
  · exact (List.forall_iff_forall_mem.mp hostOps1_20_fresh) op hop
  · exact (List.forall_iff_forall_mem.mp hostOps1_21_fresh) op hop
  · exact (List.forall_iff_forall_mem.mp hostOps1_22_fresh) op hop
  · exact (List.forall_iff_forall_mem.mp hostOps1_23_fresh) op hop

end Cert.Kernel.Region

end
-- ==== Proof.LibSharedInputs.lean ====
/-
  A frame run for a pipeline whose INPUT windows may share an array, the region continued by host lines.

  The library's frame run around a region (its windows on pairwise distinct arrays) deals every array to its one
  window at the full share. When one array is handed to the kernel through several input windows, the array's full
  share is divided among those windows at the region's entry and put together again at its exit; how, is the
  certificate's to say. This file states the frame run with that division as two hypotheses — the buffers behind
  the arrays, each whole at the full share at ANY contents `W`, make the proof data's `arrays` at `W` (`hsplit`), and
  back (`hjoin`) — and proves it from the library's launch theorem for a kernel without semaphores of its own.

  The lines after the region run within all the unscoped buffers, the arrays among them at their exit contents
  (`Wex`: the arrays at `Dat.arrAt … N`, every other buffer as at the region's entry), and write no array.
-/
import Idealize.ShloMosaic.Lib.Pipeline.FrameSuffix
import Idealize.ShloMosaic.Lib.Pipeline.Kit

noncomputable section

namespace Idealize.ShloMosaic.Pipeline.SharedInputs

open Idealize.ShloMosaic Idealize.ShloMosaic.Pipeline
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀
local notation "𝕍" => Variants.lift 𝒱₀

/-- The lines after the region, from the region's exit: the arrays' shares are put together (`hjoin`), the lines run
    within all the unscoped buffers, and the arrays — which no line writes — are divided again (`hsplit`). -/
theorem tail_seqs_shared (hw : WinFacts₀ (cfg).spec)
    (c : Dev nD) (V₀ Wex : Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hsplit : ∀ W : Valuation τ sig Val, (arrBufs (cfg).spec c (fun b => W (Proc.devRef .tc b)) : sProp 𝕄)
      ⊢ (dats p c).arrays (fun w => W (Proc.devRef .tc (arrRef (cfg).spec w))))
    (hjoin : ∀ W : Valuation τ sig Val, (dats p c).arrays (fun w => W (Proc.devRef .tc (arrRef (cfg).spec w)))
      ⊢ (arrBufs (cfg).spec c (fun b => W (Proc.devRef .tc b)) : sProp 𝕄))
    (hWexArr : ∀ w, Wex (Proc.devRef .tc (arrRef (cfg).spec w)) = (dats p c).arrAt w (cfg).N)
    (hWexRest : ∀ b ∈ restRefs sig (cfg).spec, Wex (Proc.devRef .tc b) = V₀ (Proc.devRef .tc b))
    (Q' : PUnit → sProp 𝕄) :
    iprop((iprop((dats p c).arrays ((dats p c).arrAt · (cfg).N)
              ∗ unscopedRest (cfg).spec c (fun b => StableHlo.after opss.flatten Wex (Proc.devRef .tc b))) -∗ Q' ⟨⟩)
        ∗ boundary (c.tc : Thread nD τ) ∗ (dats p c).arrays ((dats p c).arrAt · (cfg).N)
        ∗ unscopedRest (cfg).spec c (fun b => V₀ (Proc.devRef .tc b)))
      ⊢ wp frame (wpE 𝔻 𝕍 (c.tc : Thread nD τ) none) Set.univ (chain (opss.map StableHlo.seq)) Q' := by
  classical
  have e1 : (fun w => (dats p c).arrAt w (cfg).N) = fun w => Wex (Proc.devRef .tc (arrRef (cfg).spec w)) :=
    funext fun w => (hWexArr w).symm
  have e2 : (unscopedRest (cfg).spec c (fun b => V₀ (Proc.devRef .tc b)) : sProp 𝕄)
      = unscopedRest (cfg).spec c (fun b => Wex (Proc.devRef .tc b)) := by
    unfold unscopedRest
    exact bigSep_congr fun b hb => by
      beta_reduce
      rw [hWexRest b hb]
  have e3 : (fun w => StableHlo.after opss.flatten Wex (Proc.devRef .tc (arrRef (cfg).spec w)))
      = fun w => Wex (Proc.devRef .tc (arrRef (cfg).spec w)) := funext fun w => by
    rw [StableHlo.after_of_forall_not_mem _ _ fun op hop => ?_]
    obtain ⟨ops, hops, hop⟩ := List.mem_flatten.mp hop
    exact hkeep ops hops op hop w
  -- the exit holdings are all the unscoped buffers at `Wex`
  have hIn : iprop((dats p c).arrays (fun w => Wex (Proc.devRef .tc (arrRef (cfg).spec w)))
        ∗ unscopedRest (cfg).spec c (fun b => Wex (Proc.devRef .tc b)))
      ⊢ (StableHlo.held (c.tc : Thread nD τ) (ucRefs τ sig) Wex : sProp 𝕄) := by
    rw [← unscopedBufs_held (Ix := Unit) (Name := ℕ) (U := UR sig nD τ) (Lvl := ℕ) c Wex,
      unscopedBufs_split₀ cfgs p hw.arr_unscoped c]
    iintro ⟨Ha, Hr⟩
    isplitl [Ha]
    · iapply (hjoin Wex); iexact Ha
    · iexact Hr
  -- and what the lines leave divides again, the arrays unwritten
  have hOut : (StableHlo.held (c.tc : Thread nD τ) (ucRefs τ sig) (StableHlo.after opss.flatten Wex) : sProp 𝕄)
      ⊢ iprop((dats p c).arrays (fun w => Wex (Proc.devRef .tc (arrRef (cfg).spec w)))
        ∗ unscopedRest (cfg).spec c (fun b => StableHlo.after opss.flatten Wex (Proc.devRef .tc b))) := by
    rw [← unscopedBufs_held (Ix := Unit) (Name := ℕ) (U := UR sig nD τ) (Lvl := ℕ) c (StableHlo.after opss.flatten Wex),
      unscopedBufs_split₀ cfgs p hw.arr_unscoped c, ← e3]
    iintro ⟨Ha, Hr⟩
    isplitl [Ha]
    · iapply (hsplit (StableHlo.after opss.flatten Wex)); iexact Ha
    · iexact Hr
  rw [e1, e2, ← List.append_nil (opss.map StableHlo.seq)]
  iintro ⟨Hk, Hb, Ha, Hr⟩
  ihave Hu := hIn $$ [Ha Hr]
  · isplitl [Ha] <;> iassumption
  iapply (wp_seqs_then (fun q => Cfg.toPCfg (Val := Val) (cfgs q)) defs₀ 𝒱₀ c (ucRefs τ sig) [] opss hsub hfresh Wex) $$ [Hb Hu]
  · isplitl [Hb] <;> iassumption
  iintro Hb
  rw [chain_nil, wp_pure]
  imodintro
  iapply Hk
  icases Hb with ⟨-, H⟩
  iapply hOut
  iexact H

/-- THE FRAME RUN of a kernel without semaphores or tables of its own whose input windows may share arrays, @main
    continuing after the region with the host lines `opss`: the post is the library's `FramePost` at the contents
    after the lines, run from the exit contents `Wex`. -/
theorem θ_run_frame_around_shared
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Wex : Dev nD → Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c (W : Valuation τ sig Val), (arrBufs (cfg).spec c (fun b => W (Proc.devRef .tc b)) : sProp 𝕄)
      ⊢ (dats p c).arrays (fun w => W (Proc.devRef .tc (arrRef (cfg).spec w))))
    (hjoin : ∀ c (W : Valuation τ sig Val), (dats p c).arrays (fun w => W (Proc.devRef .tc (arrRef (cfg).spec w)))
      ⊢ (arrBufs (cfg).spec c (fun b => W (Proc.devRef .tc b)) : sProp 𝕄))
    (hA : ∀ c w, (dats p c).A w = V₀ c (Proc.devRef .tc (arrRef (cfg).spec w)))
    (hWexArr : ∀ c w, Wex c (Proc.devRef .tc (arrRef (cfg).spec w)) = (dats p c).arrAt w (cfg).N)
    (hWexRest : ∀ c, ∀ b ∈ restRefs sig (cfg).spec, Wex c (Proc.devRef .tc b) = V₀ c (Proc.devRef .tc b))
    (hin : ∀ c, scopedRest (cfg).spec c ⊢ (dats p c).Φ 0)
    (hout : ∀ c, (dats p c).Φ (Fin.last (cfg).N) ⊢ scopedRest (cfg).spec c) :
    θ_run 𝔻 (onTc main) (s₀ m g)
      (FramePost cfgs dats p (fun c b => StableHlo.after opss.flatten (Wex c) (Proc.devRef .tc b))) := by
  classical
  exact θ_run_region_noSem_pf_tail (fun q => (cfgs q).toPCfg) (fun q => (cfgs q).toPCfg_adm) dats () hinj p hw (PreFacts.none _) emb₁ defs₀ 𝒱₀
    m g main (fun _ => chain (opss.map StableHlo.seq)) hbody hne harr hstage howed
    (u₀ := initOf (cells cfgs hinj) (launchToks cfgs hinj)) (hu₀ := .rfl)
    (V := fun c b => V₀ c (Proc.devRef .tc b)) (hmain := hmain)
    (hsplit := fun c => by
      have h := hsplit c (V₀ c)
      rw [show (fun w => V₀ c (Proc.devRef .tc (arrRef (cfg).spec w))) = ((dats p c).arrAt · 0) from
        funext fun w => (hA c w).symm] at h
      exact h)
    (hpf := fun _ k => k.elim0)
    (X := fun _ => iprop(emp)) (Y := fun _ => iprop(emp))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c
      (fun b => StableHlo.after opss.flatten (Wex c) (Proc.devRef .tc b)))
    (hX := fun c => by
      rw [unscopedRestP_none]
      iintro H
      isplitr; · iempintro
      iexact H)
    (hin := fun c => (show _ ⊢ scopedRest (cfg).spec c from by iintro ⟨-, -, HR⟩; iexact HR).trans (hin c))
    (hout := fun c => (hout c).trans (by
      iintro HR
      isplitr; · iempintro
      iexact HR))
    (htail := fun c Q' => tail_seqs_shared cfgs dats p defs₀ 𝒱₀ hw c (V₀ c) (Wex c) opss hsub hfresh hkeep (hsplit c) (hjoin c)
      (hWexArr c) (hWexRest c) Q')
    (QY := fun c s => ∀ b ∈ restRefs sig (cfg).spec, s.mem ((c.tc : Thread nD τ).loc b) = StableHlo.after opss.flatten (Wex c) (Proc.devRef .tc b))
    (hY := fun c s' => by
      iintro ⟨-, HU, HSI⟩
      unfold unscopedRest
      imodintro
      iapply (pointsTo_read_all (restRefs sig (cfg).spec) (fun b => (c.tc : Thread nD τ).loc b)
        (fun b => StableHlo.after opss.flatten (Wex c) (Proc.devRef .tc b)) s')
      isplitl [HU] <;> iassumption)
    (hQ := fun s h c => ⟨(h c).1, (h c).2.2⟩)

end Idealize.ShloMosaic.Pipeline.SharedInputs

end
-- ==== Proof.BKeep_main_v0.lean ====
/-
  The buffer `main_v0` is written by no host line after the pairwise kernel's region.
-/
import proofs.«127677_j1614907703797_1_alg».proof.Proof.BTail

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- No host line after the region writes `main_v0`: each line writes only its own result buffer. -/
theorem tail_keeps_main_v0 : ∀ op ∈ (tailOps.flatten : List (HloOp τ sig (Elt F))), Proc.devRef .tc main_v0 ∉ op.writes :=
  List.forall_iff_forall_mem.mp (by
    simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

end Cert.Kernel.Region

end
-- ==== Proof.BKeep_main_v1_0.lean ====
/-
  The buffer `main_v1_0` is written by no host line after the pairwise kernel's region.
-/
import proofs.«127677_j1614907703797_1_alg».proof.Proof.BTail

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- No host line after the region writes `main_v1_0`: each line writes only its own result buffer. -/
theorem tail_keeps_main_v1_0 : ∀ op ∈ (tailOps.flatten : List (HloOp τ sig (Elt F))), Proc.devRef .tc main_v1_0 ∉ op.writes :=
  List.forall_iff_forall_mem.mp (by
    simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

end Cert.Kernel.Region

end
-- ==== Proof.BKeep_main_v1_1.lean ====
/-
  The buffer `main_v1_1` is written by no host line after the pairwise kernel's region.
-/
import proofs.«127677_j1614907703797_1_alg».proof.Proof.BTail

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- No host line after the region writes `main_v1_1`: each line writes only its own result buffer. -/
theorem tail_keeps_main_v1_1 : ∀ op ∈ (tailOps.flatten : List (HloOp τ sig (Elt F))), Proc.devRef .tc main_v1_1 ∉ op.writes :=
  List.forall_iff_forall_mem.mp (by
    simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

end Cert.Kernel.Region

end
-- ==== Proof.BKeep_main_arg0.lean ====
/-
  The buffer `main_arg0` is written by no host line after the pairwise kernel's region.
-/
import proofs.«127677_j1614907703797_1_alg».proof.Proof.BTail

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- No host line after the region writes `main_arg0`: each line writes only its own result buffer. -/
theorem tail_keeps_main_arg0 : ∀ op ∈ (tailOps.flatten : List (HloOp τ sig (Elt F))), Proc.devRef .tc main_arg0 ∉ op.writes :=
  List.forall_iff_forall_mem.mp (by
    simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

end Cert.Kernel.Region

end
-- ==== Proof.BKeep_main_arg1.lean ====
/-
  The buffer `main_arg1` is written by no host line after the pairwise kernel's region.
-/
import proofs.«127677_j1614907703797_1_alg».proof.Proof.BTail

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- No host line after the region writes `main_arg1`: each line writes only its own result buffer. -/
theorem tail_keeps_main_arg1 : ∀ op ∈ (tailOps.flatten : List (HloOp τ sig (Elt F))), Proc.devRef .tc main_arg1 ∉ op.writes :=
  List.forall_iff_forall_mem.mp (by
    simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

end Cert.Kernel.Region

end
-- ==== Proof.BKeep_main_arg2.lean ====
/-
  The buffer `main_arg2` is written by no host line after the pairwise kernel's region.
-/
import proofs.«127677_j1614907703797_1_alg».proof.Proof.BTail

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- No host line after the region writes `main_arg2`: each line writes only its own result buffer. -/
theorem tail_keeps_main_arg2 : ∀ op ∈ (tailOps.flatten : List (HloOp τ sig (Elt F))), Proc.devRef .tc main_arg2 ∉ op.writes :=
  List.forall_iff_forall_mem.mp (by
    simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

end Cert.Kernel.Region

end
-- ==== Proof.BRun.lean ====
/-
  The pairwise kernel's program, run: the transposition, the region, the host lines after it.

  The region's two input windows read one array (the transposed positions), so the array's full share is divided
  between them at the region's entry — the left half to window 0, the right half to window 1 — and put together again
  at its exit; the lines after the region then run within all the unscoped buffers. No line after the region writes an
  array of the region, and no line at all writes an argument.
-/
import proofs.«127677_j1614907703797_1_alg».proof.Proof.BRegion
import proofs.«127677_j1614907703797_1_alg».proof.Proof.BTail
import proofs.«127677_j1614907703797_1_alg».proof.Proof.LibSharedInputs
import proofs.«127677_j1614907703797_1_alg».proof.Proof.BKeep_main_v0
import proofs.«127677_j1614907703797_1_alg».proof.Proof.BKeep_main_v1_0
import proofs.«127677_j1614907703797_1_alg».proof.Proof.BKeep_main_v1_1
import proofs.«127677_j1614907703797_1_alg».proof.Proof.BKeep_main_arg0
import proofs.«127677_j1614907703797_1_alg».proof.Proof.BKeep_main_arg1
import proofs.«127677_j1614907703797_1_alg».proof.Proof.BKeep_main_arg2

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main around the region: the transposition, the region, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- No line after the region writes an array of the region. -/
theorem sfx_keeps : ∀ ops ∈ (tailOps : List (List (HloOp τ sig (Elt F)))), ∀ op ∈ ops,
    ∀ w, Proc.devRef .tc (Pipeline.arrRef spec0 w) ∉ op.writes := by
  intro ops hops op hop w
  have hmem : op ∈ (tailOps.flatten : List (HloOp τ sig (Elt F))) := List.mem_flatten.mpr ⟨ops, hops, hop⟩
  fin_cases w
  · exact tail_keeps_main_v0 op hmem
  · exact tail_keeps_main_v0 op hmem
  · exact tail_keeps_main_v1_0 op hmem
  · exact tail_keeps_main_v1_1 op hmem

/-! ## The arrays' shares -/

/-- The region's windows stand on three buffers. -/
theorem arr_image : (Finset.univ.image (Pipeline.arrRef spec0) : Finset (Ref sig .tc)) = {main_v0, main_v1_0, main_v1_1} := by decide

/-- The buffers behind the arrays, each whole at the full share. -/
theorem arrBufs_eq (c : Dev nD) (W : Valuation τ sig (Elt F)) :
    (Pipeline.arrBufs spec0 c (fun b => W (Proc.devRef .tc b)) : sProp 𝕄)
      = iprop((((c.tc : Thread nD τ).loc main_v0) ↦{fullShare} W (Proc.devRef .tc main_v0))
          ∗ (((c.tc : Thread nD τ).loc main_v1_0) ↦{fullShare} W (Proc.devRef .tc main_v1_0))
          ∗ (((c.tc : Thread nD τ).loc main_v1_1) ↦{fullShare} W (Proc.devRef .tc main_v1_1))) := by
  unfold Pipeline.arrBufs
  rw [arr_image, bigSep_insert (by decide), bigSep_insert (by decide), bigSep_singleton]
  rfl

/-- The proof data's arrays: the transposed positions' halves at the two input windows, the two results whole. -/
theorem arrays_eq (c : Dev nD) (W : Valuation τ sig (Elt F)) :
    ((dats m 0 c).arrays (fun w => W (Proc.devRef .tc (Pipeline.arrRef spec0 w))) : sProp 𝕄)
      = iprop((((c.tc : Thread nD τ).loc main_v0) ↦{fullShare.left} W (Proc.devRef .tc main_v0))
          ∗ (((c.tc : Thread nD τ).loc main_v0) ↦{fullShare.right} W (Proc.devRef .tc main_v0))
          ∗ (((c.tc : Thread nD τ).loc main_v1_0) ↦{fullShare} W (Proc.devRef .tc main_v1_0))
          ∗ (((c.tc : Thread nD τ).loc main_v1_1) ↦{fullShare} W (Proc.devRef .tc main_v1_1))) := by
  unfold Pipeline.Dat.arrays
  rw [bigSep_W0, (arr_whole0 0).set_eq_univ, (arr_whole0 2).set_eq_univ, (arr_whole0 3).set_eq_univ]
  rfl

theorem arrays_split (c : Dev nD) (W : Valuation τ sig (Elt F)) :
    (Pipeline.arrBufs spec0 c (fun b => W (Proc.devRef .tc b)) : sProp 𝕄)
      ⊢ (dats m 0 c).arrays (fun w => W (Proc.devRef .tc (Pipeline.arrRef spec0 w))) := by
  rw [arrBufs_eq, arrays_eq]
  iintro ⟨H0, H2, H3⟩
  ihave H0 := (pointsTo_share (PosShare.mem_left_op_right fullShare)).1 $$ H0
  icases H0 with ⟨Ha, Hb⟩
  isplitl [Ha]; · iexact Ha
  isplitl [Hb]; · iexact Hb
  isplitl [H2]; · iexact H2
  iexact H3

theorem arrays_join (c : Dev nD) (W : Valuation τ sig (Elt F)) :
    ((dats m 0 c).arrays (fun w => W (Proc.devRef .tc (Pipeline.arrRef spec0 w))) : sProp 𝕄)
      ⊢ Pipeline.arrBufs spec0 c (fun b => W (Proc.devRef .tc b)) := by
  rw [arrBufs_eq, arrays_eq]
  iintro ⟨Ha, Hb, H2, H3⟩
  ihave H0 := (pointsTo_share (PosShare.mem_left_op_right fullShare)).2 $$ [Ha Hb]
  · isplitl [Ha] <;> iassumption
  isplitl [H0]; · iexact H0
  isplitl [H2]; · iexact H2
  iexact H3

/-! ## The contents at the region's exit -/

/-- Core `c`'s buffer contents when the region is left: the two results at what the write-backs made of them,
    every other buffer as at the region's entry. -/
def Wex (c : Dev nD) : Valuation τ sig (Elt F) := fun b =>
  if h : b = Proc.devRef .tc main_v1_0 then
    cast (congrArg (fun b' : DevRef τ sig => b'.ty.Contents (Elt F)) h.symm) ((dats m 0 c).arrAt 2 cfg0.N)
  else if h : b = Proc.devRef .tc main_v1_1 then
    cast (congrArg (fun b' : DevRef τ sig => b'.ty.Contents (Elt F)) h.symm) ((dats m 0 c).arrAt 3 cfg0.N)
  else V0 m c b

theorem Wex_rij (c : Dev nD) : Wex m c (Proc.devRef .tc main_v1_0) = (dats m 0 c).arrAt 2 cfg0.N := by
  unfold Wex; rw [dif_pos rfl]; rfl
theorem Wex_cut (c : Dev nD) : Wex m c (Proc.devRef .tc main_v1_1) = (dats m 0 c).arrAt 3 cfg0.N := by
  unfold Wex
  rw [dif_neg (StableHlo.devRef_ne_of_ne (by decide)), dif_pos rfl]; rfl
theorem Wex_other (c : Dev nD) (b : Ref sig .tc) (h0 : b ≠ main_v1_0) (h1 : b ≠ main_v1_1) :
    Wex m c (Proc.devRef .tc b) = V0 m c (Proc.devRef .tc b) := by
  unfold Wex
  rw [dif_neg (StableHlo.devRef_ne_of_ne h0), dif_neg (StableHlo.devRef_ne_of_ne h1)]

theorem Wex_arr (c : Dev nD) (w : Fin cfg0.W) :
    Wex m c (Proc.devRef .tc (Pipeline.arrRef spec0 w)) = (dats m 0 c).arrAt w cfg0.N := by
  fin_cases w
  · exact (Wex_other m c main_v0 (by decide) (by decide)).trans (((dats m 0 c).arrAt_in 0 rfl cfg0.N).trans (A_eq m c 0)).symm
  · exact (Wex_other m c main_v0 (by decide) (by decide)).trans (((dats m 0 c).arrAt_in 1 rfl cfg0.N).trans (A_eq m c 1)).symm
  · exact Wex_rij m c
  · exact Wex_cut m c

theorem Wex_rest (c : Dev nD) : ∀ b ∈ Pipeline.restRefs sig spec0, Wex m c (Proc.devRef .tc b) = V0 m c (Proc.devRef .tc b) := by
  intro b hb
  have hn : ∀ w, Pipeline.arrRef spec0 w ≠ b := fun w e =>
    (Finset.mem_sdiff.mp hb).2 (Finset.mem_image.mpr ⟨w, Finset.mem_univ _, e⟩)
  exact Wex_other m c b (fun e => hn 2 e.symm) (fun e => hn 3 e.symm)

/-! ## The run -/

/-- Every buffer's contents at the end: the lines after the region, run from the exit contents. -/
abbrev Vend (c : Dev nD) (b : Ref sig .tc) : Buf (Elt F) ((c.tc : Thread nD τ).loc b) :=
  StableHlo.after tailOps.flatten (Wex m c) (Proc.devRef .tc b)

set_option backward.isDefEq.respectTransparency.types false in
/-- From any memory with zero counters every weakly fair execution of @main terminates; at the end every array of
    the region holds what the write-backs made of it and every other unscoped buffer what the lines after the region
    leave. -/
theorem run_main : θ_run defs (onTc (τ := τ) (main (F := F))) (s₀ m ρ) (Pipeline.FramePost cfgs (dats m) 0 (Vend m)) :=
  Pipeline.SharedInputs.θ_run_frame_around_shared cfgs (dats m) (0 : Fin 1) defs₀ Variants.none
    cellOf_inj winFacts₀0 block_pos0 arr_whole0 stage_whole0 m ρ main
    (hbody := fun c => (body_obligation m c).loose) (howed := fun _ _ => rfl)
    (V₀ := V0 m) (Wex := Wex m) (opss := tailOps) (hsub := sfx_sub) (hfresh := sfx_fresh) (hkeep := sfx_keeps)
    (hmain := hmain m Variants.none) (hsplit := arrays_split m) (hjoin := arrays_join m) (hA := A_eq m)
    (hWexArr := Wex_arr m) (hWexRest := Wex_rest m)
    (hin := fun _ => .rfl) (hout := fun _ => .rfl)

/-! ## The frame -/

/-- No line writes an argument: it ends as launched. -/
theorem Vend_arg (c : Dev nD) (b : Ref sig .tc) (hk : ∀ op ∈ (tailOps.flatten : List (HloOp τ sig (Elt F))), Proc.devRef .tc b ∉ op.writes)
    (h0 : b ≠ main_v1_0) (h1 : b ≠ main_v1_1) (h2 : b ≠ main_v0) : Vend m c b = m ((c.tc : Thread nD τ).loc b) := by
  unfold Vend
  rw [StableHlo.after_of_forall_not_mem _ _ hk, Wex_other m c b h0 h1]
  exact StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne h2))

/-- THE FRAME, at any float instance: every weakly fair execution terminates and the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans
        (Vend_arg m c main_arg0 tail_keeps_main_arg0 (by decide) (by decide) (by decide)),
      ((h c).2 main_arg1 (Pipeline.mem_restRefs_of main_arg1 (by decide) (by decide))).trans
        (Vend_arg m c main_arg1 tail_keeps_main_arg1 (by decide) (by decide) (by decide)),
      ((h c).2 main_arg2 (Pipeline.mem_restRefs_of main_arg2 (by decide) (by decide))).trans
        (Vend_arg m c main_arg2 tail_keeps_main_arg2 (by decide) (by decide) (by decide))⟩) (run_main m ρ)

end Cert.Kernel.Region

end
-- ==== Proof.KRegion.lean ====
/-
  The pairwise kernel's region: what the body leaves, the proof data, the body obligation.

  The kernel is launched over an 8 × 8 grid. At point (i, j) it is handed two blocks of ONE array, the transposed
  positions [3, 4096]: columns 512·i … 512·i + 511 through window 0 and columns 512·j … 512·j + 511 through window 1.
  Its body loads both blocks, stores the displacement block (window 2, [3, 512, 512]) and the cutoff block
  (window 3, [512, 512]), each whole. Both input windows read the same array, so the array's full share is divided
  between them: window 0 holds the left half, window 1 the right half.
-/
import proofs.«127677_j1614907703797_1_alg».proof.Proof.Gen.KernelIdeal.Launch
import proofs.«127677_j1614907703797_1_alg».proof.Proof.Gen.KernelIdeal.Skeleton
import proofs.«127677_j1614907703797_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: after the one host line before it (the transposition). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rIn : Rect S3x512 := Rect.unit (s := S3x512) ![0, 0] S3x512.size inb_S3x512_S3x512_0_0
abbrev rRij : Rect S3x512x512 := Rect.unit (s := S3x512x512) ![0, 0, 0] S3x512x512.size inb_S3x512x512_S3x512x512_0_0_0
abbrev rCut : Rect S512x512 := Rect.unit (s := S512x512) ![0, 0] S512x512.size inb_S512x512_S512x512_0_0

/-- The displacement window's buffer after the body: its one store, of the first payload of the two input blocks. -/
def outRij (x0 x1 : Vec F S3x512 .f32) : Vec F S3x512x512 .f32 :=
  View.canon [⟨rRij, k0_pay1 (View.ld x0 rIn) (View.ld x1 rIn)⟩]
/-- The cutoff window's buffer after the body: its one store, of the second payload. -/
def outCut (x0 x1 : Vec F S3x512 .f32) : Vec F S512x512 .i32 :=
  View.canon [⟨rCut, k0_pay2 (View.ld x0 rIn) (View.ld x1 rIn)⟩]

theorem coverRij (p0 : Vec F S3x512x512 .f32) (y : S3x512x512.Idx) :
    ∃ pc ∈ ([⟨rRij, p0⟩] : List (View.Piece (Elt F) S3x512x512 .f32)), y ∈ pc.1.set :=
  View.cover_of_tiled [⟨rRij, p0⟩] S3x512x512.size (by rfl) y
theorem coverCut (p0 : Vec F S512x512 .i32) (y : S512x512.Idx) :
    ∃ pc ∈ ([⟨rCut, p0⟩] : List (View.Piece (Elt F) S512x512 .i32)), y ∈ pc.1.set :=
  View.cover_of_tiled [⟨rCut, p0⟩] S512x512.size (by rfl) y

/-! ## The body's triple -/

set_option maxHeartbeats 4000000 in
/-- The body on whole staging memrefs, the inputs' at contents `x0`, `x1` and the outputs' at anything, runs to the
    continuation holding the inputs' as they were and the outputs' at `outRij`, `outCut` of the inputs'. -/
theorem sound_kernel (c : Dev nD) (E : Set ℕ) (i : grid0.Coords)
    (arg2 : Memref sig .tc .vmem S3x512 .f32) (harg2 : arg2.IsWhole) (arg3 : Memref sig .tc .vmem S3x512 .f32) (harg3 : arg3.IsWhole)
    (arg4 : Memref sig .tc .vmem S3x512x512 .f32) (harg4 : arg4.IsWhole) (arg5 : Memref sig .tc .vmem S512x512 .i32) (harg5 : arg5.IsWhole)
    (x0 x1 : Vec F S3x512 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (outRij x0 x1) ∗ owns (c : Thread nD τ) arg5 fullShare (outCut x0 x1)) -∗ K ⟨⟩))
      ⊢ wp frame (wpE (defs₀ (F := F)) Variants.none c none) E (cc0__pairwise_kernel i arg2 harg2 arg3 harg3 arg4 harg4 arg5 harg5) K := by
  simp only [cc0__pairwise_kernel_eq_skeleton]; unfold cc0__pairwise_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverRij _)
  · iexists _; isplitr
    swap; · iexact H3
    ipureintro
    exact View.read_writes_eq_canon _ _ _ (coverCut _)

/-! ## The proof data -/

/-- The region's proof data on core `c`: the arrays as the region finds them; after the body each input's buffer at
    its block and each output's at what the body stored; the invariant the scoped buffers the pipeline does not stage
    (none); nothing owed; the two input windows hold the halves of their common array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outRij (iblk m c 0 t) (iblk m c 1 t)
    | ⟨3, _⟩ => outCut (iblk m c 0 t) (iblk m c 1 t)
  Φ _ := Pipeline.scopedRest spec0 c
  q w := match w with
    | ⟨0, _⟩ => fullShare.left
    | _ => fullShare.right
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outRij (iblk m c 0 t) (iblk m c 1 t) := by dsimp only [dats]
theorem after0_3 (c : Dev nD) (t : Fin cfg0.N) : (dats m 0 c).after 3 t = outCut (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

end Cert.KernelIdeal.Region

end
-- ==== Proof.KTail.lean ====
/-
  The host lines after the pairwise kernel's region, stretch by stretch: they touch unscoped TensorCore buffers only
  and allocate nothing.
-/
import proofs.«127677_j1614907703797_1_alg».proof.Proof.Gen.KernelIdeal.Launch
import Idealize.ShloMosaic.Lib.Pipeline.FrameSuffix
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The host lines after the region, stretch by stretch. -/
abbrev tailOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor
theorem hostOps1_20_fresh : (hostOps1_20 : List (HloOp τ sig (Elt F))).Forall fun op => op.fresh = ∅ := by
  simp only [List.Forall]; repeat' constructor
theorem hostOps1_21_fresh : (hostOps1_21 : List (HloOp τ sig (Elt F))).Forall fun op => op.fresh = ∅ := by
  simp only [List.Forall]; repeat' constructor
theorem hostOps1_22_fresh : (hostOps1_22 : List (HloOp τ sig (Elt F))).Forall fun op => op.fresh = ∅ := by
  simp only [List.Forall]; repeat' constructor
theorem hostOps1_23_fresh : (hostOps1_23 : List (HloOp τ sig (Elt F))).Forall fun op => op.fresh = ∅ := by
  simp only [List.Forall]; repeat' constructor

/-- The lines after the region touch unscoped TensorCore buffers only. -/
theorem sfx_sub : ∀ ops ∈ (tailOps : List (List (HloOp τ sig (Elt F)))), ∀ op ∈ ops, op.bufs ⊆ Pipeline.ucRefs τ sig := by
  intro ops hops op hop
  simp only [tailOps, List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)
  · exact Pipeline.sub_ucRefs op ((List.forall_iff_forall_mem.mp hostOps1_19_sub) op hop)
  · exact Pipeline.sub_ucRefs op ((List.forall_iff_forall_mem.mp hostOps1_20_sub) op hop)
  · exact Pipeline.sub_ucRefs op ((List.forall_iff_forall_mem.mp hostOps1_21_sub) op hop)
  · exact Pipeline.sub_ucRefs op ((List.forall_iff_forall_mem.mp hostOps1_22_sub) op hop)
  · exact Pipeline.sub_ucRefs op ((List.forall_iff_forall_mem.mp hostOps1_23_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop
  · exact (List.forall_iff_forall_mem.mp hostOps1_18_fresh) op hop
  · exact (List.forall_iff_forall_mem.mp hostOps1_19_fresh) op hop
  · exact (List.forall_iff_forall_mem.mp hostOps1_20_fresh) op hop
  · exact (List.forall_iff_forall_mem.mp hostOps1_21_fresh) op hop
  · exact (List.forall_iff_forall_mem.mp hostOps1_22_fresh) op hop
  · exact (List.forall_iff_forall_mem.mp hostOps1_23_fresh) op hop

end Cert.KernelIdeal.Region

end
-- ==== Proof.KKeep_main_v0.lean ====
/-
  The buffer `main_v0` is written by no host line after the pairwise kernel's region.
-/
import proofs.«127677_j1614907703797_1_alg».proof.Proof.KTail

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- No host line after the region writes `main_v0`: each line writes only its own result buffer. -/
theorem tail_keeps_main_v0 : ∀ op ∈ (tailOps.flatten : List (HloOp τ sig (Elt F))), Proc.devRef .tc main_v0 ∉ op.writes :=
  List.forall_iff_forall_mem.mp (by
    simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

end Cert.KernelIdeal.Region

end
-- ==== Proof.KKeep_main_v1_0.lean ====
/-
  The buffer `main_v1_0` is written by no host line after the pairwise kernel's region.
-/
import proofs.«127677_j1614907703797_1_alg».proof.Proof.KTail

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- No host line after the region writes `main_v1_0`: each line writes only its own result buffer. -/
theorem tail_keeps_main_v1_0 : ∀ op ∈ (tailOps.flatten : List (HloOp τ sig (Elt F))), Proc.devRef .tc main_v1_0 ∉ op.writes :=
  List.forall_iff_forall_mem.mp (by
    simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

end Cert.KernelIdeal.Region

end
-- ==== Proof.KKeep_main_v1_1.lean ====
/-
  The buffer `main_v1_1` is written by no host line after the pairwise kernel's region.
-/
import proofs.«127677_j1614907703797_1_alg».proof.Proof.KTail

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- No host line after the region writes `main_v1_1`: each line writes only its own result buffer. -/
theorem tail_keeps_main_v1_1 : ∀ op ∈ (tailOps.flatten : List (HloOp τ sig (Elt F))), Proc.devRef .tc main_v1_1 ∉ op.writes :=
  List.forall_iff_forall_mem.mp (by
    simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

end Cert.KernelIdeal.Region

end
-- ==== Proof.KKeep_main_arg0.lean ====
/-
  The buffer `main_arg0` is written by no host line after the pairwise kernel's region.
-/
import proofs.«127677_j1614907703797_1_alg».proof.Proof.KTail

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- No host line after the region writes `main_arg0`: each line writes only its own result buffer. -/
theorem tail_keeps_main_arg0 : ∀ op ∈ (tailOps.flatten : List (HloOp τ sig (Elt F))), Proc.devRef .tc main_arg0 ∉ op.writes :=
  List.forall_iff_forall_mem.mp (by
    simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

end Cert.KernelIdeal.Region

end
-- ==== Proof.KKeep_main_arg1.lean ====
/-
  The buffer `main_arg1` is written by no host line after the pairwise kernel's region.
-/
import proofs.«127677_j1614907703797_1_alg».proof.Proof.KTail

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- No host line after the region writes `main_arg1`: each line writes only its own result buffer. -/
theorem tail_keeps_main_arg1 : ∀ op ∈ (tailOps.flatten : List (HloOp τ sig (Elt F))), Proc.devRef .tc main_arg1 ∉ op.writes :=
  List.forall_iff_forall_mem.mp (by
    simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

end Cert.KernelIdeal.Region

end
-- ==== Proof.KKeep_main_arg2.lean ====
/-
  The buffer `main_arg2` is written by no host line after the pairwise kernel's region.
-/
import proofs.«127677_j1614907703797_1_alg».proof.Proof.KTail

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- No host line after the region writes `main_arg2`: each line writes only its own result buffer. -/
theorem tail_keeps_main_arg2 : ∀ op ∈ (tailOps.flatten : List (HloOp τ sig (Elt F))), Proc.devRef .tc main_arg2 ∉ op.writes :=
  List.forall_iff_forall_mem.mp (by
    simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

end Cert.KernelIdeal.Region

end
-- ==== Proof.KRun.lean ====
/-
  The pairwise kernel's program, run: the transposition, the region, the host lines after it.

  The region's two input windows read one array (the transposed positions), so the array's full share is divided
  between them at the region's entry — the left half to window 0, the right half to window 1 — and put together again
  at its exit; the lines after the region then run within all the unscoped buffers. No line after the region writes an
  array of the region, and no line at all writes an argument.
-/
import proofs.«127677_j1614907703797_1_alg».proof.Proof.KRegion
import proofs.«127677_j1614907703797_1_alg».proof.Proof.KTail
import proofs.«127677_j1614907703797_1_alg».proof.Proof.LibSharedInputs
import proofs.«127677_j1614907703797_1_alg».proof.Proof.KKeep_main_v0
import proofs.«127677_j1614907703797_1_alg».proof.Proof.KKeep_main_v1_0
import proofs.«127677_j1614907703797_1_alg».proof.Proof.KKeep_main_v1_1
import proofs.«127677_j1614907703797_1_alg».proof.Proof.KKeep_main_arg0
import proofs.«127677_j1614907703797_1_alg».proof.Proof.KKeep_main_arg1
import proofs.«127677_j1614907703797_1_alg».proof.Proof.KKeep_main_arg2

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main around the region: the transposition, the region, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- No line after the region writes an array of the region. -/
theorem sfx_keeps : ∀ ops ∈ (tailOps : List (List (HloOp τ sig (Elt F)))), ∀ op ∈ ops,
    ∀ w, Proc.devRef .tc (Pipeline.arrRef spec0 w) ∉ op.writes := by
  intro ops hops op hop w
  have hmem : op ∈ (tailOps.flatten : List (HloOp τ sig (Elt F))) := List.mem_flatten.mpr ⟨ops, hops, hop⟩
  fin_cases w
  · exact tail_keeps_main_v0 op hmem
  · exact tail_keeps_main_v0 op hmem
  · exact tail_keeps_main_v1_0 op hmem
  · exact tail_keeps_main_v1_1 op hmem

/-! ## The arrays' shares -/

/-- The region's windows stand on three buffers. -/
theorem arr_image : (Finset.univ.image (Pipeline.arrRef spec0) : Finset (Ref sig .tc)) = {main_v0, main_v1_0, main_v1_1} := by decide

/-- The buffers behind the arrays, each whole at the full share. -/
theorem arrBufs_eq (c : Dev nD) (W : Valuation τ sig (Elt F)) :
    (Pipeline.arrBufs spec0 c (fun b => W (Proc.devRef .tc b)) : sProp 𝕄)
      = iprop((((c.tc : Thread nD τ).loc main_v0) ↦{fullShare} W (Proc.devRef .tc main_v0))
          ∗ (((c.tc : Thread nD τ).loc main_v1_0) ↦{fullShare} W (Proc.devRef .tc main_v1_0))
          ∗ (((c.tc : Thread nD τ).loc main_v1_1) ↦{fullShare} W (Proc.devRef .tc main_v1_1))) := by
  unfold Pipeline.arrBufs
  rw [arr_image, bigSep_insert (by decide), bigSep_insert (by decide), bigSep_singleton]
  rfl

/-- The proof data's arrays: the transposed positions' halves at the two input windows, the two results whole. -/
theorem arrays_eq (c : Dev nD) (W : Valuation τ sig (Elt F)) :
    ((dats m 0 c).arrays (fun w => W (Proc.devRef .tc (Pipeline.arrRef spec0 w))) : sProp 𝕄)
      = iprop((((c.tc : Thread nD τ).loc main_v0) ↦{fullShare.left} W (Proc.devRef .tc main_v0))
          ∗ (((c.tc : Thread nD τ).loc main_v0) ↦{fullShare.right} W (Proc.devRef .tc main_v0))
          ∗ (((c.tc : Thread nD τ).loc main_v1_0) ↦{fullShare} W (Proc.devRef .tc main_v1_0))
          ∗ (((c.tc : Thread nD τ).loc main_v1_1) ↦{fullShare} W (Proc.devRef .tc main_v1_1))) := by
  unfold Pipeline.Dat.arrays
  rw [bigSep_W0, (arr_whole0 0).set_eq_univ, (arr_whole0 2).set_eq_univ, (arr_whole0 3).set_eq_univ]
  rfl

theorem arrays_split (c : Dev nD) (W : Valuation τ sig (Elt F)) :
    (Pipeline.arrBufs spec0 c (fun b => W (Proc.devRef .tc b)) : sProp 𝕄)
      ⊢ (dats m 0 c).arrays (fun w => W (Proc.devRef .tc (Pipeline.arrRef spec0 w))) := by
  rw [arrBufs_eq, arrays_eq]
  iintro ⟨H0, H2, H3⟩
  ihave H0 := (pointsTo_share (PosShare.mem_left_op_right fullShare)).1 $$ H0
  icases H0 with ⟨Ha, Hb⟩
  isplitl [Ha]; · iexact Ha
  isplitl [Hb]; · iexact Hb
  isplitl [H2]; · iexact H2
  iexact H3

theorem arrays_join (c : Dev nD) (W : Valuation τ sig (Elt F)) :
    ((dats m 0 c).arrays (fun w => W (Proc.devRef .tc (Pipeline.arrRef spec0 w))) : sProp 𝕄)
      ⊢ Pipeline.arrBufs spec0 c (fun b => W (Proc.devRef .tc b)) := by
  rw [arrBufs_eq, arrays_eq]
  iintro ⟨Ha, Hb, H2, H3⟩
  ihave H0 := (pointsTo_share (PosShare.mem_left_op_right fullShare)).2 $$ [Ha Hb]
  · isplitl [Ha] <;> iassumption
  isplitl [H0]; · iexact H0
  isplitl [H2]; · iexact H2
  iexact H3

/-! ## The contents at the region's exit -/

/-- Core `c`'s buffer contents when the region is left: the two results at what the write-backs made of them,
    every other buffer as at the region's entry. -/
def Wex (c : Dev nD) : Valuation τ sig (Elt F) := fun b =>
  if h : b = Proc.devRef .tc main_v1_0 then
    cast (congrArg (fun b' : DevRef τ sig => b'.ty.Contents (Elt F)) h.symm) ((dats m 0 c).arrAt 2 cfg0.N)
  else if h : b = Proc.devRef .tc main_v1_1 then
    cast (congrArg (fun b' : DevRef τ sig => b'.ty.Contents (Elt F)) h.symm) ((dats m 0 c).arrAt 3 cfg0.N)
  else V0 m c b

theorem Wex_rij (c : Dev nD) : Wex m c (Proc.devRef .tc main_v1_0) = (dats m 0 c).arrAt 2 cfg0.N := by
  unfold Wex; rw [dif_pos rfl]; rfl
theorem Wex_cut (c : Dev nD) : Wex m c (Proc.devRef .tc main_v1_1) = (dats m 0 c).arrAt 3 cfg0.N := by
  unfold Wex
  rw [dif_neg (StableHlo.devRef_ne_of_ne (by decide)), dif_pos rfl]; rfl
theorem Wex_other (c : Dev nD) (b : Ref sig .tc) (h0 : b ≠ main_v1_0) (h1 : b ≠ main_v1_1) :
    Wex m c (Proc.devRef .tc b) = V0 m c (Proc.devRef .tc b) := by
  unfold Wex
  rw [dif_neg (StableHlo.devRef_ne_of_ne h0), dif_neg (StableHlo.devRef_ne_of_ne h1)]

theorem Wex_arr (c : Dev nD) (w : Fin cfg0.W) :
    Wex m c (Proc.devRef .tc (Pipeline.arrRef spec0 w)) = (dats m 0 c).arrAt w cfg0.N := by
  fin_cases w
  · exact (Wex_other m c main_v0 (by decide) (by decide)).trans (((dats m 0 c).arrAt_in 0 rfl cfg0.N).trans (A_eq m c 0)).symm
  · exact (Wex_other m c main_v0 (by decide) (by decide)).trans (((dats m 0 c).arrAt_in 1 rfl cfg0.N).trans (A_eq m c 1)).symm
  · exact Wex_rij m c
  · exact Wex_cut m c

theorem Wex_rest (c : Dev nD) : ∀ b ∈ Pipeline.restRefs sig spec0, Wex m c (Proc.devRef .tc b) = V0 m c (Proc.devRef .tc b) := by
  intro b hb
  have hn : ∀ w, Pipeline.arrRef spec0 w ≠ b := fun w e =>
    (Finset.mem_sdiff.mp hb).2 (Finset.mem_image.mpr ⟨w, Finset.mem_univ _, e⟩)
  exact Wex_other m c b (fun e => hn 2 e.symm) (fun e => hn 3 e.symm)

/-! ## The run -/

/-- Every buffer's contents at the end: the lines after the region, run from the exit contents. -/
abbrev Vend (c : Dev nD) (b : Ref sig .tc) : Buf (Elt F) ((c.tc : Thread nD τ).loc b) :=
  StableHlo.after tailOps.flatten (Wex m c) (Proc.devRef .tc b)

set_option backward.isDefEq.respectTransparency.types false in
/-- From any memory with zero counters every weakly fair execution of @main terminates; at the end every array of
    the region holds what the write-backs made of it and every other unscoped buffer what the lines after the region
    leave. -/
theorem run_main : θ_run defs (onTc (τ := τ) (main (F := F))) (s₀ m ρ) (Pipeline.FramePost cfgs (dats m) 0 (Vend m)) :=
  Pipeline.SharedInputs.θ_run_frame_around_shared cfgs (dats m) (0 : Fin 1) defs₀ Variants.none
    cellOf_inj winFacts₀0 block_pos0 arr_whole0 stage_whole0 m ρ main
    (hbody := fun c => (body_obligation m c).loose) (howed := fun _ _ => rfl)
    (V₀ := V0 m) (Wex := Wex m) (opss := tailOps) (hsub := sfx_sub) (hfresh := sfx_fresh) (hkeep := sfx_keeps)
    (hmain := hmain m Variants.none) (hsplit := arrays_split m) (hjoin := arrays_join m) (hA := A_eq m)
    (hWexArr := Wex_arr m) (hWexRest := Wex_rest m)
    (hin := fun _ => .rfl) (hout := fun _ => .rfl)

/-! ## The frame -/

/-- No line writes an argument: it ends as launched. -/
theorem Vend_arg (c : Dev nD) (b : Ref sig .tc) (hk : ∀ op ∈ (tailOps.flatten : List (HloOp τ sig (Elt F))), Proc.devRef .tc b ∉ op.writes)
    (h0 : b ≠ main_v1_0) (h1 : b ≠ main_v1_1) (h2 : b ≠ main_v0) : Vend m c b = m ((c.tc : Thread nD τ).loc b) := by
  unfold Vend
  rw [StableHlo.after_of_forall_not_mem _ _ hk, Wex_other m c b h0 h1]
  exact StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne h2))

/-- THE FRAME, at any float instance: every weakly fair execution terminates and the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans
        (Vend_arg m c main_arg0 tail_keeps_main_arg0 (by decide) (by decide) (by decide)),
      ((h c).2 main_arg1 (Pipeline.mem_restRefs_of main_arg1 (by decide) (by decide))).trans
        (Vend_arg m c main_arg1 tail_keeps_main_arg1 (by decide) (by decide) (by decide)),
      ((h c).2 main_arg2 (Pipeline.mem_restRefs_of main_arg2 (by decide) (by decide))).trans
        (Vend_arg m c main_arg2 tail_keeps_main_arg2 (by decide) (by decide) (by decide))⟩) (run_main m ρ)

end Cert.KernelIdeal.Region

end
-- ==== Proof.RefRun.lean ====
/-
  The reference program's run. Its @main is a straight line of host operations once every call of a
  module-local function is replaced by the callee's body over that call's buffers (a callee that itself
  calls is replaced recursively). `ops` lists those 208 operations in execution order; `main_eq` states
  that @main is the sequence of them; `run_after` that every weakly fair execution from a memory with zero
  counters terminates with each TensorCore buffer at the fold of the operations' results over the launch
  contents; `frame` that the three argument buffers end as they started, no operation writing one.
-/
import proofs.«127677_j1614907703797_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- All 208 host operations of @main in execution order, every call inlined at its call site over the call's
    buffers (a nested call recursively). -/
abbrev ops : List (HloOp τ sig (Elt F)) :=
  [ StableHlo.nullary main_cst (constant S_ .f32 0x3F800000#32),
    StableHlo.unary main_cst main_v0 (broadcastInDim S4096x4096 ![] bcast_S_S4096x4096 : (⟨S_, .f32⟩ : BufTy).Contents (Elt F) → (⟨S4096x4096, .f32⟩ : BufTy).Contents (Elt F)),
    StableHlo.TRef.nullary (.of main_call0_v0 : StableHlo.TRef sig ⟨S4096x4096, .i32⟩) (iotaInDim S4096x4096 32 0),
    StableHlo.TRef.nullary (.of main_call0_c : StableHlo.TRef sig ⟨S_, .i32⟩) (constantI S_ 32 0#32),
    StableHlo.TRef.unary (.of main_call0_c : StableHlo.TRef sig ⟨S_, .i32⟩) (.of main_call0_v1 : StableHlo.TRef sig ⟨S4096x4096, .i32⟩) (broadcastInDim S4096x4096 ![] bcast_S_S4096x4096),
    StableHlo.TRef.binary (.of main_call0_v0 : StableHlo.TRef sig ⟨S4096x4096, .i32⟩) (.of main_call0_v1 : StableHlo.TRef sig ⟨S4096x4096, .i32⟩) (.of main_call0_v2 : StableHlo.TRef sig ⟨S4096x4096, .i32⟩) addi,
    StableHlo.TRef.nullary (.of main_call0_v3 : StableHlo.TRef sig ⟨S4096x4096, .i32⟩) (iotaInDim S4096x4096 32 1),
    StableHlo.TRef.binary (.of main_call0_v2 : StableHlo.TRef sig ⟨S4096x4096, .i32⟩) (.of main_call0_v3 : StableHlo.TRef sig ⟨S4096x4096, .i32⟩) (.of main_call0_v4 : StableHlo.TRef sig ⟨S4096x4096, .i1⟩) (cmpi .sge),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v5 : StableHlo.TRef sig ⟨S4096x4096, .f32⟩) (broadcastInDim S4096x4096 ![] bcast_S_S4096x4096),
    StableHlo.TRef.ternary (.of main_call0_v4 : StableHlo.TRef sig ⟨S4096x4096, .i1⟩) (.of main_call0_v5 : StableHlo.TRef sig ⟨S4096x4096, .f32⟩) (.of main_v0 : StableHlo.TRef sig ⟨S4096x4096, .f32⟩) (.of main_v1 : StableHlo.TRef sig ⟨S4096x4096, .f32⟩) select,
    StableHlo.nullary main_cst_0 (constant S_ .f32 0x00000000#32),
    StableHlo.unary main_cst_0 main_v2 (broadcastInDim S4096x4096 ![] bcast_S_S4096x4096 : (⟨S_, .f32⟩ : BufTy).Contents (Elt F) → (⟨S4096x4096, .f32⟩ : BufTy).Contents (Elt F)),
    StableHlo.binary main_v1 main_v2 main_v3 (cmpf .une : (⟨S4096x4096, .f32⟩ : BufTy).Contents (Elt F) → (⟨S4096x4096, .f32⟩ : BufTy).Contents (Elt F) → (⟨S4096x4096, .i1⟩ : BufTy).Contents (Elt F)),
    StableHlo.TRef.reshape (.of main_v3 : StableHlo.TRef sig ⟨S4096x4096, .i1⟩) (.of main_call1_v0 : StableHlo.TRef sig ⟨S16777216, .i1⟩) rfl shapeCasts_S4096x4096_S16777216,
    StableHlo.TRef.unary (.of main_call1_v0 : StableHlo.TRef sig ⟨S16777216, .i1⟩) (.of main_call1_v1 : StableHlo.TRef sig ⟨S16777216, .i32⟩) (extui 32 · natLt_1_32),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_call1_v1 : StableHlo.TRef sig ⟨S16777216, .i32⟩) (.of main_call1_call0_v0 : StableHlo.TRef sig ⟨S_, .i32⟩) (.of main_v4 : StableHlo.TRef sig ⟨S16777216, .i32⟩) (fun x v => Host.reduceWindow IntOp.addi ![16777216] ![1] ![16777215] ![0] x v reduceWindows_S16777216_S16777216_w16777216s1p16777215_0 h_S_),
    StableHlo.nullary main_c (constantI S_ 32 0#32),
    StableHlo.unary main_c main_v5 (broadcastInDim S8386560 ![] bcast_S_S8386560 : (⟨S_, .i32⟩ : BufTy).Contents (Elt F) → (⟨S8386560, .i32⟩ : BufTy).Contents (Elt F)),
    StableHlo.nullary main_c_1 (constantI S_ 32 0#32),
    StableHlo.TRef.unary (.of main_c_1 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S16777216, .i32⟩) (broadcastInDim S16777216 ![] bcast_S_S16777216),
    StableHlo.TRef.binary (.of main_call2_v1 : StableHlo.TRef sig ⟨S16777216, .i32⟩) (.of main_v4 : StableHlo.TRef sig ⟨S16777216, .i32⟩) (.of main_v6 : StableHlo.TRef sig ⟨S16777216, .i32⟩) maxsi,
    StableHlo.nullary main_c_2 (constantI S_ 32 0#32),
    StableHlo.unary main_c_2 main_v7 (broadcastInDim S16777216 ![] bcast_S_S16777216 : (⟨S_, .i32⟩ : BufTy).Contents (Elt F) → (⟨S16777216, .i32⟩ : BufTy).Contents (Elt F)),
    StableHlo.binary main_v6 main_v7 main_v8 (cmpi .slt : (⟨S16777216, .i32⟩ : BufTy).Contents (Elt F) → (⟨S16777216, .i32⟩ : BufTy).Contents (Elt F) → (⟨S16777216, .i1⟩ : BufTy).Contents (Elt F)),
    StableHlo.nullary main_c_3 (constantI S_ 32 8386560#32),
    StableHlo.unary main_c_3 main_v9 (broadcastInDim S16777216 ![] bcast_S_S16777216 : (⟨S_, .i32⟩ : BufTy).Contents (Elt F) → (⟨S16777216, .i32⟩ : BufTy).Contents (Elt F)),
    StableHlo.binary main_v6 main_v9 main_v10 (addi : (⟨S16777216, .i32⟩ : BufTy).Contents (Elt F) → (⟨S16777216, .i32⟩ : BufTy).Contents (Elt F) → (⟨S16777216, .i32⟩ : BufTy).Contents (Elt F)),
    StableHlo.ternary main_v8 main_v10 main_v6 main_v11 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v11 main_v12 (broadcastInDim S16777216x1 ![0] bcast_S16777216_S16777216x1_0 : (⟨S16777216, .i32⟩ : BufTy).Contents (Elt F) → (⟨S16777216x1, .i32⟩ : BufTy).Contents (Elt F)),
    StableHlo.nullary main_c_4 (constantI S_ 32 1#32),
    StableHlo.unary main_c_4 main_v13 (broadcastInDim S16777216 ![] bcast_S_S16777216 : (⟨S_, .i32⟩ : BufTy).Contents (Elt F) → (⟨S16777216, .i32⟩ : BufTy).Contents (Elt F)),
    StableHlo.ternary main_v5 main_v12 main_v13 main_v14 ((fun x i u => Host.scatter scatter_S8386560_S16777216x1_S16777216_n_0_0_1 IntOp.addi x i u) : (⟨S8386560, .i32⟩ : BufTy).Contents (Elt F) → (⟨S16777216x1, .i32⟩ : BufTy).Contents (Elt F) → (⟨S16777216, .i32⟩ : BufTy).Contents (Elt F) → (⟨S8386560, .i32⟩ : BufTy).Contents (Elt F)),
    StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_v14 : StableHlo.TRef sig ⟨S8386560, .i32⟩) (.of main_call3_call0_v0 : StableHlo.TRef sig ⟨S_, .i32⟩) (.of main_v15 : StableHlo.TRef sig ⟨S8386560, .i32⟩) (fun x v => Host.reduceWindow IntOp.addi ![8386560] ![1] ![8386559] ![0] x v reduceWindows_S8386560_S8386560_w8386560s1p8386559_0 h_S_),
    StableHlo.nullary main_c_5 (constantI S_ 32 4096#32),
    StableHlo.TRef.unary (.of main_c_5 : StableHlo.TRef sig ⟨S_, .i32⟩) (.of main_call4_v0 : StableHlo.TRef sig ⟨S8386560, .i32⟩) (broadcastInDim S8386560 ![] bcast_S_S8386560),
    StableHlo.TRef.binary (.of main_v15 : StableHlo.TRef sig ⟨S8386560, .i32⟩) (.of main_call4_v0 : StableHlo.TRef sig ⟨S8386560, .i32⟩) (.of main_call4_v1 : StableHlo.TRef sig ⟨S8386560, .i32⟩) Host.divsi,
    StableHlo.TRef.unary (.of main_v15 : StableHlo.TRef sig ⟨S8386560, .i32⟩) (.of main_call4_v2 : StableHlo.TRef sig ⟨S8386560, .i32⟩) signi,
    StableHlo.TRef.unary (.of main_c_5 : StableHlo.TRef sig ⟨S_, .i32⟩) (.of main_call4_v3 : StableHlo.TRef sig ⟨S_, .i32⟩) signi,
    StableHlo.TRef.unary (.of main_call4_v3 : StableHlo.TRef sig ⟨S_, .i32⟩) (.of main_call4_v4 : StableHlo.TRef sig ⟨S8386560, .i32⟩) (broadcastInDim S8386560 ![] bcast_S_S8386560),
    StableHlo.TRef.binary (.of main_call4_v2 : StableHlo.TRef sig ⟨S8386560, .i32⟩) (.of main_call4_v4 : StableHlo.TRef sig ⟨S8386560, .i32⟩) (.of main_call4_v5 : StableHlo.TRef sig ⟨S8386560, .i1⟩) (cmpi .ne),
    StableHlo.TRef.unary (.of main_c_5 : StableHlo.TRef sig ⟨S_, .i32⟩) (.of main_call4_v6 : StableHlo.TRef sig ⟨S8386560, .i32⟩) (broadcastInDim S8386560 ![] bcast_S_S8386560),
    StableHlo.TRef.binary (.of main_v15 : StableHlo.TRef sig ⟨S8386560, .i32⟩) (.of main_call4_v6 : StableHlo.TRef sig ⟨S8386560, .i32⟩) (.of main_call4_v7 : StableHlo.TRef sig ⟨S8386560, .i32⟩) Host.remsi,
    StableHlo.TRef.nullary (.of main_call4_c : StableHlo.TRef sig ⟨S_, .i32⟩) (constantI S_ 32 0#32),
    StableHlo.TRef.unary (.of main_call4_c : StableHlo.TRef sig ⟨S_, .i32⟩) (.of main_call4_v8 : StableHlo.TRef sig ⟨S8386560, .i32⟩) (broadcastInDim S8386560 ![] bcast_S_S8386560),
    StableHlo.TRef.binary (.of main_call4_v7 : StableHlo.TRef sig ⟨S8386560, .i32⟩) (.of main_call4_v8 : StableHlo.TRef sig ⟨S8386560, .i32⟩) (.of main_call4_v9 : StableHlo.TRef sig ⟨S8386560, .i1⟩) (cmpi .ne),
    StableHlo.TRef.binary (.of main_call4_v5 : StableHlo.TRef sig ⟨S8386560, .i1⟩) (.of main_call4_v9 : StableHlo.TRef sig ⟨S8386560, .i1⟩) (.of main_call4_v10 : StableHlo.TRef sig ⟨S8386560, .i1⟩) andi,
    StableHlo.TRef.nullary (.of main_call4_c_0 : StableHlo.TRef sig ⟨S_, .i32⟩) (constantI S_ 32 1#32),
    StableHlo.TRef.unary (.of main_call4_c_0 : StableHlo.TRef sig ⟨S_, .i32⟩) (.of main_call4_v11 : StableHlo.TRef sig ⟨S8386560, .i32⟩) (broadcastInDim S8386560 ![] bcast_S_S8386560),
    StableHlo.TRef.binary (.of main_call4_v1 : StableHlo.TRef sig ⟨S8386560, .i32⟩) (.of main_call4_v11 : StableHlo.TRef sig ⟨S8386560, .i32⟩) (.of main_call4_v12 : StableHlo.TRef sig ⟨S8386560, .i32⟩) subi,
    StableHlo.TRef.ternary (.of main_call4_v10 : StableHlo.TRef sig ⟨S8386560, .i1⟩) (.of main_call4_v12 : StableHlo.TRef sig ⟨S8386560, .i32⟩) (.of main_call4_v1 : StableHlo.TRef sig ⟨S8386560, .i32⟩) (.of main_v16 : StableHlo.TRef sig ⟨S8386560, .i32⟩) select,
    StableHlo.nullary main_c_6 (constantI S_ 32 4096#32),
    StableHlo.TRef.unary (.of main_c_6 : StableHlo.TRef sig ⟨S_, .i32⟩) (.of main_call5_v0 : StableHlo.TRef sig ⟨S_, .i32⟩) id,
    StableHlo.TRef.nullary (.of main_call5_c : StableHlo.TRef sig ⟨S_, .i32⟩) (constantI S_ 32 0#32),
    StableHlo.TRef.binary (.of main_call5_v0 : StableHlo.TRef sig ⟨S_, .i32⟩) (.of main_call5_c : StableHlo.TRef sig ⟨S_, .i32⟩) (.of main_call5_v1 : StableHlo.TRef sig ⟨S_, .i1⟩) (cmpi .eq),
    StableHlo.TRef.nullary (.of main_call5_c_0 : StableHlo.TRef sig ⟨S_, .i32⟩) (constantI S_ 32 1#32),
    StableHlo.TRef.ternary (.of main_call5_v1 : StableHlo.TRef sig ⟨S_, .i1⟩) (.of main_call5_c_0 : StableHlo.TRef sig ⟨S_, .i32⟩) (.of main_call5_v0 : StableHlo.TRef sig ⟨S_, .i32⟩) (.of main_call5_v2 : StableHlo.TRef sig ⟨S_, .i32⟩) select,
    StableHlo.TRef.unary (.of main_call5_v2 : StableHlo.TRef sig ⟨S_, .i32⟩) (.of main_call5_v3 : StableHlo.TRef sig ⟨S8386560, .i32⟩) (broadcastInDim S8386560 ![] bcast_S_S8386560),
    StableHlo.TRef.binary (.of main_v16 : StableHlo.TRef sig ⟨S8386560, .i32⟩) (.of main_call5_v3 : StableHlo.TRef sig ⟨S8386560, .i32⟩) (.of main_call5_v4 : StableHlo.TRef sig ⟨S8386560, .i32⟩) Host.remsi,
    StableHlo.TRef.nullary (.of main_call5_c_1 : StableHlo.TRef sig ⟨S_, .i32⟩) (constantI S_ 32 0#32),
    StableHlo.TRef.unary (.of main_call5_c_1 : StableHlo.TRef sig ⟨S_, .i32⟩) (.of main_call5_v5 : StableHlo.TRef sig ⟨S8386560, .i32⟩) (broadcastInDim S8386560 ![] bcast_S_S8386560),
    StableHlo.TRef.binary (.of main_call5_v4 : StableHlo.TRef sig ⟨S8386560, .i32⟩) (.of main_call5_v5 : StableHlo.TRef sig ⟨S8386560, .i32⟩) (.of main_call5_v6 : StableHlo.TRef sig ⟨S8386560, .i1⟩) (cmpi .ne),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v7 : StableHlo.TRef sig ⟨S8386560, .i32⟩) (broadcastInDim S8386560 ![] bcast_S_S8386560),
    StableHlo.TRef.binary (.of main_call5_v4 : StableHlo.TRef sig ⟨S8386560, .i32⟩) (.of main_call5_v7 : StableHlo.TRef sig ⟨S8386560, .i32⟩) (.of main_call5_v8 : StableHlo.TRef sig ⟨S8386560, .i1⟩) (cmpi .slt),
    StableHlo.TRef.nullary (.of main_call5_c_3 : StableHlo.TRef sig ⟨S_, .i32⟩) (constantI S_ 32 0#32),
    StableHlo.TRef.binary (.of main_call5_v2 : StableHlo.TRef sig ⟨S_, .i32⟩) (.of main_call5_c_3 : StableHlo.TRef sig ⟨S_, .i32⟩) (.of main_call5_v9 : StableHlo.TRef sig ⟨S_, .i1⟩) (cmpi .slt),
    StableHlo.TRef.unary (.of main_call5_v9 : StableHlo.TRef sig ⟨S_, .i1⟩) (.of main_call5_v10 : StableHlo.TRef sig ⟨S8386560, .i1⟩) (broadcastInDim S8386560 ![] bcast_S_S8386560),
    StableHlo.TRef.binary (.of main_call5_v8 : StableHlo.TRef sig ⟨S8386560, .i1⟩) (.of main_call5_v10 : StableHlo.TRef sig ⟨S8386560, .i1⟩) (.of main_call5_v11 : StableHlo.TRef sig ⟨S8386560, .i1⟩) (cmpi .ne),
    StableHlo.TRef.binary (.of main_call5_v11 : StableHlo.TRef sig ⟨S8386560, .i1⟩) (.of main_call5_v6 : StableHlo.TRef sig ⟨S8386560, .i1⟩) (.of main_call5_v12 : StableHlo.TRef sig ⟨S8386560, .i1⟩) andi,
    StableHlo.TRef.unary (.of main_call5_v2 : StableHlo.TRef sig ⟨S_, .i32⟩) (.of main_call5_v13 : StableHlo.TRef sig ⟨S8386560, .i32⟩) (broadcastInDim S8386560 ![] bcast_S_S8386560),
    StableHlo.TRef.binary (.of main_call5_v4 : StableHlo.TRef sig ⟨S8386560, .i32⟩) (.of main_call5_v13 : StableHlo.TRef sig ⟨S8386560, .i32⟩) (.of main_call5_v14 : StableHlo.TRef sig ⟨S8386560, .i32⟩) addi,
    StableHlo.TRef.ternary (.of main_call5_v12 : StableHlo.TRef sig ⟨S8386560, .i1⟩) (.of main_call5_v14 : StableHlo.TRef sig ⟨S8386560, .i32⟩) (.of main_call5_v4 : StableHlo.TRef sig ⟨S8386560, .i32⟩) (.of main_v17 : StableHlo.TRef sig ⟨S8386560, .i32⟩) select,
    StableHlo.nullary main_c_7 (constantI S_ 32 1#32),
    StableHlo.TRef.unary (.of main_c_7 : StableHlo.TRef sig ⟨S_, .i32⟩) (.of main_call6_v0 : StableHlo.TRef sig ⟨S8386560, .i32⟩) (broadcastInDim S8386560 ![] bcast_S_S8386560),
    StableHlo.TRef.binary (.of main_v15 : StableHlo.TRef sig ⟨S8386560, .i32⟩) (.of main_call6_v0 : StableHlo.TRef sig ⟨S8386560, .i32⟩) (.of main_call6_v1 : StableHlo.TRef sig ⟨S8386560, .i32⟩) Host.divsi,
    StableHlo.TRef.unary (.of main_v15 : StableHlo.TRef sig ⟨S8386560, .i32⟩) (.of main_call6_v2 : StableHlo.TRef sig ⟨S8386560, .i32⟩) signi,
    StableHlo.TRef.unary (.of main_c_7 : StableHlo.TRef sig ⟨S_, .i32⟩) (.of main_call6_v3 : StableHlo.TRef sig ⟨S_, .i32⟩) signi,
    StableHlo.TRef.unary (.of main_call6_v3 : StableHlo.TRef sig ⟨S_, .i32⟩) (.of main_call6_v4 : StableHlo.TRef sig ⟨S8386560, .i32⟩) (broadcastInDim S8386560 ![] bcast_S_S8386560),
    StableHlo.TRef.binary (.of main_call6_v2 : StableHlo.TRef sig ⟨S8386560, .i32⟩) (.of main_call6_v4 : StableHlo.TRef sig ⟨S8386560, .i32⟩) (.of main_call6_v5 : StableHlo.TRef sig ⟨S8386560, .i1⟩) (cmpi .ne),
    StableHlo.TRef.unary (.of main_c_7 : StableHlo.TRef sig ⟨S_, .i32⟩) (.of main_call6_v6 : StableHlo.TRef sig ⟨S8386560, .i32⟩) (broadcastInDim S8386560 ![] bcast_S_S8386560),
    StableHlo.TRef.binary (.of main_v15 : StableHlo.TRef sig ⟨S8386560, .i32⟩) (.of main_call6_v6 : StableHlo.TRef sig ⟨S8386560, .i32⟩) (.of main_call6_v7 : StableHlo.TRef sig ⟨S8386560, .i32⟩) Host.remsi,
    StableHlo.TRef.nullary (.of main_call6_c : StableHlo.TRef sig ⟨S_, .i32⟩) (constantI S_ 32 0#32),
    StableHlo.TRef.unary (.of main_call6_c : StableHlo.TRef sig ⟨S_, .i32⟩) (.of main_call6_v8 : StableHlo.TRef sig ⟨S8386560, .i32⟩) (broadcastInDim S8386560 ![] bcast_S_S8386560),
    StableHlo.TRef.binary (.of main_call6_v7 : StableHlo.TRef sig ⟨S8386560, .i32⟩) (.of main_call6_v8 : StableHlo.TRef sig ⟨S8386560, .i32⟩) (.of main_call6_v9 : StableHlo.TRef sig ⟨S8386560, .i1⟩) (cmpi .ne),
    StableHlo.TRef.binary (.of main_call6_v5 : StableHlo.TRef sig ⟨S8386560, .i1⟩) (.of main_call6_v9 : StableHlo.TRef sig ⟨S8386560, .i1⟩) (.of main_call6_v10 : StableHlo.TRef sig ⟨S8386560, .i1⟩) andi,
    StableHlo.TRef.nullary (.of main_call6_c_0 : StableHlo.TRef sig ⟨S_, .i32⟩) (constantI S_ 32 1#32),
    StableHlo.TRef.unary (.of main_call6_c_0 : StableHlo.TRef sig ⟨S_, .i32⟩) (.of main_call6_v11 : StableHlo.TRef sig ⟨S8386560, .i32⟩) (broadcastInDim S8386560 ![] bcast_S_S8386560),
    StableHlo.TRef.binary (.of main_call6_v1 : StableHlo.TRef sig ⟨S8386560, .i32⟩) (.of main_call6_v11 : StableHlo.TRef sig ⟨S8386560, .i32⟩) (.of main_call6_v12 : StableHlo.TRef sig ⟨S8386560, .i32⟩) subi,
    StableHlo.TRef.ternary (.of main_call6_v10 : StableHlo.TRef sig ⟨S8386560, .i1⟩) (.of main_call6_v12 : StableHlo.TRef sig ⟨S8386560, .i32⟩) (.of main_call6_v1 : StableHlo.TRef sig ⟨S8386560, .i32⟩) (.of main_v18 : StableHlo.TRef sig ⟨S8386560, .i32⟩) select,
    StableHlo.nullary main_c_8 (constantI S_ 32 4096#32),
    StableHlo.TRef.unary (.of main_c_8 : StableHlo.TRef sig ⟨S_, .i32⟩) (.of main_call7_v0 : StableHlo.TRef sig ⟨S_, .i32⟩) id,
    StableHlo.TRef.nullary (.of main_call7_c : StableHlo.TRef sig ⟨S_, .i32⟩) (constantI S_ 32 0#32),
    StableHlo.TRef.binary (.of main_call7_v0 : StableHlo.TRef sig ⟨S_, .i32⟩) (.of main_call7_c : StableHlo.TRef sig ⟨S_, .i32⟩) (.of main_call7_v1 : StableHlo.TRef sig ⟨S_, .i1⟩) (cmpi .eq),
    StableHlo.TRef.nullary (.of main_call7_c_0 : StableHlo.TRef sig ⟨S_, .i32⟩) (constantI S_ 32 1#32),
    StableHlo.TRef.ternary (.of main_call7_v1 : StableHlo.TRef sig ⟨S_, .i1⟩) (.of main_call7_c_0 : StableHlo.TRef sig ⟨S_, .i32⟩) (.of main_call7_v0 : StableHlo.TRef sig ⟨S_, .i32⟩) (.of main_call7_v2 : StableHlo.TRef sig ⟨S_, .i32⟩) select,
    StableHlo.TRef.unary (.of main_call7_v2 : StableHlo.TRef sig ⟨S_, .i32⟩) (.of main_call7_v3 : StableHlo.TRef sig ⟨S8386560, .i32⟩) (broadcastInDim S8386560 ![] bcast_S_S8386560),
    StableHlo.TRef.binary (.of main_v18 : StableHlo.TRef sig ⟨S8386560, .i32⟩) (.of main_call7_v3 : StableHlo.TRef sig ⟨S8386560, .i32⟩) (.of main_call7_v4 : StableHlo.TRef sig ⟨S8386560, .i32⟩) Host.remsi,
    StableHlo.TRef.nullary (.of main_call7_c_1 : StableHlo.TRef sig ⟨S_, .i32⟩) (constantI S_ 32 0#32),
    StableHlo.TRef.unary (.of main_call7_c_1 : StableHlo.TRef sig ⟨S_, .i32⟩) (.of main_call7_v5 : StableHlo.TRef sig ⟨S8386560, .i32⟩) (broadcastInDim S8386560 ![] bcast_S_S8386560),
    StableHlo.TRef.binary (.of main_call7_v4 : StableHlo.TRef sig ⟨S8386560, .i32⟩) (.of main_call7_v5 : StableHlo.TRef sig ⟨S8386560, .i32⟩) (.of main_call7_v6 : StableHlo.TRef sig ⟨S8386560, .i1⟩) (cmpi .ne),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v7 : StableHlo.TRef sig ⟨S8386560, .i32⟩) (broadcastInDim S8386560 ![] bcast_S_S8386560),
    StableHlo.TRef.binary (.of main_call7_v4 : StableHlo.TRef sig ⟨S8386560, .i32⟩) (.of main_call7_v7 : StableHlo.TRef sig ⟨S8386560, .i32⟩) (.of main_call7_v8 : StableHlo.TRef sig ⟨S8386560, .i1⟩) (cmpi .slt),
    StableHlo.TRef.nullary (.of main_call7_c_3 : StableHlo.TRef sig ⟨S_, .i32⟩) (constantI S_ 32 0#32),
    StableHlo.TRef.binary (.of main_call7_v2 : StableHlo.TRef sig ⟨S_, .i32⟩) (.of main_call7_c_3 : StableHlo.TRef sig ⟨S_, .i32⟩) (.of main_call7_v9 : StableHlo.TRef sig ⟨S_, .i1⟩) (cmpi .slt),
    StableHlo.TRef.unary (.of main_call7_v9 : StableHlo.TRef sig ⟨S_, .i1⟩) (.of main_call7_v10 : StableHlo.TRef sig ⟨S8386560, .i1⟩) (broadcastInDim S8386560 ![] bcast_S_S8386560),
    StableHlo.TRef.binary (.of main_call7_v8 : StableHlo.TRef sig ⟨S8386560, .i1⟩) (.of main_call7_v10 : StableHlo.TRef sig ⟨S8386560, .i1⟩) (.of main_call7_v11 : StableHlo.TRef sig ⟨S8386560, .i1⟩) (cmpi .ne),
    StableHlo.TRef.binary (.of main_call7_v11 : StableHlo.TRef sig ⟨S8386560, .i1⟩) (.of main_call7_v6 : StableHlo.TRef sig ⟨S8386560, .i1⟩) (.of main_call7_v12 : StableHlo.TRef sig ⟨S8386560, .i1⟩) andi,
    StableHlo.TRef.unary (.of main_call7_v2 : StableHlo.TRef sig ⟨S_, .i32⟩) (.of main_call7_v13 : StableHlo.TRef sig ⟨S8386560, .i32⟩) (broadcastInDim S8386560 ![] bcast_S_S8386560),
    StableHlo.TRef.binary (.of main_call7_v4 : StableHlo.TRef sig ⟨S8386560, .i32⟩) (.of main_call7_v13 : StableHlo.TRef sig ⟨S8386560, .i32⟩) (.of main_call7_v14 : StableHlo.TRef sig ⟨S8386560, .i32⟩) addi,
    StableHlo.TRef.ternary (.of main_call7_v12 : StableHlo.TRef sig ⟨S8386560, .i1⟩) (.of main_call7_v14 : StableHlo.TRef sig ⟨S8386560, .i32⟩) (.of main_call7_v4 : StableHlo.TRef sig ⟨S8386560, .i32⟩) (.of main_v19 : StableHlo.TRef sig ⟨S8386560, .i32⟩) select,
    StableHlo.nullary main_c_9 (constantI S_ 32 0#32),
    StableHlo.unary main_c_9 main_v20 (broadcastInDim S8386560 ![] bcast_S_S8386560 : (⟨S_, .i32⟩ : BufTy).Contents (Elt F) → (⟨S8386560, .i32⟩ : BufTy).Contents (Elt F)),
    StableHlo.binary main_v17 main_v20 main_v21 (cmpi .slt : (⟨S8386560, .i32⟩ : BufTy).Contents (Elt F) → (⟨S8386560, .i32⟩ : BufTy).Contents (Elt F) → (⟨S8386560, .i1⟩ : BufTy).Contents (Elt F)),
    StableHlo.nullary main_c_10 (constantI S_ 32 4096#32),
    StableHlo.unary main_c_10 main_v22 (broadcastInDim S8386560 ![] bcast_S_S8386560 : (⟨S_, .i32⟩ : BufTy).Contents (Elt F) → (⟨S8386560, .i32⟩ : BufTy).Contents (Elt F)),
    StableHlo.binary main_v17 main_v22 main_v23 (addi : (⟨S8386560, .i32⟩ : BufTy).Contents (Elt F) → (⟨S8386560, .i32⟩ : BufTy).Contents (Elt F) → (⟨S8386560, .i32⟩ : BufTy).Contents (Elt F)),
    StableHlo.ternary main_v21 main_v23 main_v17 main_v24 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v24 main_v25 (broadcastInDim S8386560x1 ![0] bcast_S8386560_S8386560x1_0 : (⟨S8386560, .i32⟩ : BufTy).Contents (Elt F) → (⟨S8386560x1, .i32⟩ : BufTy).Contents (Elt F)),
    StableHlo.binary main_arg0 main_v25 main_v26 ((fun x i => Host.gather gather_S4096x3_S8386560x1_S8386560x3_1_0_n_n_0_1_13 x i) : (⟨S4096x3, .f32⟩ : BufTy).Contents (Elt F) → (⟨S8386560x1, .i32⟩ : BufTy).Contents (Elt F) → (⟨S8386560x3, .f32⟩ : BufTy).Contents (Elt F)),
    StableHlo.nullary main_c_11 (constantI S_ 32 0#32),
    StableHlo.unary main_c_11 main_v27 (broadcastInDim S8386560 ![] bcast_S_S8386560 : (⟨S_, .i32⟩ : BufTy).Contents (Elt F) → (⟨S8386560, .i32⟩ : BufTy).Contents (Elt F)),
    StableHlo.binary main_v19 main_v27 main_v28 (cmpi .slt : (⟨S8386560, .i32⟩ : BufTy).Contents (Elt F) → (⟨S8386560, .i32⟩ : BufTy).Contents (Elt F) → (⟨S8386560, .i1⟩ : BufTy).Contents (Elt F)),
    StableHlo.nullary main_c_12 (constantI S_ 32 4096#32),
    StableHlo.unary main_c_12 main_v29 (broadcastInDim S8386560 ![] bcast_S_S8386560 : (⟨S_, .i32⟩ : BufTy).Contents (Elt F) → (⟨S8386560, .i32⟩ : BufTy).Contents (Elt F)),
    StableHlo.binary main_v19 main_v29 main_v30 (addi : (⟨S8386560, .i32⟩ : BufTy).Contents (Elt F) → (⟨S8386560, .i32⟩ : BufTy).Contents (Elt F) → (⟨S8386560, .i32⟩ : BufTy).Contents (Elt F)),
    StableHlo.ternary main_v28 main_v30 main_v19 main_v31 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v31 main_v32 (broadcastInDim S8386560x1 ![0] bcast_S8386560_S8386560x1_0 : (⟨S8386560, .i32⟩ : BufTy).Contents (Elt F) → (⟨S8386560x1, .i32⟩ : BufTy).Contents (Elt F)),
    StableHlo.binary main_arg0 main_v32 main_v33 ((fun x i => Host.gather gather_S4096x3_S8386560x1_S8386560x3_1_0_n_n_0_1_13 x i) : (⟨S4096x3, .f32⟩ : BufTy).Contents (Elt F) → (⟨S8386560x1, .i32⟩ : BufTy).Contents (Elt F) → (⟨S8386560x3, .f32⟩ : BufTy).Contents (Elt F)),
    StableHlo.binary main_v26 main_v33 main_v34 (subf : (⟨S8386560x3, .f32⟩ : BufTy).Contents (Elt F) → (⟨S8386560x3, .f32⟩ : BufTy).Contents (Elt F) → (⟨S8386560x3, .f32⟩ : BufTy).Contents (Elt F)),
    StableHlo.TRef.binary (.of main_v34 : StableHlo.TRef sig ⟨S8386560x3, .f32⟩) (.of main_v34 : StableHlo.TRef sig ⟨S8386560x3, .f32⟩) (.of main_call8_v0 : StableHlo.TRef sig ⟨S8386560x3, .f32⟩) mulf,
    StableHlo.TRef.nullary (.of main_call8_cst : StableHlo.TRef sig ⟨S_, .f32⟩) (constant S_ .f32 0x00000000#32),
    StableHlo.TRef.binary (.of main_call8_v0 : StableHlo.TRef sig ⟨S8386560x3, .f32⟩) (.of main_call8_cst : StableHlo.TRef sig ⟨S_, .f32⟩) (.of main_call8_v1 : StableHlo.TRef sig ⟨S8386560, .f32⟩) (fun x v => Host.reduceAdd x v reducesTo_S8386560x3_S8386560_d1 h_S_),
    StableHlo.TRef.unary (.of main_call8_v1 : StableHlo.TRef sig ⟨S8386560, .f32⟩) (.of main_v35 : StableHlo.TRef sig ⟨S8386560, .f32⟩) Host.sqrt,
    StableHlo.nullary main_cst_13 (constant S_ .f32 0x40A00000#32),
    StableHlo.unary main_cst_13 main_v36 (broadcastInDim S8386560 ![] bcast_S_S8386560 : (⟨S_, .f32⟩ : BufTy).Contents (Elt F) → (⟨S8386560, .f32⟩ : BufTy).Contents (Elt F)),
    StableHlo.binary main_v35 main_v36 main_v37 (cmpf .olt : (⟨S8386560, .f32⟩ : BufTy).Contents (Elt F) → (⟨S8386560, .f32⟩ : BufTy).Contents (Elt F) → (⟨S8386560, .i1⟩ : BufTy).Contents (Elt F)),
    StableHlo.binary main_v17 main_v19 main_v38 ((fun a b => concatenate S16773120 0 [⟨S8386560, a⟩, ⟨S8386560, b⟩] concatenates_S8386560_S8386560_S16773120_d0) : (⟨S8386560, .i32⟩ : BufTy).Contents (Elt F) → (⟨S8386560, .i32⟩ : BufTy).Contents (Elt F) → (⟨S16773120, .i32⟩ : BufTy).Contents (Elt F)),
    StableHlo.binary main_v19 main_v17 main_v39 ((fun a b => concatenate S16773120 0 [⟨S8386560, a⟩, ⟨S8386560, b⟩] concatenates_S8386560_S8386560_S16773120_d0) : (⟨S8386560, .i32⟩ : BufTy).Contents (Elt F) → (⟨S8386560, .i32⟩ : BufTy).Contents (Elt F) → (⟨S16773120, .i32⟩ : BufTy).Contents (Elt F)),
    StableHlo.unary main_v34 main_v40 (Host.negf : (⟨S8386560x3, .f32⟩ : BufTy).Contents (Elt F) → (⟨S8386560x3, .f32⟩ : BufTy).Contents (Elt F)),
    StableHlo.binary main_v40 main_v34 main_v41 ((fun a b => concatenate S16773120x3 0 [⟨S8386560x3, a⟩, ⟨S8386560x3, b⟩] concatenates_S8386560x3_S8386560x3_S16773120x3_d0) : (⟨S8386560x3, .f32⟩ : BufTy).Contents (Elt F) → (⟨S8386560x3, .f32⟩ : BufTy).Contents (Elt F) → (⟨S16773120x3, .f32⟩ : BufTy).Contents (Elt F)),
    StableHlo.binary main_v37 main_v37 main_v42 ((fun a b => concatenate S16773120 0 [⟨S8386560, a⟩, ⟨S8386560, b⟩] concatenates_S8386560_S8386560_S16773120_d0) : (⟨S8386560, .i1⟩ : BufTy).Contents (Elt F) → (⟨S8386560, .i1⟩ : BufTy).Contents (Elt F) → (⟨S16773120, .i1⟩ : BufTy).Contents (Elt F)),
    StableHlo.nullary main_c_14 (constantI S_ 32 4096#32),
    StableHlo.TRef.unary (.of main_c_14 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S16773120, .i32⟩) (broadcastInDim S16773120 ![] bcast_S_S16773120),
    StableHlo.TRef.ternary (.of main_v42 : StableHlo.TRef sig ⟨S16773120, .i1⟩) (.of main_v38 : StableHlo.TRef sig ⟨S16773120, .i32⟩) (.of main_call9_v1 : StableHlo.TRef sig ⟨S16773120, .i32⟩) (.of main_v43 : StableHlo.TRef sig ⟨S16773120, .i32⟩) select,
    StableHlo.TRef.nullary (.of main_call10_v0 : StableHlo.TRef sig ⟨S16773120, .i32⟩) (iotaInDim S16773120 32 0),
    StableHlo.TRef.binary (.of main_v43 : StableHlo.TRef sig ⟨S16773120, .i32⟩) (.of main_call10_v0 : StableHlo.TRef sig ⟨S16773120, .i32⟩) (.of main_call10_v1_0 : StableHlo.TRef sig ⟨S16773120, .i32⟩) (fun x y => (Host.sort2 S16773120 0 comparator_i32_i32_d0 x y).1),
    StableHlo.TRef.binary (.of main_v43 : StableHlo.TRef sig ⟨S16773120, .i32⟩) (.of main_call10_v0 : StableHlo.TRef sig ⟨S16773120, .i32⟩) (.of main_v44 : StableHlo.TRef sig ⟨S16773120, .i32⟩) (fun x y => (Host.sort2 S16773120 0 comparator_i32_i32_d0 x y).2),
    StableHlo.nullary main_c_15 (constantI S_ 32 0#32),
    StableHlo.unary main_c_15 main_v45 (broadcastInDim S16773120 ![] bcast_S_S16773120 : (⟨S_, .i32⟩ : BufTy).Contents (Elt F) → (⟨S16773120, .i32⟩ : BufTy).Contents (Elt F)),
    StableHlo.binary main_v44 main_v45 main_v46 (cmpi .slt : (⟨S16773120, .i32⟩ : BufTy).Contents (Elt F) → (⟨S16773120, .i32⟩ : BufTy).Contents (Elt F) → (⟨S16773120, .i1⟩ : BufTy).Contents (Elt F)),
    StableHlo.nullary main_c_16 (constantI S_ 32 16773120#32),
    StableHlo.unary main_c_16 main_v47 (broadcastInDim S16773120 ![] bcast_S_S16773120 : (⟨S_, .i32⟩ : BufTy).Contents (Elt F) → (⟨S16773120, .i32⟩ : BufTy).Contents (Elt F)),
    StableHlo.binary main_v44 main_v47 main_v48 (addi : (⟨S16773120, .i32⟩ : BufTy).Contents (Elt F) → (⟨S16773120, .i32⟩ : BufTy).Contents (Elt F) → (⟨S16773120, .i32⟩ : BufTy).Contents (Elt F)),
    StableHlo.ternary main_v46 main_v48 main_v44 main_v49 (select : (⟨S16773120, .i1⟩ : BufTy).Contents (Elt F) → (⟨S16773120, .i32⟩ : BufTy).Contents (Elt F) → (⟨S16773120, .i32⟩ : BufTy).Contents (Elt F) → (⟨S16773120, .i32⟩ : BufTy).Contents (Elt F)),
    StableHlo.unary main_v49 main_v50 (broadcastInDim S16773120x1 ![0] bcast_S16773120_S16773120x1_0 : (⟨S16773120, .i32⟩ : BufTy).Contents (Elt F) → (⟨S16773120x1, .i32⟩ : BufTy).Contents (Elt F)),
    StableHlo.binary main_v42 main_v50 main_v51 ((fun x i => Host.gather gather_S16773120_S16773120x1_S16773120_n_0_n_n_0_1_1 x i) : (⟨S16773120, .i1⟩ : BufTy).Contents (Elt F) → (⟨S16773120x1, .i32⟩ : BufTy).Contents (Elt F) → (⟨S16773120, .i1⟩ : BufTy).Contents (Elt F)),
    StableHlo.nullary main_c_17 (constantI S_ 32 0#32),
    StableHlo.unary main_c_17 main_v52 (broadcastInDim S16773120 ![] bcast_S_S16773120 : (⟨S_, .i32⟩ : BufTy).Contents (Elt F) → (⟨S16773120, .i32⟩ : BufTy).Contents (Elt F)),
    StableHlo.binary main_v44 main_v52 main_v53 (cmpi .slt : (⟨S16773120, .i32⟩ : BufTy).Contents (Elt F) → (⟨S16773120, .i32⟩ : BufTy).Contents (Elt F) → (⟨S16773120, .i1⟩ : BufTy).Contents (Elt F)),
    StableHlo.nullary main_c_18 (constantI S_ 32 16773120#32),
    StableHlo.unary main_c_18 main_v54 (broadcastInDim S16773120 ![] bcast_S_S16773120 : (⟨S_, .i32⟩ : BufTy).Contents (Elt F) → (⟨S16773120, .i32⟩ : BufTy).Contents (Elt F)),
    StableHlo.binary main_v44 main_v54 main_v55 (addi : (⟨S16773120, .i32⟩ : BufTy).Contents (Elt F) → (⟨S16773120, .i32⟩ : BufTy).Contents (Elt F) → (⟨S16773120, .i32⟩ : BufTy).Contents (Elt F)),
    StableHlo.ternary main_v53 main_v55 main_v44 main_v56 (select : (⟨S16773120, .i1⟩ : BufTy).Contents (Elt F) → (⟨S16773120, .i32⟩ : BufTy).Contents (Elt F) → (⟨S16773120, .i32⟩ : BufTy).Contents (Elt F) → (⟨S16773120, .i32⟩ : BufTy).Contents (Elt F)),
    StableHlo.unary main_v56 main_v57 (broadcastInDim S16773120x1 ![0] bcast_S16773120_S16773120x1_0 : (⟨S16773120, .i32⟩ : BufTy).Contents (Elt F) → (⟨S16773120x1, .i32⟩ : BufTy).Contents (Elt F)),
    StableHlo.binary main_v38 main_v57 main_v58 ((fun x i => Host.gather gather_S16773120_S16773120x1_S16773120_n_0_n_n_0_1_1 x i) : (⟨S16773120, .i32⟩ : BufTy).Contents (Elt F) → (⟨S16773120x1, .i32⟩ : BufTy).Contents (Elt F) → (⟨S16773120, .i32⟩ : BufTy).Contents (Elt F)),
    StableHlo.nullary main_c_19 (constantI S_ 32 4096#32),
    StableHlo.TRef.unary (.of main_c_19 : StableHlo.TRef sig ⟨S_, .i32⟩) (.of main_call11_v0 : StableHlo.TRef sig ⟨S_, .i32⟩) id,
    StableHlo.TRef.unary (.of main_call11_v0 : StableHlo.TRef sig ⟨S_, .i32⟩) (.of main_call11_v1 : StableHlo.TRef sig ⟨S16773120, .i32⟩) (broadcastInDim S16773120 ![] bcast_S_S16773120),
    StableHlo.TRef.ternary (.of main_v51 : StableHlo.TRef sig ⟨S16773120, .i1⟩) (.of main_v58 : StableHlo.TRef sig ⟨S16773120, .i32⟩) (.of main_call11_v1 : StableHlo.TRef sig ⟨S16773120, .i32⟩) (.of main_v59 : StableHlo.TRef sig ⟨S16773120, .i32⟩) select,
    StableHlo.nullary main_c_20 (constantI S_ 32 0#32),
    StableHlo.unary main_c_20 main_v60 (broadcastInDim S16773120 ![] bcast_S_S16773120 : (⟨S_, .i32⟩ : BufTy).Contents (Elt F) → (⟨S16773120, .i32⟩ : BufTy).Contents (Elt F)),
    StableHlo.binary main_v44 main_v60 main_v61 (cmpi .slt : (⟨S16773120, .i32⟩ : BufTy).Contents (Elt F) → (⟨S16773120, .i32⟩ : BufTy).Contents (Elt F) → (⟨S16773120, .i1⟩ : BufTy).Contents (Elt F)),
    StableHlo.nullary main_c_21 (constantI S_ 32 16773120#32),
    StableHlo.unary main_c_21 main_v62 (broadcastInDim S16773120 ![] bcast_S_S16773120 : (⟨S_, .i32⟩ : BufTy).Contents (Elt F) → (⟨S16773120, .i32⟩ : BufTy).Contents (Elt F)),
    StableHlo.binary main_v44 main_v62 main_v63 (addi : (⟨S16773120, .i32⟩ : BufTy).Contents (Elt F) → (⟨S16773120, .i32⟩ : BufTy).Contents (Elt F) → (⟨S16773120, .i32⟩ : BufTy).Contents (Elt F)),
    StableHlo.ternary main_v61 main_v63 main_v44 main_v64 (select : (⟨S16773120, .i1⟩ : BufTy).Contents (Elt F) → (⟨S16773120, .i32⟩ : BufTy).Contents (Elt F) → (⟨S16773120, .i32⟩ : BufTy).Contents (Elt F) → (⟨S16773120, .i32⟩ : BufTy).Contents (Elt F)),
    StableHlo.unary main_v64 main_v65 (broadcastInDim S16773120x1 ![0] bcast_S16773120_S16773120x1_0 : (⟨S16773120, .i32⟩ : BufTy).Contents (Elt F) → (⟨S16773120x1, .i32⟩ : BufTy).Contents (Elt F)),
    StableHlo.binary main_v39 main_v65 main_v66 ((fun x i => Host.gather gather_S16773120_S16773120x1_S16773120_n_0_n_n_0_1_1 x i) : (⟨S16773120, .i32⟩ : BufTy).Contents (Elt F) → (⟨S16773120x1, .i32⟩ : BufTy).Contents (Elt F) → (⟨S16773120, .i32⟩ : BufTy).Contents (Elt F)),
    StableHlo.nullary main_c_22 (constantI S_ 32 4096#32),
    StableHlo.TRef.unary (.of main_c_22 : StableHlo.TRef sig ⟨S_, .i32⟩) (.of main_call12_v0 : StableHlo.TRef sig ⟨S_, .i32⟩) id,
    StableHlo.TRef.unary (.of main_call12_v0 : StableHlo.TRef sig ⟨S_, .i32⟩) (.of main_call12_v1 : StableHlo.TRef sig ⟨S16773120, .i32⟩) (broadcastInDim S16773120 ![] bcast_S_S16773120),
    StableHlo.TRef.ternary (.of main_v51 : StableHlo.TRef sig ⟨S16773120, .i1⟩) (.of main_v66 : StableHlo.TRef sig ⟨S16773120, .i32⟩) (.of main_call12_v1 : StableHlo.TRef sig ⟨S16773120, .i32⟩) (.of main_v67 : StableHlo.TRef sig ⟨S16773120, .i32⟩) select,
    StableHlo.nullary main_c_23 (constantI S_ 32 0#32),
    StableHlo.unary main_c_23 main_v68 (broadcastInDim S16773120 ![] bcast_S_S16773120 : (⟨S_, .i32⟩ : BufTy).Contents (Elt F) → (⟨S16773120, .i32⟩ : BufTy).Contents (Elt F)),
    StableHlo.binary main_v44 main_v68 main_v69 (cmpi .slt : (⟨S16773120, .i32⟩ : BufTy).Contents (Elt F) → (⟨S16773120, .i32⟩ : BufTy).Contents (Elt F) → (⟨S16773120, .i1⟩ : BufTy).Contents (Elt F)),
    StableHlo.nullary main_c_24 (constantI S_ 32 16773120#32),
    StableHlo.unary main_c_24 main_v70 (broadcastInDim S16773120 ![] bcast_S_S16773120 : (⟨S_, .i32⟩ : BufTy).Contents (Elt F) → (⟨S16773120, .i32⟩ : BufTy).Contents (Elt F)),
    StableHlo.binary main_v44 main_v70 main_v71 (addi : (⟨S16773120, .i32⟩ : BufTy).Contents (Elt F) → (⟨S16773120, .i32⟩ : BufTy).Contents (Elt F) → (⟨S16773120, .i32⟩ : BufTy).Contents (Elt F)),
    StableHlo.ternary main_v69 main_v71 main_v44 main_v72 (select : (⟨S16773120, .i1⟩ : BufTy).Contents (Elt F) → (⟨S16773120, .i32⟩ : BufTy).Contents (Elt F) → (⟨S16773120, .i32⟩ : BufTy).Contents (Elt F) → (⟨S16773120, .i32⟩ : BufTy).Contents (Elt F)),
    StableHlo.unary main_v72 main_v73 (broadcastInDim S16773120x1 ![0] bcast_S16773120_S16773120x1_0 : (⟨S16773120, .i32⟩ : BufTy).Contents (Elt F) → (⟨S16773120x1, .i32⟩ : BufTy).Contents (Elt F)),
    StableHlo.binary main_v41 main_v73 main_v74 ((fun x i => Host.gather gather_S16773120x3_S16773120x1_S16773120x3_1_0_n_n_0_1_13 x i) : (⟨S16773120x3, .f32⟩ : BufTy).Contents (Elt F) → (⟨S16773120x1, .i32⟩ : BufTy).Contents (Elt F) → (⟨S16773120x3, .f32⟩ : BufTy).Contents (Elt F)),
    StableHlo.unary main_v51 main_v75 (broadcastInDim S16773120x1 ![0] bcast_S16773120_S16773120x1_0 : (⟨S16773120, .i1⟩ : BufTy).Contents (Elt F) → (⟨S16773120x1, .i1⟩ : BufTy).Contents (Elt F)),
    StableHlo.unary main_v75 main_v76 (uitofp .f32 : (⟨S16773120x1, .i1⟩ : BufTy).Contents (Elt F) → (⟨S16773120x1, .f32⟩ : BufTy).Contents (Elt F)),
    StableHlo.unary main_v76 main_v77 (broadcastInDim S16773120x3 ![0, 1] bcast_S16773120x1_S16773120x3_0_1 : (⟨S16773120x1, .f32⟩ : BufTy).Contents (Elt F) → (⟨S16773120x3, .f32⟩ : BufTy).Contents (Elt F)),
    StableHlo.binary main_v74 main_v77 main_v78 (mulf : (⟨S16773120x3, .f32⟩ : BufTy).Contents (Elt F) → (⟨S16773120x3, .f32⟩ : BufTy).Contents (Elt F) → (⟨S16773120x3, .f32⟩ : BufTy).Contents (Elt F)),
    StableHlo.nullary main_c_25 (constantI S_ 32 0#32),
    StableHlo.unary main_c_25 main_v79 (broadcastInDim S16773120x3 ![] bcast_S_S16773120x3 : (⟨S_, .i32⟩ : BufTy).Contents (Elt F) → (⟨S16773120x3, .i32⟩ : BufTy).Contents (Elt F)),
    StableHlo.unary main_v51 main_v80 ((extui 32 · natLt_1_32) : (⟨S16773120, .i1⟩ : BufTy).Contents (Elt F) → (⟨S16773120, .i32⟩ : BufTy).Contents (Elt F)),
    StableHlo.nullary main_c_26 (constantI S_ 32 0#32),
    StableHlo.binary main_v80 main_c_26 main_v81 ((fun x v => Host.reduce IntOp.addi x v reducesTo_S16773120_S_d0 h_S_) : (⟨S16773120, .i32⟩ : BufTy).Contents (Elt F) → (⟨S_, .i32⟩ : BufTy).Contents (Elt F) → (⟨S_, .i32⟩ : BufTy).Contents (Elt F)) ]

/-- @main is the straight line of `ops`: unfolding the two windows, the functions' bodies at their calls and the
    calls' buffer records at their fields, both sides are the same sequence of steps (sequencing re-associates by
    computation), which the kernel checks by unfolding. -/
theorem main_eq (c : Dev nD) : main (F := F) c = seq ops := by
  chain_rfl

set_option maxRecDepth 4096 in
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., nullary_bufs_sub .., nullary_bufs_sub .., unary_bufs_sub .., binary_bufs_sub ..,
   nullary_bufs_sub .., binary_bufs_sub .., nullary_bufs_sub .., unary_bufs_sub .., ternary_bufs_sub .., nullary_bufs_sub ..,
   unary_bufs_sub .., binary_bufs_sub .., reshape_bufs_sub .., unary_bufs_sub .., nullary_bufs_sub .., unary_bufs_sub ..,
   binary_bufs_sub .., nullary_bufs_sub .., unary_bufs_sub .., nullary_bufs_sub .., unary_bufs_sub .., unary_bufs_sub ..,
   binary_bufs_sub .., nullary_bufs_sub .., unary_bufs_sub .., binary_bufs_sub .., nullary_bufs_sub .., unary_bufs_sub ..,
   binary_bufs_sub .., ternary_bufs_sub .., unary_bufs_sub .., nullary_bufs_sub .., unary_bufs_sub .., ternary_bufs_sub ..,
   nullary_bufs_sub .., unary_bufs_sub .., binary_bufs_sub .., nullary_bufs_sub .., unary_bufs_sub .., binary_bufs_sub ..,
   unary_bufs_sub .., unary_bufs_sub .., unary_bufs_sub .., binary_bufs_sub .., unary_bufs_sub .., binary_bufs_sub ..,
   nullary_bufs_sub .., unary_bufs_sub .., binary_bufs_sub .., binary_bufs_sub .., nullary_bufs_sub .., unary_bufs_sub ..,
   binary_bufs_sub .., ternary_bufs_sub .., nullary_bufs_sub .., unary_bufs_sub .., nullary_bufs_sub .., binary_bufs_sub ..,
   nullary_bufs_sub .., ternary_bufs_sub .., unary_bufs_sub .., binary_bufs_sub .., nullary_bufs_sub .., unary_bufs_sub ..,
   binary_bufs_sub .., nullary_bufs_sub .., unary_bufs_sub .., binary_bufs_sub .., nullary_bufs_sub .., binary_bufs_sub ..,
   unary_bufs_sub .., binary_bufs_sub .., binary_bufs_sub .., unary_bufs_sub .., binary_bufs_sub .., ternary_bufs_sub ..,
   nullary_bufs_sub .., unary_bufs_sub .., binary_bufs_sub .., unary_bufs_sub .., unary_bufs_sub .., unary_bufs_sub ..,
   binary_bufs_sub .., unary_bufs_sub .., binary_bufs_sub .., nullary_bufs_sub .., unary_bufs_sub .., binary_bufs_sub ..,
   binary_bufs_sub .., nullary_bufs_sub .., unary_bufs_sub .., binary_bufs_sub .., ternary_bufs_sub .., nullary_bufs_sub ..,
   unary_bufs_sub .., nullary_bufs_sub .., binary_bufs_sub .., nullary_bufs_sub .., ternary_bufs_sub .., unary_bufs_sub ..,
   binary_bufs_sub .., nullary_bufs_sub .., unary_bufs_sub .., binary_bufs_sub .., nullary_bufs_sub .., unary_bufs_sub ..,
   binary_bufs_sub .., nullary_bufs_sub .., binary_bufs_sub .., unary_bufs_sub .., binary_bufs_sub .., binary_bufs_sub ..,
   unary_bufs_sub .., binary_bufs_sub .., ternary_bufs_sub .., nullary_bufs_sub .., unary_bufs_sub .., binary_bufs_sub ..,
   nullary_bufs_sub .., unary_bufs_sub .., binary_bufs_sub .., ternary_bufs_sub .., unary_bufs_sub .., binary_bufs_sub ..,
   nullary_bufs_sub .., unary_bufs_sub .., binary_bufs_sub .., nullary_bufs_sub .., unary_bufs_sub .., binary_bufs_sub ..,
   ternary_bufs_sub .., unary_bufs_sub .., binary_bufs_sub .., binary_bufs_sub .., binary_bufs_sub .., nullary_bufs_sub ..,
   binary_bufs_sub .., unary_bufs_sub .., nullary_bufs_sub .., unary_bufs_sub .., binary_bufs_sub .., binary_bufs_sub ..,
   binary_bufs_sub .., unary_bufs_sub .., binary_bufs_sub .., binary_bufs_sub .., nullary_bufs_sub .., unary_bufs_sub ..,
   unary_bufs_sub .., ternary_bufs_sub .., nullary_bufs_sub .., binary_bufs_sub .., binary_bufs_sub .., nullary_bufs_sub ..,
   unary_bufs_sub .., binary_bufs_sub .., nullary_bufs_sub .., unary_bufs_sub .., binary_bufs_sub .., ternary_bufs_sub ..,
   unary_bufs_sub .., binary_bufs_sub .., nullary_bufs_sub .., unary_bufs_sub .., binary_bufs_sub .., nullary_bufs_sub ..,
   unary_bufs_sub .., binary_bufs_sub .., ternary_bufs_sub .., unary_bufs_sub .., binary_bufs_sub .., nullary_bufs_sub ..,
   unary_bufs_sub .., unary_bufs_sub .., ternary_bufs_sub .., nullary_bufs_sub .., unary_bufs_sub .., binary_bufs_sub ..,
   nullary_bufs_sub .., unary_bufs_sub .., binary_bufs_sub .., ternary_bufs_sub .., unary_bufs_sub .., binary_bufs_sub ..,
   nullary_bufs_sub .., unary_bufs_sub .., unary_bufs_sub .., ternary_bufs_sub .., nullary_bufs_sub .., unary_bufs_sub ..,
   binary_bufs_sub .., nullary_bufs_sub .., unary_bufs_sub .., binary_bufs_sub .., ternary_bufs_sub .., unary_bufs_sub ..,
   binary_bufs_sub .., unary_bufs_sub .., unary_bufs_sub .., unary_bufs_sub .., binary_bufs_sub .., nullary_bufs_sub ..,
   unary_bufs_sub .., unary_bufs_sub .., nullary_bufs_sub .., binary_bufs_sub ..⟩

/-- Every operation determines all of its results. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl⟩

/-- On every device, for any float values, from any memory with zero counters: every weakly fair execution of @main
    terminates, and each TensorCore buffer ends at the fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

/-- A reference other than the one an operation writes is not among its written buffers. -/
theorem nw {τ : Topo} {sig : RefSig} {r y : Ref sig .tc} (h : r ≠ y) :
    Proc.devRef (τ := τ) .tc r ∉ ({Proc.devRef .tc y} : Finset (DevRef τ sig)) := by
  rw [Finset.mem_singleton]; exact devRef_ne_of_ne h

/-- No operation writes argument 0. -/
theorem arg0_not_written : (ops : List (HloOp τ sig (Elt F))).Forall fun op => (main_arg0 : DevRef τ sig) ∉ op.writes :=
  ⟨nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide)⟩

/-- No operation writes argument 1. -/
theorem arg1_not_written : (ops : List (HloOp τ sig (Elt F))).Forall fun op => (main_arg1 : DevRef τ sig) ∉ op.writes :=
  ⟨nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide)⟩

/-- No operation writes argument 2. -/
theorem arg2_not_written : (ops : List (HloOp τ sig (Elt F))).Forall fun op => (main_arg2 : DevRef τ sig) ∉ op.writes :=
  ⟨nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide),
   nw (by decide), nw (by decide), nw (by decide), nw (by decide), nw (by decide), nw (by decide), nw (by decide), nw (by decide)⟩

/-- The arguments keep their contents through the fold. -/
theorem after_arg0 (V : Valuation τ sig (Elt F)) : after ops V (main_arg0 : DevRef τ sig) = V (main_arg0 : DevRef τ sig) :=
  after_of_forall_not_mem ops V (List.forall_iff_forall_mem.1 arg0_not_written)
theorem after_arg1 (V : Valuation τ sig (Elt F)) : after ops V (main_arg1 : DevRef τ sig) = V (main_arg1 : DevRef τ sig) :=
  after_of_forall_not_mem ops V (List.forall_iff_forall_mem.1 arg1_not_written)
theorem after_arg2 (V : Valuation τ sig (Elt F)) : after ops V (main_arg2 : DevRef τ sig) = V (main_arg2 : DevRef τ sig) :=
  after_of_forall_not_mem ops V (List.forall_iff_forall_mem.1 arg2_not_written)

/-- @main runs (terminates, no fault) and its argument buffers end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_arg0).trans (after_arg0 _), (h c main_arg1).trans (after_arg1 _),
      (h c main_arg2).trans (after_arg2 _)⟩) (run_after m ρ)

end Cert.ReferenceIdeal.RefRun

end
-- ==== Proof.PairSpec.lean ====
/-
  The pairwise-displacement specification, index by index, at the ideal values (a float is an extended real).

  For the transposed positions `pT : [3, 4096]` (component, particle):
  • `rijOf pT` is the array of all displacements, `rijOf pT [c, i, j] = pT[c, j] - pT[c, i]`;
  • `cutBit d` is the 32-bit word recording whether the squared length `∑ c, d c * d c` of a displacement
    `d : Fin 3 → EReal` is below the cutoff literal (the f32 pattern `0x41C80000`, which denotes 25): `1` if so, else `0`;
  • `maskOf pT [i, j]` is `cutBit` of the displacement from `i` to `j`.
  Then the algebra between the two arrangements of the same quantities, on FINITE values (real numbers embedded in the
  extended reals): the negated displacement is the opposite difference (`neg_sub_coe`), the squared length does not see
  the sign (`sum_sq_sub_comm`), a sum of squares of reals is a nonnegative real (`sum_sq_coe`), the two float literals
  denote 25 and 5 (`ofBits_25`, `ofBits_5`), and for a nonnegative real `s` the comparison `√s < 5` is the comparison
  `s < 25` (`sqrt_lt_five_iff`); together: the cutoff word, tested against zero, is the bit of "the length is below 5"
  (`cutBit_ne_zero_eq`).
-/
import Idealize.ShloMosaic.PureOps.Ideal
import Idealize.ShloMosaic.PureOps.Ideal.Laws
import Idealize.ShloMosaic.Lib.ValueIdx

noncomputable section

open scoped BigOperators

namespace PairSpec

open Idealize.ShloMosaic Idealize.ShloMosaic.ValueIdx

/-- The word stored for one pair from its three displacement components: the one-bit comparison "the squared length is
    below the cutoff literal", zero-extended to 32 bits. -/
def cutBit (d : Fin 3 → EReal) : BitVec 32 :=
  (Ideal.cmp .olt (∑ c : Fin 3, d c * d c) (Ideal.ofBits .f32 0x41C80000#32)).setWidth 32

/-- All displacements: `rijOf pT [c, i, j] = pT[c, j] - pT[c, i]`. -/
def rijOf (pT : FVec Ideal ⟨2, ![3, 4096]⟩ .f32) : FVec Ideal ⟨3, ![3, 4096, 4096]⟩ .f32 :=
  fun x => pT (ix2 (x 0 : Fin 3) (x 2 : Fin 4096)) - pT (ix2 (x 0 : Fin 3) (x 1 : Fin 4096))

/-- The cutoff mask: `maskOf pT [i, j]` is the cutoff word of the displacement from `i` to `j`. -/
def maskOf (pT : FVec Ideal ⟨2, ![3, 4096]⟩ .f32) : IVec ⟨2, ![4096, 4096]⟩ 32 :=
  fun x => cutBit fun c => rijOf pT (ix3 c (x 0 : Fin 4096) (x 1 : Fin 4096))

/-- `rijOf` at an index given by coordinates. -/
theorem rijOf_ix3 (pT : FVec Ideal ⟨2, ![3, 4096]⟩ .f32) (c : Fin 3) (i j : Fin 4096) :
    rijOf pT (ix3 c i j) = pT (ix2 c j) - pT (ix2 c i) := rfl

/-- `maskOf` at an index given by coordinates. -/
theorem maskOf_ix2 (pT : FVec Ideal ⟨2, ![3, 4096]⟩ .f32) (i j : Fin 4096) :
    maskOf pT (ix2 i j) = cutBit fun c => pT (ix2 c j) - pT (ix2 c i) := rfl

/-! ## The algebra on finite values -/

/-- On real numbers the negated difference is the opposite difference. -/
theorem neg_sub_coe (r s : ℝ) : -((s : EReal) - (r : EReal)) = (r : EReal) - (s : EReal) := by
  rw [← EReal.coe_sub, ← EReal.coe_neg, ← EReal.coe_sub, neg_sub]

/-- A sum of squares of differences of reals is the embedded real sum. -/
theorem sum_sq_coe (r s : Fin 3 → ℝ) :
    (∑ c : Fin 3, ((r c : EReal) - (s c : EReal)) * ((r c : EReal) - (s c : EReal)))
      = ((∑ c : Fin 3, (r c - s c) * (r c - s c) : ℝ) : EReal) := by
  simp only [Fin.sum_univ_three, ← EReal.coe_sub, ← EReal.coe_mul, ← EReal.coe_add]

/-- The squared length does not see the sign of the displacement. -/
theorem sum_sq_sub_comm (r s : Fin 3 → ℝ) :
    (∑ c : Fin 3, (s c - r c) * (s c - r c)) = ∑ c : Fin 3, (r c - s c) * (r c - s c) :=
  Finset.sum_congr rfl fun c _ => by ring

/-- The f32 pattern `0x41C80000` denotes 25. -/
theorem ofBits_25 : Ideal.ofBits .f32 0x41C80000#32 = ((25 : ℝ) : EReal) := by
  simp [Ideal.ofBits, Ideal.ieee, -EReal.coe_mul] <;> norm_num

/-- The f32 pattern `0x40A00000` denotes 5. -/
theorem ofBits_5 : Ideal.ofBits .f32 0x40A00000#32 = ((5 : ℝ) : EReal) := by
  simp [Ideal.ofBits, Ideal.ieee, -EReal.coe_mul] <;> norm_num

/-- For a nonnegative real, the square root is below 5 exactly when the number is below 25. -/
theorem sqrt_lt_five_iff {s : ℝ} (hs : 0 ≤ s) : Real.sqrt s < 5 ↔ s < 25 := by
  rw [Real.sqrt_lt' (by norm_num : (0 : ℝ) < 5)]; norm_num

/-- A one-bit word zero-extended to 32 bits differs from zero exactly when it is `1`: the comparison gives the bit back. -/
theorem cmpi_ne_setWidth (b : BitVec 1) : IntOp.cmpi .ne (b.setWidth 32) 0#32 = b := by
  rcases BitVec.eq_zero_or_eq_one b with h | h <;> subst h <;> rfl

end PairSpec

end
-- ==== Proof.PairPayload.lean ====
/-
  The kernel body's two stored values read at an index, at the ideal values.

  First four small layout facts in the style of the library's "layout operations read at an index": a unit axis inserted
  in the middle or at the end of a matrix by a shape cast (`[a, b] → [a, 1, b]`, `[a, b] → [a, b, 1]`), and such an array
  broadcast along its unit axis (`[a, 1, b] → [a, n, b]`, `[a, b, 1] → [a, b, n]`). Then the body: from the block `x0` of
  the rows' positions and the block `x1` of the columns' positions (both `[3, 512]`: component, particle), the stored
  displacement block is `x1[c, b] - x0[c, a]` at `(c, a, b)`, and the stored mask block is the cutoff word
  (`PairSpec.cutBit`) of that displacement at `(a, b)`.
-/
import proofs.«127677_j1614907703797_1_alg».proof.Proof.Gen.KernelIdeal.Skeleton
import proofs.«127677_j1614907703797_1_alg».proof.Proof.PairSpec
import Idealize.ShloMosaic.Lib.ValueLayout

noncomputable section

open scoped BigOperators

namespace PairPayload

open Idealize.ShloMosaic Idealize.ShloMosaic.ValueIdx

/-! ## A unit axis inserted by a shape cast, and broadcast along -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, b]` array broadcast to `[a, n, b]` reads, at `(i, p, j)`, the operand at `(i, 0, j)`. -/
theorem broadcastTo_a1b_anb_apply {a n b : ℕ} (v : (⟨3, ![a, 1, b]⟩ : Shape).Idx → α)
    (h : (⟨3, ![a, 1, b]⟩ : Shape).Broadcasts ⟨3, ![a, n, b]⟩) (i : Fin a) (p : Fin n) (j : Fin b) :
    broadcastTo ⟨3, ![a, n, b]⟩ v h (ix3 i p j) = v (ix3 i (0 : Fin 1) j) := by
  refine broadcastTo_apply v h (ix3 i p j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- An `[a, b, 1]` array broadcast to `[a, b, n]` reads, at `(i, j, p)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (p : Fin n) :
    broadcastTo ⟨3, ![a, b, n]⟩ v h (ix3 i j p) = v (ix3 i j (0 : Fin 1)) := by
  refine broadcastTo_apply v h (ix3 i j p) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-! ## The body's stored values -/

open Cert.KernelIdeal

/-- The stored displacement block at `(c, a, b)`: the column particle's component less the row particle's. -/
theorem pay_rij (x0 x1 : Vec Ideal S3x512 .f32) (c : Fin 3) (a b : Fin 512) :
    Gen.k0_pay1 x0 x1 (ix3 c a b) = x1 (ix2 c b) - x0 (ix2 c a) := by
  unfold Gen.k0_pay1
  show (broadcastTo S3x512x512 (shapeCast S3x1x512 (shapeCast S3x512 x1 _) _) _) (ix3 c a b)
      - (broadcastTo S3x512x512 (shapeCast S3x512x1 (shapeCast S3x512 x0 _) _) _) (ix3 c a b) = _
  rw [broadcastTo_a1b_anb_apply, broadcastTo_ab1_abn_apply, shapeCast_ab_a1b_apply, shapeCast_ab_ab1_apply,
    shapeCast_self, shapeCast_self]

/-- The same at any index of the block. -/
theorem pay_rij_at (x0 x1 : Vec Ideal S3x512 .f32) (y : S3x512x512.Idx) :
    Gen.k0_pay1 x0 x1 y = x1 (ix2 (y 0 : Fin 3) (y 2 : Fin 512)) - x0 (ix2 (y 0 : Fin 3) (y 1 : Fin 512)) := by
  obtain ⟨c, a, b, rfl⟩ : ∃ (c : Fin 3) (a b : Fin 512), y = ix3 c a b := ⟨y 0, y 1, y 2, eq_ix3 y⟩
  exact pay_rij x0 x1 c a b

/-- The sum over the three components of the squared stored displacement, at `(a, b)`. -/
theorem pay_sumsq (x0 x1 : Vec Ideal S3x512 .f32) (a b : Fin 512) :
    multiReduction (F := Ideal) .add [0] S512x512 (mulf (Gen.k0_pay1 x0 x1) (Gen.k0_pay1 x0 x1)) 0x00000000#32
        Gen.reduces_S3x512x512_S512x512 (.inl rfl) rfl (ix2 a b)
      = ∑ c : Fin 3, (x1 (ix2 c b) - x0 (ix2 c a)) * (x1 (ix2 c b) - x0 (ix2 c a)) := by
  refine (Ideal.multiReduction_add_single _ _ _ _ _ _).trans ?_
  show (∑ c : Fin 3, mulf (Gen.k0_pay1 x0 x1) (Gen.k0_pay1 x0 x1)
      (Gen.reduces_S3x512x512_S512x512.lift (ix2 a b) c)) = _
  refine Finset.sum_congr rfl fun c _ => ?_
  have hl : Gen.reduces_S3x512x512_S512x512.lift (ix2 a b) c = ix3 c a b := by
    funext d; refine Fin.ext ?_
    match d with
    | ⟨0, _⟩ => rfl
    | ⟨1, _⟩ => rfl
    | ⟨2, _⟩ => rfl
  rw [hl, mulf_apply, pay_rij]

/-- The stored mask block at `(a, b)`: the cutoff word of the displacement from the row particle to the column one. -/
theorem pay_cut (x0 x1 : Vec Ideal S3x512 .f32) (a b : Fin 512) :
    Gen.k0_pay2 x0 x1 (ix2 a b) = PairSpec.cutBit fun c => x1 (ix2 c b) - x0 (ix2 c a) := by
  unfold Gen.k0_pay2 PairSpec.cutBit
  show (Ideal.cmp .olt (multiReduction (F := Ideal) .add [0] S512x512 (mulf (Gen.k0_pay1 x0 x1) (Gen.k0_pay1 x0 x1))
      0x00000000#32 Gen.reduces_S3x512x512_S512x512 (.inl rfl) rfl (ix2 a b)) (Ideal.ofBits .f32 0x41C80000#32)).setWidth 32 = _
  rw [pay_sumsq]

/-- The same at any index of the block. -/
theorem pay_cut_at (x0 x1 : Vec Ideal S3x512 .f32) (y : S512x512.Idx) :
    Gen.k0_pay2 x0 x1 y
      = PairSpec.cutBit fun c => x1 (ix2 c (y 1 : Fin 512)) - x0 (ix2 c (y 0 : Fin 512)) := by
  obtain ⟨a, b, rfl⟩ : ∃ (a b : Fin 512), y = ix2 a b := ⟨y 0, y 1, eq_ix2 y⟩
  exact pay_cut x0 x1 a b

end PairPayload

end
-- ==== Proof.KValue.lean ====
/-
  What the pairwise kernel's two result arrays hold after the region, at the exact instance.

  Point (i, j) of the 8 × 8 grid writes back block (0, i, j) of the displacement array [3, 4096, 4096] and block (i, j)
  of the cutoff array [4096, 4096]; the 64 blocks tile each array. What the body stored at a point is, index by index,
  the displacement p[c, 512·j + b] − p[c, 512·i + a] of the transposed positions p, resp. the cutoff word of the three
  displacements of a pair: the block of ONE whole-array function, so the array ends holding that function.
-/
import proofs.«127677_j1614907703797_1_alg».proof.Proof.KRegion
import proofs.«127677_j1614907703797_1_alg».proof.Proof.PairSpec
import proofs.«127677_j1614907703797_1_alg».proof.Proof.PairPayload
import Idealize.ShloMosaic.Lib.Pipeline.Value
import Idealize.ShloMosaic.Lib.ValueIdx

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the two input windows and the cutoff window move with the displacement
    window's two block coordinates, each below 8; the leading block coordinates are zero. -/
theorem idx_facts : ∀ t : Fin cfg0.N, win0_0.index t (0 : Fin 2) = 0 ∧ win0_1.index t (0 : Fin 2) = 0 ∧ win0_2.index t (0 : Fin 3) = 0
    ∧ win0_0.index t (1 : Fin 2) = win0_2.index t (1 : Fin 3) ∧ win0_1.index t (1 : Fin 2) = win0_2.index t (2 : Fin 3)
    ∧ win0_3.index t (0 : Fin 2) = win0_2.index t (1 : Fin 3) ∧ win0_3.index t (1 : Fin 2) = win0_2.index t (2 : Fin 3)
    ∧ win0_2.index t (1 : Fin 3) ≤ 7 ∧ win0_2.index t (2 : Fin 3) ≤ 7 :=
  (by decide +kernel : ∀ t : Fin grid0.N, _)

/-- Every pair of block coordinates is some point's. -/
theorem idx_onto : ∀ (q1 q2 : Fin 8), ∃ t : Fin cfg0.N, win0_2.index t = ![0, q1.val, q2.val] ∧ win0_3.index t = ![q1.val, q2.val] :=
  (by decide +kernel : ∀ (q1 q2 : Fin 8), ∃ t : Fin grid0.N, win0_2.index t = ![0, q1.val, q2.val] ∧ win0_3.index t = ![q1.val, q2.val])

/-- The transposed positions as the region finds them. -/
abbrev posT (c : Dev nD) : FVec Ideal S3x4096 .f32 := V m c main_v0

/-- WHAT POINT `t` WRITES BACK to the displacement array is block `t` of the displacement function of the transposed positions. -/
theorem flushedRij_eq (c : Dev nD) (t : Fin cfg0.N) :
    (dats m 0 c).flushed 2 t = ((cfg0.win 2).blk t).view.read (Elt Ideal) (PairSpec.rijOf (posT m c)) := by
  show (cfg0.win 2).cut (grid0.coords t) ((dats m 0 c).after 2 t) = _
  rw [after0_2]
  unfold outRij
  rw [View.canon_unit_zero hz3]
  simp only [View.ld_unit_zero (S := S3x512) hz2]
  obtain ⟨e0, e1, e2, e3, e4, e5, e6, e7, e8⟩ := idx_facts t
  funext j
  show k0_pay1 (iblk m c 0 t) (iblk m c 1 t) j = PairSpec.rijOf (posT m c) (((cfg0.win 2).blk t).view.emb j)
  rw [PairPayload.pay_rij_at]
  show posT m c (((cfg0.win 1).blk t).view.emb (ix2 (j 0 : Fin 3) (j 2 : Fin 512))) - posT m c (((cfg0.win 0).blk t).view.emb (ix2 (j 0 : Fin 3) (j 1 : Fin 512)))
    = PairSpec.rijOf (posT m c) (((cfg0.win 2).blk t).view.emb j)
  unfold PairSpec.rijOf
  have h1 : ((cfg0.win 1).blk t).view.emb (ix2 (j 0 : Fin 3) (j 2 : Fin 512))
      = ix2 ((((cfg0.win 2).blk t).view.emb j) 0 : Fin 3) ((((cfg0.win 2).blk t).view.emb j) 2 : Fin 4096) := by
    funext a; apply Fin.ext
    match a with
    | ⟨0, _⟩ => show win0_1.index t (0 : Fin 2) * 3 + 1 * (j 0).val = win0_2.index t (0 : Fin 3) * 3 + 1 * (j 0).val; omega
    | ⟨1, _⟩ => show win0_1.index t (1 : Fin 2) * 512 + 1 * (j 2).val = win0_2.index t (2 : Fin 3) * 512 + 1 * (j 2).val; omega
  have h0 : ((cfg0.win 0).blk t).view.emb (ix2 (j 0 : Fin 3) (j 1 : Fin 512))
      = ix2 ((((cfg0.win 2).blk t).view.emb j) 0 : Fin 3) ((((cfg0.win 2).blk t).view.emb j) 1 : Fin 4096) := by
    funext a; apply Fin.ext
    match a with
    | ⟨0, _⟩ => show win0_0.index t (0 : Fin 2) * 3 + 1 * (j 0).val = win0_2.index t (0 : Fin 3) * 3 + 1 * (j 0).val; omega
    | ⟨1, _⟩ => show win0_0.index t (1 : Fin 2) * 512 + 1 * (j 1).val = win0_2.index t (1 : Fin 3) * 512 + 1 * (j 1).val; omega
  rw [h1, h0]
  rfl

/-- WHAT POINT `t` WRITES BACK to the cutoff array is block `t` of the cutoff function of the transposed positions. -/
theorem flushedCut_eq (c : Dev nD) (t : Fin cfg0.N) :
    (dats m 0 c).flushed 3 t = ((cfg0.win 3).blk t).view.read (Elt Ideal) (PairSpec.maskOf (posT m c)) := by
  show (cfg0.win 3).cut (grid0.coords t) ((dats m 0 c).after 3 t) = _
  rw [after0_3]
  unfold outCut
  rw [View.canon_unit_zero hz2]
  simp only [View.ld_unit_zero (S := S3x512) hz2]
  obtain ⟨e0, e1, e2, e3, e4, e5, e6, e7, e8⟩ := idx_facts t
  funext j
  show k0_pay2 (iblk m c 0 t) (iblk m c 1 t) j = PairSpec.maskOf (posT m c) (((cfg0.win 3).blk t).view.emb j)
  rw [PairPayload.pay_cut_at]
  show PairSpec.cutBit (fun k => posT m c (((cfg0.win 1).blk t).view.emb (ix2 k (j 1 : Fin 512))) - posT m c (((cfg0.win 0).blk t).view.emb (ix2 k (j 0 : Fin 512))))
    = PairSpec.maskOf (posT m c) (((cfg0.win 3).blk t).view.emb j)
  unfold PairSpec.maskOf
  congr 1
  funext k
  refine Eq.trans ?_ (PairSpec.rijOf_ix3 (posT m c) k _ _).symm
  have h1 : ((cfg0.win 1).blk t).view.emb (ix2 k (j 1 : Fin 512))
      = ix2 k ((((cfg0.win 3).blk t).view.emb j) 1 : Fin 4096) := by
    funext a; apply Fin.ext
    match a with
    | ⟨0, _⟩ => show win0_1.index t (0 : Fin 2) * 3 + 1 * k.val = k.val; omega
    | ⟨1, _⟩ => show win0_1.index t (1 : Fin 2) * 512 + 1 * (j 1).val = win0_3.index t (1 : Fin 2) * 512 + 1 * (j 1).val; omega
  have h0 : ((cfg0.win 0).blk t).view.emb (ix2 k (j 0 : Fin 512))
      = ix2 k ((((cfg0.win 3).blk t).view.emb j) 0 : Fin 4096) := by
    funext a; apply Fin.ext
    match a with
    | ⟨0, _⟩ => show win0_0.index t (0 : Fin 2) * 3 + 1 * k.val = k.val; omega
    | ⟨1, _⟩ => show win0_0.index t (1 : Fin 2) * 512 + 1 * (j 0).val = win0_3.index t (0 : Fin 2) * 512 + 1 * (j 0).val; omega
  rw [h1, h0]
  rfl

theorem mem_blkRij (t : Fin cfg0.N) (i : S3x4096x4096.Idx) :
    i ∈ ((cfg0.win 2).blk t).view.set ↔ ∀ a : Fin 3, win0_2.index t a * S3x512x512.size a ≤ (i a).val ∧ (i a).val < win0_2.index t a * S3x512x512.size a + S3x512x512.size a := by
  show i ∈ ((View.whole main_v1_0).slice (win0_2.rect t)).set ↔ _
  rw [View.set_slice_whole, Rect.mem_set_unit]
  exact Iff.rfl

theorem mem_blkCut (t : Fin cfg0.N) (i : S4096x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v1_1).slice (win0_3.rect t)).set ↔ _
  rw [View.set_slice_whole, Rect.mem_set_unit]
  exact Iff.rfl

/-- The 64 blocks cover the displacement array: index (c, r, s) lies in the block of the point with block coordinates
    (r / 512, s / 512). -/
theorem coverRijArr (i : S3x4096x4096.Idx) : ∃ t : Fin cfg0.N, (cfg0.win 2).flush t = true ∧ i ∈ ((cfg0.win 2).blk t).view.set := by
  have hi0 : (i 0).val < 3 := (i 0).isLt
  have hi1 : (i 1).val < 4096 := (i 1).isLt
  have hi2 : (i 2).val < 4096 := (i 2).isLt
  obtain ⟨t, ht, -⟩ := idx_onto ⟨(i 1).val / 512, by omega⟩ ⟨(i 2).val / 512, by omega⟩
  have q0 : win0_2.index t (0 : Fin 3) = 0 := congrFun ht 0
  have q1 : win0_2.index t (1 : Fin 3) = (i 1).val / 512 := congrFun ht 1
  have q2 : win0_2.index t (2 : Fin 3) = (i 2).val / 512 := congrFun ht 2
  refine ⟨t, flush0_2 t, ?_⟩
  rw [mem_blkRij]
  intro a
  match a with
  | ⟨0, _⟩ => show win0_2.index t (0 : Fin 3) * 3 ≤ (i 0).val ∧ (i 0).val < win0_2.index t (0 : Fin 3) * 3 + 3; omega
  | ⟨1, _⟩ => show win0_2.index t (1 : Fin 3) * 512 ≤ (i 1).val ∧ (i 1).val < win0_2.index t (1 : Fin 3) * 512 + 512; omega
  | ⟨2, _⟩ => show win0_2.index t (2 : Fin 3) * 512 ≤ (i 2).val ∧ (i 2).val < win0_2.index t (2 : Fin 3) * 512 + 512; omega

theorem coverCutArr (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, -, ht⟩ := idx_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_blkCut]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- THE DISPLACEMENT ARRAY after the region. -/
theorem finalRij (c : Dev nD) : (dats m 0 c).arrAt 2 cfg0.N = PairSpec.rijOf (posT m c) :=
  (dats m 0 c).arrAt_eq_of_cover 2 (PairSpec.rijOf (posT m c)) (fun t _ => flushedRij_eq m c t) coverRijArr

/-- THE CUTOFF ARRAY after the region. -/
theorem finalCut (c : Dev nD) : (dats m 0 c).arrAt 3 cfg0.N = PairSpec.maskOf (posT m c) :=
  (dats m 0 c).arrAt_eq_of_cover 3 (PairSpec.maskOf (posT m c)) (fun t _ => flushedCut_eq m c t) coverCutArr

end Cert.KernelIdeal.Region

end
-- ==== Proof.KStage.lean ====
/-
  The host lines after the pairwise kernel's region in three stretches: the pair-index computation (which reads nothing
  the region wrote), the reading of the two result arrays at the pair indices (index normalisation, the two gathers,
  the transposition, the negation, the comparison with zero), and the bookkeeping common to kernel and reference
  (concatenations, the stable argsort, the gathers along the sorted order, the masked product, the count).
-/
import proofs.«127677_j1614907703797_1_alg».proof.Proof.KTail

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pair-index computation: it ends with the row indices in `main_v19` and the column indices in `main_v21`. -/
abbrev segA : List (HloOp τ sig (Elt F)) := List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]

/-- Reading the region's results at the pair indices: it ends with the displacements in `main_v37` and the cutoff bits in `main_v54`. -/
abbrev segB : List (HloOp τ sig (Elt F)) :=
  [ StableHlo.nullary main_c_9 (constantI S_ 32 0#32),
    StableHlo.unary main_c_9 main_v22 (broadcastInDim S8386560 ![] bcast_S_S8386560 : (⟨S_, .i32⟩ : BufTy).Contents (Elt F) → (⟨S8386560, .i32⟩ : BufTy).Contents (Elt F)),
    StableHlo.binary main_v19 main_v22 main_v23 (cmpi .slt : (⟨S8386560, .i32⟩ : BufTy).Contents (Elt F) → (⟨S8386560, .i32⟩ : BufTy).Contents (Elt F) → (⟨S8386560, .i1⟩ : BufTy).Contents (Elt F)),
    StableHlo.nullary main_c_10 (constantI S_ 32 4096#32),
    StableHlo.unary main_c_10 main_v24 (broadcastInDim S8386560 ![] bcast_S_S8386560 : (⟨S_, .i32⟩ : BufTy).Contents (Elt F) → (⟨S8386560, .i32⟩ : BufTy).Contents (Elt F)),
    StableHlo.binary main_v19 main_v24 main_v25 (addi : (⟨S8386560, .i32⟩ : BufTy).Contents (Elt F) → (⟨S8386560, .i32⟩ : BufTy).Contents (Elt F) → (⟨S8386560, .i32⟩ : BufTy).Contents (Elt F)),
    StableHlo.ternary main_v23 main_v25 main_v19 main_v26 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.nullary main_c_11 (constantI S_ 32 0#32),
    StableHlo.unary main_c_11 main_v27 (broadcastInDim S8386560 ![] bcast_S_S8386560 : (⟨S_, .i32⟩ : BufTy).Contents (Elt F) → (⟨S8386560, .i32⟩ : BufTy).Contents (Elt F)),
    StableHlo.binary main_v21 main_v27 main_v28 (cmpi .slt : (⟨S8386560, .i32⟩ : BufTy).Contents (Elt F) → (⟨S8386560, .i32⟩ : BufTy).Contents (Elt F) → (⟨S8386560, .i1⟩ : BufTy).Contents (Elt F)),
    StableHlo.nullary main_c_12 (constantI S_ 32 4096#32),
    StableHlo.unary main_c_12 main_v29 (broadcastInDim S8386560 ![] bcast_S_S8386560 : (⟨S_, .i32⟩ : BufTy).Contents (Elt F) → (⟨S8386560, .i32⟩ : BufTy).Contents (Elt F)),
    StableHlo.binary main_v21 main_v29 main_v30 (addi : (⟨S8386560, .i32⟩ : BufTy).Contents (Elt F) → (⟨S8386560, .i32⟩ : BufTy).Contents (Elt F) → (⟨S8386560, .i32⟩ : BufTy).Contents (Elt F)),
    StableHlo.ternary main_v28 main_v30 main_v21 main_v31 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v26 main_v32 (broadcastInDim S8386560x1 ![0] bcast_S8386560_S8386560x1_0 : (⟨S8386560, .i32⟩ : BufTy).Contents (Elt F) → (⟨S8386560x1, .i32⟩ : BufTy).Contents (Elt F)),
    StableHlo.unary main_v31 main_v33 (broadcastInDim S8386560x1 ![0] bcast_S8386560_S8386560x1_0 : (⟨S8386560, .i32⟩ : BufTy).Contents (Elt F) → (⟨S8386560x1, .i32⟩ : BufTy).Contents (Elt F)),
    StableHlo.binary main_v32 main_v33 main_v34 ((fun a b => concatenate S8386560x2 1 [⟨S8386560x1, a⟩, ⟨S8386560x1, b⟩] concatenates_S8386560x1_S8386560x1_S8386560x2_d1) : (⟨S8386560x1, .i32⟩ : BufTy).Contents (Elt F) → (⟨S8386560x1, .i32⟩ : BufTy).Contents (Elt F) → (⟨S8386560x2, .i32⟩ : BufTy).Contents (Elt F)),
    StableHlo.binary main_v1_0 main_v34 main_v35 ((fun x i => Host.gather gather_S3x4096x4096_S8386560x2_S3x8386560_0_12_n_n_12_1_311 x i) : (⟨S3x4096x4096, .f32⟩ : BufTy).Contents (Elt F) → (⟨S8386560x2, .i32⟩ : BufTy).Contents (Elt F) → (⟨S3x8386560, .f32⟩ : BufTy).Contents (Elt F)),
    StableHlo.unary main_v35 main_v36 ((transpose S8386560x3 [1, 0] · transposes_S3x8386560_S8386560x3_1_0) : (⟨S3x8386560, .f32⟩ : BufTy).Contents (Elt F) → (⟨S8386560x3, .f32⟩ : BufTy).Contents (Elt F)),
    StableHlo.unary main_v36 main_v37 (Host.negf : (⟨S8386560x3, .f32⟩ : BufTy).Contents (Elt F) → (⟨S8386560x3, .f32⟩ : BufTy).Contents (Elt F)),
    StableHlo.nullary main_c_13 (constantI S_ 32 0#32),
    StableHlo.unary main_c_13 main_v38 (broadcastInDim S8386560 ![] bcast_S_S8386560 : (⟨S_, .i32⟩ : BufTy).Contents (Elt F) → (⟨S8386560, .i32⟩ : BufTy).Contents (Elt F)),
    StableHlo.binary main_v19 main_v38 main_v39 (cmpi .slt : (⟨S8386560, .i32⟩ : BufTy).Contents (Elt F) → (⟨S8386560, .i32⟩ : BufTy).Contents (Elt F) → (⟨S8386560, .i1⟩ : BufTy).Contents (Elt F)),
    StableHlo.nullary main_c_14 (constantI S_ 32 4096#32),
    StableHlo.unary main_c_14 main_v40 (broadcastInDim S8386560 ![] bcast_S_S8386560 : (⟨S_, .i32⟩ : BufTy).Contents (Elt F) → (⟨S8386560, .i32⟩ : BufTy).Contents (Elt F)),
    StableHlo.binary main_v19 main_v40 main_v41 (addi : (⟨S8386560, .i32⟩ : BufTy).Contents (Elt F) → (⟨S8386560, .i32⟩ : BufTy).Contents (Elt F) → (⟨S8386560, .i32⟩ : BufTy).Contents (Elt F)),
    StableHlo.ternary main_v39 main_v41 main_v19 main_v42 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.nullary main_c_15 (constantI S_ 32 0#32),
    StableHlo.unary main_c_15 main_v43 (broadcastInDim S8386560 ![] bcast_S_S8386560 : (⟨S_, .i32⟩ : BufTy).Contents (Elt F) → (⟨S8386560, .i32⟩ : BufTy).Contents (Elt F)),
    StableHlo.binary main_v21 main_v43 main_v44 (cmpi .slt : (⟨S8386560, .i32⟩ : BufTy).Contents (Elt F) → (⟨S8386560, .i32⟩ : BufTy).Contents (Elt F) → (⟨S8386560, .i1⟩ : BufTy).Contents (Elt F)),
    StableHlo.nullary main_c_16 (constantI S_ 32 4096#32),
    StableHlo.unary main_c_16 main_v45 (broadcastInDim S8386560 ![] bcast_S_S8386560 : (⟨S_, .i32⟩ : BufTy).Contents (Elt F) → (⟨S8386560, .i32⟩ : BufTy).Contents (Elt F)),
    StableHlo.binary main_v21 main_v45 main_v46 (addi : (⟨S8386560, .i32⟩ : BufTy).Contents (Elt F) → (⟨S8386560, .i32⟩ : BufTy).Contents (Elt F) → (⟨S8386560, .i32⟩ : BufTy).Contents (Elt F)),
    StableHlo.ternary main_v44 main_v46 main_v21 main_v47 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v42 main_v48 (broadcastInDim S8386560x1 ![0] bcast_S8386560_S8386560x1_0 : (⟨S8386560, .i32⟩ : BufTy).Contents (Elt F) → (⟨S8386560x1, .i32⟩ : BufTy).Contents (Elt F)),
    StableHlo.unary main_v47 main_v49 (broadcastInDim S8386560x1 ![0] bcast_S8386560_S8386560x1_0 : (⟨S8386560, .i32⟩ : BufTy).Contents (Elt F) → (⟨S8386560x1, .i32⟩ : BufTy).Contents (Elt F)),
    StableHlo.binary main_v48 main_v49 main_v50 ((fun a b => concatenate S8386560x2 1 [⟨S8386560x1, a⟩, ⟨S8386560x1, b⟩] concatenates_S8386560x1_S8386560x1_S8386560x2_d1) : (⟨S8386560x1, .i32⟩ : BufTy).Contents (Elt F) → (⟨S8386560x1, .i32⟩ : BufTy).Contents (Elt F) → (⟨S8386560x2, .i32⟩ : BufTy).Contents (Elt F)),
    StableHlo.binary main_v1_1 main_v50 main_v51 ((fun x i => Host.gather gather_S4096x4096_S8386560x2_S8386560_n_01_n_n_01_1_11 x i) : (⟨S4096x4096, .i32⟩ : BufTy).Contents (Elt F) → (⟨S8386560x2, .i32⟩ : BufTy).Contents (Elt F) → (⟨S8386560, .i32⟩ : BufTy).Contents (Elt F)),
    StableHlo.nullary main_c_17 (constantI S_ 32 0#32),
    StableHlo.unary main_c_17 main_v52 (broadcastInDim S8386560 ![] bcast_S_S8386560 : (⟨S_, .i32⟩ : BufTy).Contents (Elt F) → (⟨S8386560, .i32⟩ : BufTy).Contents (Elt F)),
    StableHlo.binary main_v51 main_v52 main_v53 (cmpi .ne : (⟨S8386560, .i32⟩ : BufTy).Contents (Elt F) → (⟨S8386560, .i32⟩ : BufTy).Contents (Elt F) → (⟨S8386560, .i1⟩ : BufTy).Contents (Elt F)),
    StableHlo.unary main_v53 main_v54 (id : (⟨S8386560, .i1⟩ : BufTy).Contents (Elt F) → (⟨S8386560, .i1⟩ : BufTy).Contents (Elt F)) ]

/-- The first lines of the common bookkeeping (the concatenations). -/
abbrev segC0 : List (HloOp τ sig (Elt F)) :=
  [ StableHlo.binary main_v19 main_v21 main_v55 ((fun a b => concatenate S16773120 0 [⟨S8386560, a⟩, ⟨S8386560, b⟩] concatenates_S8386560_S8386560_S16773120_d0) : (⟨S8386560, .i32⟩ : BufTy).Contents (Elt F) → (⟨S8386560, .i32⟩ : BufTy).Contents (Elt F) → (⟨S16773120, .i32⟩ : BufTy).Contents (Elt F)),
    StableHlo.binary main_v21 main_v19 main_v56 ((fun a b => concatenate S16773120 0 [⟨S8386560, a⟩, ⟨S8386560, b⟩] concatenates_S8386560_S8386560_S16773120_d0) : (⟨S8386560, .i32⟩ : BufTy).Contents (Elt F) → (⟨S8386560, .i32⟩ : BufTy).Contents (Elt F) → (⟨S16773120, .i32⟩ : BufTy).Contents (Elt F)),
    StableHlo.unary main_v37 main_v57 (Host.negf : (⟨S8386560x3, .f32⟩ : BufTy).Contents (Elt F) → (⟨S8386560x3, .f32⟩ : BufTy).Contents (Elt F)),
    StableHlo.binary main_v57 main_v37 main_v58 ((fun a b => concatenate S16773120x3 0 [⟨S8386560x3, a⟩, ⟨S8386560x3, b⟩] concatenates_S8386560x3_S8386560x3_S16773120x3_d0) : (⟨S8386560x3, .f32⟩ : BufTy).Contents (Elt F) → (⟨S8386560x3, .f32⟩ : BufTy).Contents (Elt F) → (⟨S16773120x3, .f32⟩ : BufTy).Contents (Elt F)),
    StableHlo.binary main_v54 main_v54 main_v59 ((fun a b => concatenate S16773120 0 [⟨S8386560, a⟩, ⟨S8386560, b⟩] concatenates_S8386560_S8386560_S16773120_d0) : (⟨S8386560, .i1⟩ : BufTy).Contents (Elt F) → (⟨S8386560, .i1⟩ : BufTy).Contents (Elt F) → (⟨S16773120, .i1⟩ : BufTy).Contents (Elt F)),
    StableHlo.nullary main_c_18 (constantI S_ 32 4096#32) ]

/-- The common bookkeeping. -/
abbrev segC : List (HloOp τ sig (Elt F)) := segC0 ++ List.flatten [hostOps1_17, hostOps1_18, hostOps1_19, hostOps1_20, hostOps1_21, hostOps1_22, hostOps1_23]

theorem hostOps1_16_split : (hostOps1_16 : List (HloOp τ sig (Elt F))) = segB ++ segC0 := rfl

/-- The lines after the region are the three stretches in order. -/
theorem tail_split : (tailOps.flatten : List (HloOp τ sig (Elt F))) = segA ++ (segB ++ segC) := by
  simp only [tailOps, segA, segC, List.flatten_cons, List.flatten_nil, List.append_nil, List.append_assoc]
  rw [hostOps1_16_split]
  simp only [List.append_assoc]

end Cert.KernelIdeal.Region

end
-- ==== Proof.KStageB.lean ====
/-
  Reading the pairwise kernel's two result arrays at the pair indices, as pure terms: what the second stretch of host
  lines leaves in the displacement buffer and in the cutoff buffer, as functions of the row and column indices and of
  the two result arrays.
-/
import proofs.«127677_j1614907703797_1_alg».proof.Proof.KStage
import Idealize.ShloMosaic.Lib.StableHlo.Run

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.StableHlo

/-- A row or column index array normalised as jnp indexing does: a negative index is counted from the end. -/
def normIdx (x : IVec S8386560 32) : IVec S8386560 32 :=
  select (cmpi .slt x (broadcastInDim S8386560 ![] bcast_S_S8386560 (constantI S_ 32 0#32)))
    (addi x (broadcastInDim S8386560 ![] bcast_S_S8386560 (constantI S_ 32 4096#32))) x

/-- The pair (row, column) of start indices of every pair, as one [P, 2] array. -/
def idxPair (a b : IVec S8386560 32) : IVec S8386560x2 32 :=
  concatenate S8386560x2 1 [⟨S8386560x1, broadcastInDim S8386560x1 ![0] bcast_S8386560_S8386560x1_0 a⟩,
    ⟨S8386560x1, broadcastInDim S8386560x1 ![0] bcast_S8386560_S8386560x1_0 b⟩] concatenates_S8386560x1_S8386560x1_S8386560x2_d1

/-- The displacements the kernel's program hands on: the displacement array gathered at the pairs, transposed, negated. -/
def rijStage (rij : FVec F S3x4096x4096 .f32) (ii jj : IVec S8386560 32) : FVec F S8386560x3 .f32 :=
  Host.negf (transpose S8386560x3 [1, 0]
    (Host.gather gather_S3x4096x4096_S8386560x2_S3x8386560_0_12_n_n_12_1_311 rij (idxPair (normIdx ii) (normIdx jj)))
    transposes_S3x8386560_S8386560x3_1_0)

/-- The cutoff bits the kernel's program hands on: the cutoff array gathered at the pairs, compared with zero. -/
def cutStage (mask : IVec S4096x4096 32) (ii jj : IVec S8386560 32) : IVec S8386560 1 :=
  id (cmpi .ne (Host.gather gather_S4096x4096_S8386560x2_S8386560_n_01_n_n_01_1_11 mask (idxPair (normIdx ii) (normIdx jj)))
    (broadcastInDim S8386560 ![] bcast_S_S8386560 (constantI S_ 32 0#32)))

set_option maxHeartbeats 8000000 in
theorem segB_rij (V : Valuation τ sig (Elt F)) :
    after segB V (Proc.devRef .tc main_v37)
      = rijStage (V (Proc.devRef .tc main_v1_0)) (V (Proc.devRef .tc main_v19)) (V (Proc.devRef .tc main_v21)) := by
  after_results
  rfl

set_option maxHeartbeats 8000000 in
theorem segB_cut (V : Valuation τ sig (Elt F)) :
    after segB V (Proc.devRef .tc main_v54)
      = cutStage (V (Proc.devRef .tc main_v1_1)) (V (Proc.devRef .tc main_v19)) (V (Proc.devRef .tc main_v21)) := by
  after_results
  rfl

set_option maxHeartbeats 8000000 in
theorem segB_i (V : Valuation τ sig (Elt F)) : after segB V (Proc.devRef .tc main_v19) = V (Proc.devRef .tc main_v19) := by
  after_results_simp

set_option maxHeartbeats 8000000 in
theorem segB_j (V : Valuation τ sig (Elt F)) : after segB V (Proc.devRef .tc main_v21) = V (Proc.devRef .tc main_v21) := by
  after_results_simp

end Cert.KernelIdeal.Region

end
-- ==== Proof.RefStage.lean ====
/-
  The reference's operation list in three consecutive pieces. `opsA`: the upper-triangle index computation, ending
  with the row indices (`main_v17`) and the column indices (`main_v19`). `opsB`: the indices' normalisation, the two
  gathers of positions, their difference (`main_v34`), its norm and the cutoff test (`main_v37`). `opsC`: the
  bookkeeping after it (concatenations, the stable sort's permutation, the gathers through it, the masked product,
  the count). The list is the three joined (`ops_eq`), so the fold over it is the three folds in turn (`after_ops`),
  and `results` restates the run with the launch contents spelt out.
-/
import proofs.«127677_j1614907703797_1_alg».proof.Proof.RefRun
import Idealize.ShloMosaic.Lib.Pipeline.Frame

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- Operations 0 … 116 of `ops`: through the one that writes `main_v19`. -/
abbrev opsA : List (HloOp τ sig (Elt F)) :=
  [ StableHlo.nullary main_cst (constant S_ .f32 0x3F800000#32),
    StableHlo.unary main_cst main_v0 (broadcastInDim S4096x4096 ![] bcast_S_S4096x4096 : (⟨S_, .f32⟩ : BufTy).Contents (Elt F) → (⟨S4096x4096, .f32⟩ : BufTy).Contents (Elt F)),
    StableHlo.TRef.nullary (.of main_call0_v0 : StableHlo.TRef sig ⟨S4096x4096, .i32⟩) (iotaInDim S4096x4096 32 0),
    StableHlo.TRef.nullary (.of main_call0_c : StableHlo.TRef sig ⟨S_, .i32⟩) (constantI S_ 32 0#32),
    StableHlo.TRef.unary (.of main_call0_c : StableHlo.TRef sig ⟨S_, .i32⟩) (.of main_call0_v1 : StableHlo.TRef sig ⟨S4096x4096, .i32⟩) (broadcastInDim S4096x4096 ![] bcast_S_S4096x4096),
    StableHlo.TRef.binary (.of main_call0_v0 : StableHlo.TRef sig ⟨S4096x4096, .i32⟩) (.of main_call0_v1 : StableHlo.TRef sig ⟨S4096x4096, .i32⟩) (.of main_call0_v2 : StableHlo.TRef sig ⟨S4096x4096, .i32⟩) addi,
    StableHlo.TRef.nullary (.of main_call0_v3 : StableHlo.TRef sig ⟨S4096x4096, .i32⟩) (iotaInDim S4096x4096 32 1),
    StableHlo.TRef.binary (.of main_call0_v2 : StableHlo.TRef sig ⟨S4096x4096, .i32⟩) (.of main_call0_v3 : StableHlo.TRef sig ⟨S4096x4096, .i32⟩) (.of main_call0_v4 : StableHlo.TRef sig ⟨S4096x4096, .i1⟩) (cmpi .sge),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v5 : StableHlo.TRef sig ⟨S4096x4096, .f32⟩) (broadcastInDim S4096x4096 ![] bcast_S_S4096x4096),
    StableHlo.TRef.ternary (.of main_call0_v4 : StableHlo.TRef sig ⟨S4096x4096, .i1⟩) (.of main_call0_v5 : StableHlo.TRef sig ⟨S4096x4096, .f32⟩) (.of main_v0 : StableHlo.TRef sig ⟨S4096x4096, .f32⟩) (.of main_v1 : StableHlo.TRef sig ⟨S4096x4096, .f32⟩) select,
    StableHlo.nullary main_cst_0 (constant S_ .f32 0x00000000#32),
    StableHlo.unary main_cst_0 main_v2 (broadcastInDim S4096x4096 ![] bcast_S_S4096x4096 : (⟨S_, .f32⟩ : BufTy).Contents (Elt F) → (⟨S4096x4096, .f32⟩ : BufTy).Contents (Elt F)),
    StableHlo.binary main_v1 main_v2 main_v3 (cmpf .une : (⟨S4096x4096, .f32⟩ : BufTy).Contents (Elt F) → (⟨S4096x4096, .f32⟩ : BufTy).Contents (Elt F) → (⟨S4096x4096, .i1⟩ : BufTy).Contents (Elt F)),
    StableHlo.TRef.reshape (.of main_v3 : StableHlo.TRef sig ⟨S4096x4096, .i1⟩) (.of main_call1_v0 : StableHlo.TRef sig ⟨S16777216, .i1⟩) rfl shapeCasts_S4096x4096_S16777216,
    StableHlo.TRef.unary (.of main_call1_v0 : StableHlo.TRef sig ⟨S16777216, .i1⟩) (.of main_call1_v1 : StableHlo.TRef sig ⟨S16777216, .i32⟩) (extui 32 · natLt_1_32),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_call1_v1 : StableHlo.TRef sig ⟨S16777216, .i32⟩) (.of main_call1_call0_v0 : StableHlo.TRef sig ⟨S_, .i32⟩) (.of main_v4 : StableHlo.TRef sig ⟨S16777216, .i32⟩) (fun x v => Host.reduceWindow IntOp.addi ![16777216] ![1] ![16777215] ![0] x v reduceWindows_S16777216_S16777216_w16777216s1p16777215_0 h_S_),
    StableHlo.nullary main_c (constantI S_ 32 0#32),
    StableHlo.unary main_c main_v5 (broadcastInDim S8386560 ![] bcast_S_S8386560 : (⟨S_, .i32⟩ : BufTy).Contents (Elt F) → (⟨S8386560, .i32⟩ : BufTy).Contents (Elt F)),
    StableHlo.nullary main_c_1 (constantI S_ 32 0#32),
    StableHlo.TRef.unary (.of main_c_1 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S16777216, .i32⟩) (broadcastInDim S16777216 ![] bcast_S_S16777216),
    StableHlo.TRef.binary (.of main_call2_v1 : StableHlo.TRef sig ⟨S16777216, .i32⟩) (.of main_v4 : StableHlo.TRef sig ⟨S16777216, .i32⟩) (.of main_v6 : StableHlo.TRef sig ⟨S16777216, .i32⟩) maxsi,
    StableHlo.nullary main_c_2 (constantI S_ 32 0#32),
    StableHlo.unary main_c_2 main_v7 (broadcastInDim S16777216 ![] bcast_S_S16777216 : (⟨S_, .i32⟩ : BufTy).Contents (Elt F) → (⟨S16777216, .i32⟩ : BufTy).Contents (Elt F)),
    StableHlo.binary main_v6 main_v7 main_v8 (cmpi .slt : (⟨S16777216, .i32⟩ : BufTy).Contents (Elt F) → (⟨S16777216, .i32⟩ : BufTy).Contents (Elt F) → (⟨S16777216, .i1⟩ : BufTy).Contents (Elt F)),
    StableHlo.nullary main_c_3 (constantI S_ 32 8386560#32),
    StableHlo.unary main_c_3 main_v9 (broadcastInDim S16777216 ![] bcast_S_S16777216 : (⟨S_, .i32⟩ : BufTy).Contents (Elt F) → (⟨S16777216, .i32⟩ : BufTy).Contents (Elt F)),
    StableHlo.binary main_v6 main_v9 main_v10 (addi : (⟨S16777216, .i32⟩ : BufTy).Contents (Elt F) → (⟨S16777216, .i32⟩ : BufTy).Contents (Elt F) → (⟨S16777216, .i32⟩ : BufTy).Contents (Elt F)),
    StableHlo.ternary main_v8 main_v10 main_v6 main_v11 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v11 main_v12 (broadcastInDim S16777216x1 ![0] bcast_S16777216_S16777216x1_0 : (⟨S16777216, .i32⟩ : BufTy).Contents (Elt F) → (⟨S16777216x1, .i32⟩ : BufTy).Contents (Elt F)),
    StableHlo.nullary main_c_4 (constantI S_ 32 1#32),
    StableHlo.unary main_c_4 main_v13 (broadcastInDim S16777216 ![] bcast_S_S16777216 : (⟨S_, .i32⟩ : BufTy).Contents (Elt F) → (⟨S16777216, .i32⟩ : BufTy).Contents (Elt F)),
    StableHlo.ternary main_v5 main_v12 main_v13 main_v14 ((fun x i u => Host.scatter scatter_S8386560_S16777216x1_S16777216_n_0_0_1 IntOp.addi x i u) : (⟨S8386560, .i32⟩ : BufTy).Contents (Elt F) → (⟨S16777216x1, .i32⟩ : BufTy).Contents (Elt F) → (⟨S16777216, .i32⟩ : BufTy).Contents (Elt F) → (⟨S8386560, .i32⟩ : BufTy).Contents (Elt F)),
    StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_v14 : StableHlo.TRef sig ⟨S8386560, .i32⟩) (.of main_call3_call0_v0 : StableHlo.TRef sig ⟨S_, .i32⟩) (.of main_v15 : StableHlo.TRef sig ⟨S8386560, .i32⟩) (fun x v => Host.reduceWindow IntOp.addi ![8386560] ![1] ![8386559] ![0] x v reduceWindows_S8386560_S8386560_w8386560s1p8386559_0 h_S_),
    StableHlo.nullary main_c_5 (constantI S_ 32 4096#32),
    StableHlo.TRef.unary (.of main_c_5 : StableHlo.TRef sig ⟨S_, .i32⟩) (.of main_call4_v0 : StableHlo.TRef sig ⟨S8386560, .i32⟩) (broadcastInDim S8386560 ![] bcast_S_S8386560),
    StableHlo.TRef.binary (.of main_v15 : StableHlo.TRef sig ⟨S8386560, .i32⟩) (.of main_call4_v0 : StableHlo.TRef sig ⟨S8386560, .i32⟩) (.of main_call4_v1 : StableHlo.TRef sig ⟨S8386560, .i32⟩) Host.divsi,
    StableHlo.TRef.unary (.of main_v15 : StableHlo.TRef sig ⟨S8386560, .i32⟩) (.of main_call4_v2 : StableHlo.TRef sig ⟨S8386560, .i32⟩) signi,
    StableHlo.TRef.unary (.of main_c_5 : StableHlo.TRef sig ⟨S_, .i32⟩) (.of main_call4_v3 : StableHlo.TRef sig ⟨S_, .i32⟩) signi,
    StableHlo.TRef.unary (.of main_call4_v3 : StableHlo.TRef sig ⟨S_, .i32⟩) (.of main_call4_v4 : StableHlo.TRef sig ⟨S8386560, .i32⟩) (broadcastInDim S8386560 ![] bcast_S_S8386560),
    StableHlo.TRef.binary (.of main_call4_v2 : StableHlo.TRef sig ⟨S8386560, .i32⟩) (.of main_call4_v4 : StableHlo.TRef sig ⟨S8386560, .i32⟩) (.of main_call4_v5 : StableHlo.TRef sig ⟨S8386560, .i1⟩) (cmpi .ne),
    StableHlo.TRef.unary (.of main_c_5 : StableHlo.TRef sig ⟨S_, .i32⟩) (.of main_call4_v6 : StableHlo.TRef sig ⟨S8386560, .i32⟩) (broadcastInDim S8386560 ![] bcast_S_S8386560),
    StableHlo.TRef.binary (.of main_v15 : StableHlo.TRef sig ⟨S8386560, .i32⟩) (.of main_call4_v6 : StableHlo.TRef sig ⟨S8386560, .i32⟩) (.of main_call4_v7 : StableHlo.TRef sig ⟨S8386560, .i32⟩) Host.remsi,
    StableHlo.TRef.nullary (.of main_call4_c : StableHlo.TRef sig ⟨S_, .i32⟩) (constantI S_ 32 0#32),
    StableHlo.TRef.unary (.of main_call4_c : StableHlo.TRef sig ⟨S_, .i32⟩) (.of main_call4_v8 : StableHlo.TRef sig ⟨S8386560, .i32⟩) (broadcastInDim S8386560 ![] bcast_S_S8386560),
    StableHlo.TRef.binary (.of main_call4_v7 : StableHlo.TRef sig ⟨S8386560, .i32⟩) (.of main_call4_v8 : StableHlo.TRef sig ⟨S8386560, .i32⟩) (.of main_call4_v9 : StableHlo.TRef sig ⟨S8386560, .i1⟩) (cmpi .ne),
    StableHlo.TRef.binary (.of main_call4_v5 : StableHlo.TRef sig ⟨S8386560, .i1⟩) (.of main_call4_v9 : StableHlo.TRef sig ⟨S8386560, .i1⟩) (.of main_call4_v10 : StableHlo.TRef sig ⟨S8386560, .i1⟩) andi,
    StableHlo.TRef.nullary (.of main_call4_c_0 : StableHlo.TRef sig ⟨S_, .i32⟩) (constantI S_ 32 1#32),
    StableHlo.TRef.unary (.of main_call4_c_0 : StableHlo.TRef sig ⟨S_, .i32⟩) (.of main_call4_v11 : StableHlo.TRef sig ⟨S8386560, .i32⟩) (broadcastInDim S8386560 ![] bcast_S_S8386560),
    StableHlo.TRef.binary (.of main_call4_v1 : StableHlo.TRef sig ⟨S8386560, .i32⟩) (.of main_call4_v11 : StableHlo.TRef sig ⟨S8386560, .i32⟩) (.of main_call4_v12 : StableHlo.TRef sig ⟨S8386560, .i32⟩) subi,
    StableHlo.TRef.ternary (.of main_call4_v10 : StableHlo.TRef sig ⟨S8386560, .i1⟩) (.of main_call4_v12 : StableHlo.TRef sig ⟨S8386560, .i32⟩) (.of main_call4_v1 : StableHlo.TRef sig ⟨S8386560, .i32⟩) (.of main_v16 : StableHlo.TRef sig ⟨S8386560, .i32⟩) select,
    StableHlo.nullary main_c_6 (constantI S_ 32 4096#32),
    StableHlo.TRef.unary (.of main_c_6 : StableHlo.TRef sig ⟨S_, .i32⟩) (.of main_call5_v0 : StableHlo.TRef sig ⟨S_, .i32⟩) id,
    StableHlo.TRef.nullary (.of main_call5_c : StableHlo.TRef sig ⟨S_, .i32⟩) (constantI S_ 32 0#32),
    StableHlo.TRef.binary (.of main_call5_v0 : StableHlo.TRef sig ⟨S_, .i32⟩) (.of main_call5_c : StableHlo.TRef sig ⟨S_, .i32⟩) (.of main_call5_v1 : StableHlo.TRef sig ⟨S_, .i1⟩) (cmpi .eq),
    StableHlo.TRef.nullary (.of main_call5_c_0 : StableHlo.TRef sig ⟨S_, .i32⟩) (constantI S_ 32 1#32),
    StableHlo.TRef.ternary (.of main_call5_v1 : StableHlo.TRef sig ⟨S_, .i1⟩) (.of main_call5_c_0 : StableHlo.TRef sig ⟨S_, .i32⟩) (.of main_call5_v0 : StableHlo.TRef sig ⟨S_, .i32⟩) (.of main_call5_v2 : StableHlo.TRef sig ⟨S_, .i32⟩) select,
    StableHlo.TRef.unary (.of main_call5_v2 : StableHlo.TRef sig ⟨S_, .i32⟩) (.of main_call5_v3 : StableHlo.TRef sig ⟨S8386560, .i32⟩) (broadcastInDim S8386560 ![] bcast_S_S8386560),
    StableHlo.TRef.binary (.of main_v16 : StableHlo.TRef sig ⟨S8386560, .i32⟩) (.of main_call5_v3 : StableHlo.TRef sig ⟨S8386560, .i32⟩) (.of main_call5_v4 : StableHlo.TRef sig ⟨S8386560, .i32⟩) Host.remsi,
    StableHlo.TRef.nullary (.of main_call5_c_1 : StableHlo.TRef sig ⟨S_, .i32⟩) (constantI S_ 32 0#32),
    StableHlo.TRef.unary (.of main_call5_c_1 : StableHlo.TRef sig ⟨S_, .i32⟩) (.of main_call5_v5 : StableHlo.TRef sig ⟨S8386560, .i32⟩) (broadcastInDim S8386560 ![] bcast_S_S8386560),
    StableHlo.TRef.binary (.of main_call5_v4 : StableHlo.TRef sig ⟨S8386560, .i32⟩) (.of main_call5_v5 : StableHlo.TRef sig ⟨S8386560, .i32⟩) (.of main_call5_v6 : StableHlo.TRef sig ⟨S8386560, .i1⟩) (cmpi .ne),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v7 : StableHlo.TRef sig ⟨S8386560, .i32⟩) (broadcastInDim S8386560 ![] bcast_S_S8386560),
    StableHlo.TRef.binary (.of main_call5_v4 : StableHlo.TRef sig ⟨S8386560, .i32⟩) (.of main_call5_v7 : StableHlo.TRef sig ⟨S8386560, .i32⟩) (.of main_call5_v8 : StableHlo.TRef sig ⟨S8386560, .i1⟩) (cmpi .slt),
    StableHlo.TRef.nullary (.of main_call5_c_3 : StableHlo.TRef sig ⟨S_, .i32⟩) (constantI S_ 32 0#32),
    StableHlo.TRef.binary (.of main_call5_v2 : StableHlo.TRef sig ⟨S_, .i32⟩) (.of main_call5_c_3 : StableHlo.TRef sig ⟨S_, .i32⟩) (.of main_call5_v9 : StableHlo.TRef sig ⟨S_, .i1⟩) (cmpi .slt),
    StableHlo.TRef.unary (.of main_call5_v9 : StableHlo.TRef sig ⟨S_, .i1⟩) (.of main_call5_v10 : StableHlo.TRef sig ⟨S8386560, .i1⟩) (broadcastInDim S8386560 ![] bcast_S_S8386560),
    StableHlo.TRef.binary (.of main_call5_v8 : StableHlo.TRef sig ⟨S8386560, .i1⟩) (.of main_call5_v10 : StableHlo.TRef sig ⟨S8386560, .i1⟩) (.of main_call5_v11 : StableHlo.TRef sig ⟨S8386560, .i1⟩) (cmpi .ne),
    StableHlo.TRef.binary (.of main_call5_v11 : StableHlo.TRef sig ⟨S8386560, .i1⟩) (.of main_call5_v6 : StableHlo.TRef sig ⟨S8386560, .i1⟩) (.of main_call5_v12 : StableHlo.TRef sig ⟨S8386560, .i1⟩) andi,
    StableHlo.TRef.unary (.of main_call5_v2 : StableHlo.TRef sig ⟨S_, .i32⟩) (.of main_call5_v13 : StableHlo.TRef sig ⟨S8386560, .i32⟩) (broadcastInDim S8386560 ![] bcast_S_S8386560),
    StableHlo.TRef.binary (.of main_call5_v4 : StableHlo.TRef sig ⟨S8386560, .i32⟩) (.of main_call5_v13 : StableHlo.TRef sig ⟨S8386560, .i32⟩) (.of main_call5_v14 : StableHlo.TRef sig ⟨S8386560, .i32⟩) addi,
    StableHlo.TRef.ternary (.of main_call5_v12 : StableHlo.TRef sig ⟨S8386560, .i1⟩) (.of main_call5_v14 : StableHlo.TRef sig ⟨S8386560, .i32⟩) (.of main_call5_v4 : StableHlo.TRef sig ⟨S8386560, .i32⟩) (.of main_v17 : StableHlo.TRef sig ⟨S8386560, .i32⟩) select,
    StableHlo.nullary main_c_7 (constantI S_ 32 1#32),
    StableHlo.TRef.unary (.of main_c_7 : StableHlo.TRef sig ⟨S_, .i32⟩) (.of main_call6_v0 : StableHlo.TRef sig ⟨S8386560, .i32⟩) (broadcastInDim S8386560 ![] bcast_S_S8386560),
    StableHlo.TRef.binary (.of main_v15 : StableHlo.TRef sig ⟨S8386560, .i32⟩) (.of main_call6_v0 : StableHlo.TRef sig ⟨S8386560, .i32⟩) (.of main_call6_v1 : StableHlo.TRef sig ⟨S8386560, .i32⟩) Host.divsi,
    StableHlo.TRef.unary (.of main_v15 : StableHlo.TRef sig ⟨S8386560, .i32⟩) (.of main_call6_v2 : StableHlo.TRef sig ⟨S8386560, .i32⟩) signi,
    StableHlo.TRef.unary (.of main_c_7 : StableHlo.TRef sig ⟨S_, .i32⟩) (.of main_call6_v3 : StableHlo.TRef sig ⟨S_, .i32⟩) signi,
    StableHlo.TRef.unary (.of main_call6_v3 : StableHlo.TRef sig ⟨S_, .i32⟩) (.of main_call6_v4 : StableHlo.TRef sig ⟨S8386560, .i32⟩) (broadcastInDim S8386560 ![] bcast_S_S8386560),
    StableHlo.TRef.binary (.of main_call6_v2 : StableHlo.TRef sig ⟨S8386560, .i32⟩) (.of main_call6_v4 : StableHlo.TRef sig ⟨S8386560, .i32⟩) (.of main_call6_v5 : StableHlo.TRef sig ⟨S8386560, .i1⟩) (cmpi .ne),
    StableHlo.TRef.unary (.of main_c_7 : StableHlo.TRef sig ⟨S_, .i32⟩) (.of main_call6_v6 : StableHlo.TRef sig ⟨S8386560, .i32⟩) (broadcastInDim S8386560 ![] bcast_S_S8386560),
    StableHlo.TRef.binary (.of main_v15 : StableHlo.TRef sig ⟨S8386560, .i32⟩) (.of main_call6_v6 : StableHlo.TRef sig ⟨S8386560, .i32⟩) (.of main_call6_v7 : StableHlo.TRef sig ⟨S8386560, .i32⟩) Host.remsi,
    StableHlo.TRef.nullary (.of main_call6_c : StableHlo.TRef sig ⟨S_, .i32⟩) (constantI S_ 32 0#32),
    StableHlo.TRef.unary (.of main_call6_c : StableHlo.TRef sig ⟨S_, .i32⟩) (.of main_call6_v8 : StableHlo.TRef sig ⟨S8386560, .i32⟩) (broadcastInDim S8386560 ![] bcast_S_S8386560),
    StableHlo.TRef.binary (.of main_call6_v7 : StableHlo.TRef sig ⟨S8386560, .i32⟩) (.of main_call6_v8 : StableHlo.TRef sig ⟨S8386560, .i32⟩) (.of main_call6_v9 : StableHlo.TRef sig ⟨S8386560, .i1⟩) (cmpi .ne),
    StableHlo.TRef.binary (.of main_call6_v5 : StableHlo.TRef sig ⟨S8386560, .i1⟩) (.of main_call6_v9 : StableHlo.TRef sig ⟨S8386560, .i1⟩) (.of main_call6_v10 : StableHlo.TRef sig ⟨S8386560, .i1⟩) andi,
    StableHlo.TRef.nullary (.of main_call6_c_0 : StableHlo.TRef sig ⟨S_, .i32⟩) (constantI S_ 32 1#32),
    StableHlo.TRef.unary (.of main_call6_c_0 : StableHlo.TRef sig ⟨S_, .i32⟩) (.of main_call6_v11 : StableHlo.TRef sig ⟨S8386560, .i32⟩) (broadcastInDim S8386560 ![] bcast_S_S8386560),
    StableHlo.TRef.binary (.of main_call6_v1 : StableHlo.TRef sig ⟨S8386560, .i32⟩) (.of main_call6_v11 : StableHlo.TRef sig ⟨S8386560, .i32⟩) (.of main_call6_v12 : StableHlo.TRef sig ⟨S8386560, .i32⟩) subi,
    StableHlo.TRef.ternary (.of main_call6_v10 : StableHlo.TRef sig ⟨S8386560, .i1⟩) (.of main_call6_v12 : StableHlo.TRef sig ⟨S8386560, .i32⟩) (.of main_call6_v1 : StableHlo.TRef sig ⟨S8386560, .i32⟩) (.of main_v18 : StableHlo.TRef sig ⟨S8386560, .i32⟩) select,
    StableHlo.nullary main_c_8 (constantI S_ 32 4096#32),
    StableHlo.TRef.unary (.of main_c_8 : StableHlo.TRef sig ⟨S_, .i32⟩) (.of main_call7_v0 : StableHlo.TRef sig ⟨S_, .i32⟩) id,
    StableHlo.TRef.nullary (.of main_call7_c : StableHlo.TRef sig ⟨S_, .i32⟩) (constantI S_ 32 0#32),
    StableHlo.TRef.binary (.of main_call7_v0 : StableHlo.TRef sig ⟨S_, .i32⟩) (.of main_call7_c : StableHlo.TRef sig ⟨S_, .i32⟩) (.of main_call7_v1 : StableHlo.TRef sig ⟨S_, .i1⟩) (cmpi .eq),
    StableHlo.TRef.nullary (.of main_call7_c_0 : StableHlo.TRef sig ⟨S_, .i32⟩) (constantI S_ 32 1#32),
    StableHlo.TRef.ternary (.of main_call7_v1 : StableHlo.TRef sig ⟨S_, .i1⟩) (.of main_call7_c_0 : StableHlo.TRef sig ⟨S_, .i32⟩) (.of main_call7_v0 : StableHlo.TRef sig ⟨S_, .i32⟩) (.of main_call7_v2 : StableHlo.TRef sig ⟨S_, .i32⟩) select,
    StableHlo.TRef.unary (.of main_call7_v2 : StableHlo.TRef sig ⟨S_, .i32⟩) (.of main_call7_v3 : StableHlo.TRef sig ⟨S8386560, .i32⟩) (broadcastInDim S8386560 ![] bcast_S_S8386560),
    StableHlo.TRef.binary (.of main_v18 : StableHlo.TRef sig ⟨S8386560, .i32⟩) (.of main_call7_v3 : StableHlo.TRef sig ⟨S8386560, .i32⟩) (.of main_call7_v4 : StableHlo.TRef sig ⟨S8386560, .i32⟩) Host.remsi,
    StableHlo.TRef.nullary (.of main_call7_c_1 : StableHlo.TRef sig ⟨S_, .i32⟩) (constantI S_ 32 0#32),
    StableHlo.TRef.unary (.of main_call7_c_1 : StableHlo.TRef sig ⟨S_, .i32⟩) (.of main_call7_v5 : StableHlo.TRef sig ⟨S8386560, .i32⟩) (broadcastInDim S8386560 ![] bcast_S_S8386560),
    StableHlo.TRef.binary (.of main_call7_v4 : StableHlo.TRef sig ⟨S8386560, .i32⟩) (.of main_call7_v5 : StableHlo.TRef sig ⟨S8386560, .i32⟩) (.of main_call7_v6 : StableHlo.TRef sig ⟨S8386560, .i1⟩) (cmpi .ne),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v7 : StableHlo.TRef sig ⟨S8386560, .i32⟩) (broadcastInDim S8386560 ![] bcast_S_S8386560),
    StableHlo.TRef.binary (.of main_call7_v4 : StableHlo.TRef sig ⟨S8386560, .i32⟩) (.of main_call7_v7 : StableHlo.TRef sig ⟨S8386560, .i32⟩) (.of main_call7_v8 : StableHlo.TRef sig ⟨S8386560, .i1⟩) (cmpi .slt),
    StableHlo.TRef.nullary (.of main_call7_c_3 : StableHlo.TRef sig ⟨S_, .i32⟩) (constantI S_ 32 0#32),
    StableHlo.TRef.binary (.of main_call7_v2 : StableHlo.TRef sig ⟨S_, .i32⟩) (.of main_call7_c_3 : StableHlo.TRef sig ⟨S_, .i32⟩) (.of main_call7_v9 : StableHlo.TRef sig ⟨S_, .i1⟩) (cmpi .slt),
    StableHlo.TRef.unary (.of main_call7_v9 : StableHlo.TRef sig ⟨S_, .i1⟩) (.of main_call7_v10 : StableHlo.TRef sig ⟨S8386560, .i1⟩) (broadcastInDim S8386560 ![] bcast_S_S8386560),
    StableHlo.TRef.binary (.of main_call7_v8 : StableHlo.TRef sig ⟨S8386560, .i1⟩) (.of main_call7_v10 : StableHlo.TRef sig ⟨S8386560, .i1⟩) (.of main_call7_v11 : StableHlo.TRef sig ⟨S8386560, .i1⟩) (cmpi .ne),
    StableHlo.TRef.binary (.of main_call7_v11 : StableHlo.TRef sig ⟨S8386560, .i1⟩) (.of main_call7_v6 : StableHlo.TRef sig ⟨S8386560, .i1⟩) (.of main_call7_v12 : StableHlo.TRef sig ⟨S8386560, .i1⟩) andi,
    StableHlo.TRef.unary (.of main_call7_v2 : StableHlo.TRef sig ⟨S_, .i32⟩) (.of main_call7_v13 : StableHlo.TRef sig ⟨S8386560, .i32⟩) (broadcastInDim S8386560 ![] bcast_S_S8386560),
    StableHlo.TRef.binary (.of main_call7_v4 : StableHlo.TRef sig ⟨S8386560, .i32⟩) (.of main_call7_v13 : StableHlo.TRef sig ⟨S8386560, .i32⟩) (.of main_call7_v14 : StableHlo.TRef sig ⟨S8386560, .i32⟩) addi,
    StableHlo.TRef.ternary (.of main_call7_v12 : StableHlo.TRef sig ⟨S8386560, .i1⟩) (.of main_call7_v14 : StableHlo.TRef sig ⟨S8386560, .i32⟩) (.of main_call7_v4 : StableHlo.TRef sig ⟨S8386560, .i32⟩) (.of main_v19 : StableHlo.TRef sig ⟨S8386560, .i32⟩) select ]

/-- Operations 117 … 142 of `ops`: through the one that writes `main_v37`. -/
abbrev opsB : List (HloOp τ sig (Elt F)) :=
  [ StableHlo.nullary main_c_9 (constantI S_ 32 0#32),
    StableHlo.unary main_c_9 main_v20 (broadcastInDim S8386560 ![] bcast_S_S8386560 : (⟨S_, .i32⟩ : BufTy).Contents (Elt F) → (⟨S8386560, .i32⟩ : BufTy).Contents (Elt F)),
    StableHlo.binary main_v17 main_v20 main_v21 (cmpi .slt : (⟨S8386560, .i32⟩ : BufTy).Contents (Elt F) → (⟨S8386560, .i32⟩ : BufTy).Contents (Elt F) → (⟨S8386560, .i1⟩ : BufTy).Contents (Elt F)),
    StableHlo.nullary main_c_10 (constantI S_ 32 4096#32),
    StableHlo.unary main_c_10 main_v22 (broadcastInDim S8386560 ![] bcast_S_S8386560 : (⟨S_, .i32⟩ : BufTy).Contents (Elt F) → (⟨S8386560, .i32⟩ : BufTy).Contents (Elt F)),
    StableHlo.binary main_v17 main_v22 main_v23 (addi : (⟨S8386560, .i32⟩ : BufTy).Contents (Elt F) → (⟨S8386560, .i32⟩ : BufTy).Contents (Elt F) → (⟨S8386560, .i32⟩ : BufTy).Contents (Elt F)),
    StableHlo.ternary main_v21 main_v23 main_v17 main_v24 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v24 main_v25 (broadcastInDim S8386560x1 ![0] bcast_S8386560_S8386560x1_0 : (⟨S8386560, .i32⟩ : BufTy).Contents (Elt F) → (⟨S8386560x1, .i32⟩ : BufTy).Contents (Elt F)),
    StableHlo.binary main_arg0 main_v25 main_v26 ((fun x i => Host.gather gather_S4096x3_S8386560x1_S8386560x3_1_0_n_n_0_1_13 x i) : (⟨S4096x3, .f32⟩ : BufTy).Contents (Elt F) → (⟨S8386560x1, .i32⟩ : BufTy).Contents (Elt F) → (⟨S8386560x3, .f32⟩ : BufTy).Contents (Elt F)),
    StableHlo.nullary main_c_11 (constantI S_ 32 0#32),
    StableHlo.unary main_c_11 main_v27 (broadcastInDim S8386560 ![] bcast_S_S8386560 : (⟨S_, .i32⟩ : BufTy).Contents (Elt F) → (⟨S8386560, .i32⟩ : BufTy).Contents (Elt F)),
    StableHlo.binary main_v19 main_v27 main_v28 (cmpi .slt : (⟨S8386560, .i32⟩ : BufTy).Contents (Elt F) → (⟨S8386560, .i32⟩ : BufTy).Contents (Elt F) → (⟨S8386560, .i1⟩ : BufTy).Contents (Elt F)),
    StableHlo.nullary main_c_12 (constantI S_ 32 4096#32),
    StableHlo.unary main_c_12 main_v29 (broadcastInDim S8386560 ![] bcast_S_S8386560 : (⟨S_, .i32⟩ : BufTy).Contents (Elt F) → (⟨S8386560, .i32⟩ : BufTy).Contents (Elt F)),
    StableHlo.binary main_v19 main_v29 main_v30 (addi : (⟨S8386560, .i32⟩ : BufTy).Contents (Elt F) → (⟨S8386560, .i32⟩ : BufTy).Contents (Elt F) → (⟨S8386560, .i32⟩ : BufTy).Contents (Elt F)),
    StableHlo.ternary main_v28 main_v30 main_v19 main_v31 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v31 main_v32 (broadcastInDim S8386560x1 ![0] bcast_S8386560_S8386560x1_0 : (⟨S8386560, .i32⟩ : BufTy).Contents (Elt F) → (⟨S8386560x1, .i32⟩ : BufTy).Contents (Elt F)),
    StableHlo.binary main_arg0 main_v32 main_v33 ((fun x i => Host.gather gather_S4096x3_S8386560x1_S8386560x3_1_0_n_n_0_1_13 x i) : (⟨S4096x3, .f32⟩ : BufTy).Contents (Elt F) → (⟨S8386560x1, .i32⟩ : BufTy).Contents (Elt F) → (⟨S8386560x3, .f32⟩ : BufTy).Contents (Elt F)),
    StableHlo.binary main_v26 main_v33 main_v34 (subf : (⟨S8386560x3, .f32⟩ : BufTy).Contents (Elt F) → (⟨S8386560x3, .f32⟩ : BufTy).Contents (Elt F) → (⟨S8386560x3, .f32⟩ : BufTy).Contents (Elt F)),
    StableHlo.TRef.binary (.of main_v34 : StableHlo.TRef sig ⟨S8386560x3, .f32⟩) (.of main_v34 : StableHlo.TRef sig ⟨S8386560x3, .f32⟩) (.of main_call8_v0 : StableHlo.TRef sig ⟨S8386560x3, .f32⟩) mulf,
    StableHlo.TRef.nullary (.of main_call8_cst : StableHlo.TRef sig ⟨S_, .f32⟩) (constant S_ .f32 0x00000000#32),
    StableHlo.TRef.binary (.of main_call8_v0 : StableHlo.TRef sig ⟨S8386560x3, .f32⟩) (.of main_call8_cst : StableHlo.TRef sig ⟨S_, .f32⟩) (.of main_call8_v1 : StableHlo.TRef sig ⟨S8386560, .f32⟩) (fun x v => Host.reduceAdd x v reducesTo_S8386560x3_S8386560_d1 h_S_),
    StableHlo.TRef.unary (.of main_call8_v1 : StableHlo.TRef sig ⟨S8386560, .f32⟩) (.of main_v35 : StableHlo.TRef sig ⟨S8386560, .f32⟩) Host.sqrt,
    StableHlo.nullary main_cst_13 (constant S_ .f32 0x40A00000#32),
    StableHlo.unary main_cst_13 main_v36 (broadcastInDim S8386560 ![] bcast_S_S8386560 : (⟨S_, .f32⟩ : BufTy).Contents (Elt F) → (⟨S8386560, .f32⟩ : BufTy).Contents (Elt F)),
    StableHlo.binary main_v35 main_v36 main_v37 (cmpf .olt : (⟨S8386560, .f32⟩ : BufTy).Contents (Elt F) → (⟨S8386560, .f32⟩ : BufTy).Contents (Elt F) → (⟨S8386560, .i1⟩ : BufTy).Contents (Elt F)) ]

/-- Operations 143 … 207 of `ops`: the rest. -/
abbrev opsC : List (HloOp τ sig (Elt F)) :=
  [ StableHlo.binary main_v17 main_v19 main_v38 ((fun a b => concatenate S16773120 0 [⟨S8386560, a⟩, ⟨S8386560, b⟩] concatenates_S8386560_S8386560_S16773120_d0) : (⟨S8386560, .i32⟩ : BufTy).Contents (Elt F) → (⟨S8386560, .i32⟩ : BufTy).Contents (Elt F) → (⟨S16773120, .i32⟩ : BufTy).Contents (Elt F)),
    StableHlo.binary main_v19 main_v17 main_v39 ((fun a b => concatenate S16773120 0 [⟨S8386560, a⟩, ⟨S8386560, b⟩] concatenates_S8386560_S8386560_S16773120_d0) : (⟨S8386560, .i32⟩ : BufTy).Contents (Elt F) → (⟨S8386560, .i32⟩ : BufTy).Contents (Elt F) → (⟨S16773120, .i32⟩ : BufTy).Contents (Elt F)),
    StableHlo.unary main_v34 main_v40 (Host.negf : (⟨S8386560x3, .f32⟩ : BufTy).Contents (Elt F) → (⟨S8386560x3, .f32⟩ : BufTy).Contents (Elt F)),
    StableHlo.binary main_v40 main_v34 main_v41 ((fun a b => concatenate S16773120x3 0 [⟨S8386560x3, a⟩, ⟨S8386560x3, b⟩] concatenates_S8386560x3_S8386560x3_S16773120x3_d0) : (⟨S8386560x3, .f32⟩ : BufTy).Contents (Elt F) → (⟨S8386560x3, .f32⟩ : BufTy).Contents (Elt F) → (⟨S16773120x3, .f32⟩ : BufTy).Contents (Elt F)),
    StableHlo.binary main_v37 main_v37 main_v42 ((fun a b => concatenate S16773120 0 [⟨S8386560, a⟩, ⟨S8386560, b⟩] concatenates_S8386560_S8386560_S16773120_d0) : (⟨S8386560, .i1⟩ : BufTy).Contents (Elt F) → (⟨S8386560, .i1⟩ : BufTy).Contents (Elt F) → (⟨S16773120, .i1⟩ : BufTy).Contents (Elt F)),
    StableHlo.nullary main_c_14 (constantI S_ 32 4096#32),
    StableHlo.TRef.unary (.of main_c_14 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S16773120, .i32⟩) (broadcastInDim S16773120 ![] bcast_S_S16773120),
    StableHlo.TRef.ternary (.of main_v42 : StableHlo.TRef sig ⟨S16773120, .i1⟩) (.of main_v38 : StableHlo.TRef sig ⟨S16773120, .i32⟩) (.of main_call9_v1 : StableHlo.TRef sig ⟨S16773120, .i32⟩) (.of main_v43 : StableHlo.TRef sig ⟨S16773120, .i32⟩) select,
    StableHlo.TRef.nullary (.of main_call10_v0 : StableHlo.TRef sig ⟨S16773120, .i32⟩) (iotaInDim S16773120 32 0),
    StableHlo.TRef.binary (.of main_v43 : StableHlo.TRef sig ⟨S16773120, .i32⟩) (.of main_call10_v0 : StableHlo.TRef sig ⟨S16773120, .i32⟩) (.of main_call10_v1_0 : StableHlo.TRef sig ⟨S16773120, .i32⟩) (fun x y => (Host.sort2 S16773120 0 comparator_i32_i32_d0 x y).1),
    StableHlo.TRef.binary (.of main_v43 : StableHlo.TRef sig ⟨S16773120, .i32⟩) (.of main_call10_v0 : StableHlo.TRef sig ⟨S16773120, .i32⟩) (.of main_v44 : StableHlo.TRef sig ⟨S16773120, .i32⟩) (fun x y => (Host.sort2 S16773120 0 comparator_i32_i32_d0 x y).2),
    StableHlo.nullary main_c_15 (constantI S_ 32 0#32),
    StableHlo.unary main_c_15 main_v45 (broadcastInDim S16773120 ![] bcast_S_S16773120 : (⟨S_, .i32⟩ : BufTy).Contents (Elt F) → (⟨S16773120, .i32⟩ : BufTy).Contents (Elt F)),
    StableHlo.binary main_v44 main_v45 main_v46 (cmpi .slt : (⟨S16773120, .i32⟩ : BufTy).Contents (Elt F) → (⟨S16773120, .i32⟩ : BufTy).Contents (Elt F) → (⟨S16773120, .i1⟩ : BufTy).Contents (Elt F)),
    StableHlo.nullary main_c_16 (constantI S_ 32 16773120#32),
    StableHlo.unary main_c_16 main_v47 (broadcastInDim S16773120 ![] bcast_S_S16773120 : (⟨S_, .i32⟩ : BufTy).Contents (Elt F) → (⟨S16773120, .i32⟩ : BufTy).Contents (Elt F)),
    StableHlo.binary main_v44 main_v47 main_v48 (addi : (⟨S16773120, .i32⟩ : BufTy).Contents (Elt F) → (⟨S16773120, .i32⟩ : BufTy).Contents (Elt F) → (⟨S16773120, .i32⟩ : BufTy).Contents (Elt F)),
    StableHlo.ternary main_v46 main_v48 main_v44 main_v49 (select : (⟨S16773120, .i1⟩ : BufTy).Contents (Elt F) → (⟨S16773120, .i32⟩ : BufTy).Contents (Elt F) → (⟨S16773120, .i32⟩ : BufTy).Contents (Elt F) → (⟨S16773120, .i32⟩ : BufTy).Contents (Elt F)),
    StableHlo.unary main_v49 main_v50 (broadcastInDim S16773120x1 ![0] bcast_S16773120_S16773120x1_0 : (⟨S16773120, .i32⟩ : BufTy).Contents (Elt F) → (⟨S16773120x1, .i32⟩ : BufTy).Contents (Elt F)),
    StableHlo.binary main_v42 main_v50 main_v51 ((fun x i => Host.gather gather_S16773120_S16773120x1_S16773120_n_0_n_n_0_1_1 x i) : (⟨S16773120, .i1⟩ : BufTy).Contents (Elt F) → (⟨S16773120x1, .i32⟩ : BufTy).Contents (Elt F) → (⟨S16773120, .i1⟩ : BufTy).Contents (Elt F)),
    StableHlo.nullary main_c_17 (constantI S_ 32 0#32),
    StableHlo.unary main_c_17 main_v52 (broadcastInDim S16773120 ![] bcast_S_S16773120 : (⟨S_, .i32⟩ : BufTy).Contents (Elt F) → (⟨S16773120, .i32⟩ : BufTy).Contents (Elt F)),
    StableHlo.binary main_v44 main_v52 main_v53 (cmpi .slt : (⟨S16773120, .i32⟩ : BufTy).Contents (Elt F) → (⟨S16773120, .i32⟩ : BufTy).Contents (Elt F) → (⟨S16773120, .i1⟩ : BufTy).Contents (Elt F)),
    StableHlo.nullary main_c_18 (constantI S_ 32 16773120#32),
    StableHlo.unary main_c_18 main_v54 (broadcastInDim S16773120 ![] bcast_S_S16773120 : (⟨S_, .i32⟩ : BufTy).Contents (Elt F) → (⟨S16773120, .i32⟩ : BufTy).Contents (Elt F)),
    StableHlo.binary main_v44 main_v54 main_v55 (addi : (⟨S16773120, .i32⟩ : BufTy).Contents (Elt F) → (⟨S16773120, .i32⟩ : BufTy).Contents (Elt F) → (⟨S16773120, .i32⟩ : BufTy).Contents (Elt F)),
    StableHlo.ternary main_v53 main_v55 main_v44 main_v56 (select : (⟨S16773120, .i1⟩ : BufTy).Contents (Elt F) → (⟨S16773120, .i32⟩ : BufTy).Contents (Elt F) → (⟨S16773120, .i32⟩ : BufTy).Contents (Elt F) → (⟨S16773120, .i32⟩ : BufTy).Contents (Elt F)),
    StableHlo.unary main_v56 main_v57 (broadcastInDim S16773120x1 ![0] bcast_S16773120_S16773120x1_0 : (⟨S16773120, .i32⟩ : BufTy).Contents (Elt F) → (⟨S16773120x1, .i32⟩ : BufTy).Contents (Elt F)),
    StableHlo.binary main_v38 main_v57 main_v58 ((fun x i => Host.gather gather_S16773120_S16773120x1_S16773120_n_0_n_n_0_1_1 x i) : (⟨S16773120, .i32⟩ : BufTy).Contents (Elt F) → (⟨S16773120x1, .i32⟩ : BufTy).Contents (Elt F) → (⟨S16773120, .i32⟩ : BufTy).Contents (Elt F)),
    StableHlo.nullary main_c_19 (constantI S_ 32 4096#32),
    StableHlo.TRef.unary (.of main_c_19 : StableHlo.TRef sig ⟨S_, .i32⟩) (.of main_call11_v0 : StableHlo.TRef sig ⟨S_, .i32⟩) id,
    StableHlo.TRef.unary (.of main_call11_v0 : StableHlo.TRef sig ⟨S_, .i32⟩) (.of main_call11_v1 : StableHlo.TRef sig ⟨S16773120, .i32⟩) (broadcastInDim S16773120 ![] bcast_S_S16773120),
    StableHlo.TRef.ternary (.of main_v51 : StableHlo.TRef sig ⟨S16773120, .i1⟩) (.of main_v58 : StableHlo.TRef sig ⟨S16773120, .i32⟩) (.of main_call11_v1 : StableHlo.TRef sig ⟨S16773120, .i32⟩) (.of main_v59 : StableHlo.TRef sig ⟨S16773120, .i32⟩) select,
    StableHlo.nullary main_c_20 (constantI S_ 32 0#32),
    StableHlo.unary main_c_20 main_v60 (broadcastInDim S16773120 ![] bcast_S_S16773120 : (⟨S_, .i32⟩ : BufTy).Contents (Elt F) → (⟨S16773120, .i32⟩ : BufTy).Contents (Elt F)),
    StableHlo.binary main_v44 main_v60 main_v61 (cmpi .slt : (⟨S16773120, .i32⟩ : BufTy).Contents (Elt F) → (⟨S16773120, .i32⟩ : BufTy).Contents (Elt F) → (⟨S16773120, .i1⟩ : BufTy).Contents (Elt F)),
    StableHlo.nullary main_c_21 (constantI S_ 32 16773120#32),
    StableHlo.unary main_c_21 main_v62 (broadcastInDim S16773120 ![] bcast_S_S16773120 : (⟨S_, .i32⟩ : BufTy).Contents (Elt F) → (⟨S16773120, .i32⟩ : BufTy).Contents (Elt F)),
    StableHlo.binary main_v44 main_v62 main_v63 (addi : (⟨S16773120, .i32⟩ : BufTy).Contents (Elt F) → (⟨S16773120, .i32⟩ : BufTy).Contents (Elt F) → (⟨S16773120, .i32⟩ : BufTy).Contents (Elt F)),
    StableHlo.ternary main_v61 main_v63 main_v44 main_v64 (select : (⟨S16773120, .i1⟩ : BufTy).Contents (Elt F) → (⟨S16773120, .i32⟩ : BufTy).Contents (Elt F) → (⟨S16773120, .i32⟩ : BufTy).Contents (Elt F) → (⟨S16773120, .i32⟩ : BufTy).Contents (Elt F)),
    StableHlo.unary main_v64 main_v65 (broadcastInDim S16773120x1 ![0] bcast_S16773120_S16773120x1_0 : (⟨S16773120, .i32⟩ : BufTy).Contents (Elt F) → (⟨S16773120x1, .i32⟩ : BufTy).Contents (Elt F)),
    StableHlo.binary main_v39 main_v65 main_v66 ((fun x i => Host.gather gather_S16773120_S16773120x1_S16773120_n_0_n_n_0_1_1 x i) : (⟨S16773120, .i32⟩ : BufTy).Contents (Elt F) → (⟨S16773120x1, .i32⟩ : BufTy).Contents (Elt F) → (⟨S16773120, .i32⟩ : BufTy).Contents (Elt F)),
    StableHlo.nullary main_c_22 (constantI S_ 32 4096#32),
    StableHlo.TRef.unary (.of main_c_22 : StableHlo.TRef sig ⟨S_, .i32⟩) (.of main_call12_v0 : StableHlo.TRef sig ⟨S_, .i32⟩) id,
    StableHlo.TRef.unary (.of main_call12_v0 : StableHlo.TRef sig ⟨S_, .i32⟩) (.of main_call12_v1 : StableHlo.TRef sig ⟨S16773120, .i32⟩) (broadcastInDim S16773120 ![] bcast_S_S16773120),
    StableHlo.TRef.ternary (.of main_v51 : StableHlo.TRef sig ⟨S16773120, .i1⟩) (.of main_v66 : StableHlo.TRef sig ⟨S16773120, .i32⟩) (.of main_call12_v1 : StableHlo.TRef sig ⟨S16773120, .i32⟩) (.of main_v67 : StableHlo.TRef sig ⟨S16773120, .i32⟩) select,
    StableHlo.nullary main_c_23 (constantI S_ 32 0#32),
    StableHlo.unary main_c_23 main_v68 (broadcastInDim S16773120 ![] bcast_S_S16773120 : (⟨S_, .i32⟩ : BufTy).Contents (Elt F) → (⟨S16773120, .i32⟩ : BufTy).Contents (Elt F)),
    StableHlo.binary main_v44 main_v68 main_v69 (cmpi .slt : (⟨S16773120, .i32⟩ : BufTy).Contents (Elt F) → (⟨S16773120, .i32⟩ : BufTy).Contents (Elt F) → (⟨S16773120, .i1⟩ : BufTy).Contents (Elt F)),
    StableHlo.nullary main_c_24 (constantI S_ 32 16773120#32),
    StableHlo.unary main_c_24 main_v70 (broadcastInDim S16773120 ![] bcast_S_S16773120 : (⟨S_, .i32⟩ : BufTy).Contents (Elt F) → (⟨S16773120, .i32⟩ : BufTy).Contents (Elt F)),
    StableHlo.binary main_v44 main_v70 main_v71 (addi : (⟨S16773120, .i32⟩ : BufTy).Contents (Elt F) → (⟨S16773120, .i32⟩ : BufTy).Contents (Elt F) → (⟨S16773120, .i32⟩ : BufTy).Contents (Elt F)),
    StableHlo.ternary main_v69 main_v71 main_v44 main_v72 (select : (⟨S16773120, .i1⟩ : BufTy).Contents (Elt F) → (⟨S16773120, .i32⟩ : BufTy).Contents (Elt F) → (⟨S16773120, .i32⟩ : BufTy).Contents (Elt F) → (⟨S16773120, .i32⟩ : BufTy).Contents (Elt F)),
    StableHlo.unary main_v72 main_v73 (broadcastInDim S16773120x1 ![0] bcast_S16773120_S16773120x1_0 : (⟨S16773120, .i32⟩ : BufTy).Contents (Elt F) → (⟨S16773120x1, .i32⟩ : BufTy).Contents (Elt F)),
    StableHlo.binary main_v41 main_v73 main_v74 ((fun x i => Host.gather gather_S16773120x3_S16773120x1_S16773120x3_1_0_n_n_0_1_13 x i) : (⟨S16773120x3, .f32⟩ : BufTy).Contents (Elt F) → (⟨S16773120x1, .i32⟩ : BufTy).Contents (Elt F) → (⟨S16773120x3, .f32⟩ : BufTy).Contents (Elt F)),
    StableHlo.unary main_v51 main_v75 (broadcastInDim S16773120x1 ![0] bcast_S16773120_S16773120x1_0 : (⟨S16773120, .i1⟩ : BufTy).Contents (Elt F) → (⟨S16773120x1, .i1⟩ : BufTy).Contents (Elt F)),
    StableHlo.unary main_v75 main_v76 (uitofp .f32 : (⟨S16773120x1, .i1⟩ : BufTy).Contents (Elt F) → (⟨S16773120x1, .f32⟩ : BufTy).Contents (Elt F)),
    StableHlo.unary main_v76 main_v77 (broadcastInDim S16773120x3 ![0, 1] bcast_S16773120x1_S16773120x3_0_1 : (⟨S16773120x1, .f32⟩ : BufTy).Contents (Elt F) → (⟨S16773120x3, .f32⟩ : BufTy).Contents (Elt F)),
    StableHlo.binary main_v74 main_v77 main_v78 (mulf : (⟨S16773120x3, .f32⟩ : BufTy).Contents (Elt F) → (⟨S16773120x3, .f32⟩ : BufTy).Contents (Elt F) → (⟨S16773120x3, .f32⟩ : BufTy).Contents (Elt F)),
    StableHlo.nullary main_c_25 (constantI S_ 32 0#32),
    StableHlo.unary main_c_25 main_v79 (broadcastInDim S16773120x3 ![] bcast_S_S16773120x3 : (⟨S_, .i32⟩ : BufTy).Contents (Elt F) → (⟨S16773120x3, .i32⟩ : BufTy).Contents (Elt F)),
    StableHlo.unary main_v51 main_v80 ((extui 32 · natLt_1_32) : (⟨S16773120, .i1⟩ : BufTy).Contents (Elt F) → (⟨S16773120, .i32⟩ : BufTy).Contents (Elt F)),
    StableHlo.nullary main_c_26 (constantI S_ 32 0#32),
    StableHlo.binary main_v80 main_c_26 main_v81 ((fun x v => Host.reduce IntOp.addi x v reducesTo_S16773120_S_d0 h_S_) : (⟨S16773120, .i32⟩ : BufTy).Contents (Elt F) → (⟨S_, .i32⟩ : BufTy).Contents (Elt F) → (⟨S_, .i32⟩ : BufTy).Contents (Elt F)) ]

/-- The list is the three pieces joined (the concatenation of literal lists computes). -/
theorem ops_eq : (ops : List (HloOp τ sig (Elt F))) = opsA ++ opsB ++ opsC := by
  chain_rfl

/-- The fold over `ops` is the folds over the three pieces in turn. -/
theorem after_ops (V : Valuation τ sig (Elt F)) : after ops V = after opsC (after opsB (after opsA V)) := by
  rw [ops_eq, StableHlo.after_append, StableHlo.after_append]

/-- The same, with the first two pieces kept joined. -/
theorem after_ops' (V : Valuation τ sig (Elt F)) : after ops V = after opsC (after (opsA ++ opsB) V) := by
  rw [ops_eq, StableHlo.after_append]

/-- The run, with the launch contents spelt out: on every device each TensorCore buffer ends at the fold of the
    operations' results over what the memory held at launch. -/
theorem results (m : (ℓ : Loc nD τ sig) → Buf (Elt F) ℓ) (ρ : Dev nD → PrngReg) :
    θ_run defs (onTc (τ := τ) (main (F := F))) ⟨m, fun _ => 0, ρ⟩ fun r =>
      ∀ c : Dev nD, ∀ b : Ref sig .tc, r.2.mem ((c.tc : Thread nD τ).loc b) = after ops (fun b => m (c, b)) (Proc.devRef .tc b) :=
  run_after m ρ

/-- The run, piece by piece. -/
theorem results_split (m : (ℓ : Loc nD τ sig) → Buf (Elt F) ℓ) (ρ : Dev nD → PrngReg) :
    θ_run defs (onTc (τ := τ) (main (F := F))) ⟨m, fun _ => 0, ρ⟩ fun r =>
      ∀ c : Dev nD, ∀ b : Ref sig .tc, r.2.mem ((c.tc : Thread nD τ).loc b)
        = after opsC (after opsB (after opsA (fun b => m (c, b)))) (Proc.devRef .tc b) :=
  (θ_run defs _ _).mono (fun _ h c b => (h c b).trans (congrFun (after_ops _) _)) (run_after m ρ)

end Cert.ReferenceIdeal.RefRun

end
-- ==== Proof.CrossTailA.lean ====
/-
  The pair-index computation the two programs share, compared across them. Both programs compute the row and column
  indices of the strict upper triangle of a 4096 × 4096 array with the same one hundred and seventeen host operations,
  which read no argument and no earlier result: each side's fold at the index buffers evaluates to a closed
  composition of the operations' functions, and the two compositions are the same functions (the programs' shape
  names, dimension records and side-condition proofs are separate declarations with equal contents). So from any
  two valuations the two programs' row indices agree, and so do their column indices.
-/
import proofs.«127677_j1614907703797_1_alg».proof.Proof.KStage
import proofs.«127677_j1614907703797_1_alg».proof.Proof.RefStage

set_option maxRecDepth 16384

noncomputable section

namespace Cert.CrossTail

open Idealize.ShloMosaic Idealize.ShloMosaic.TcCoe Idealize.SL.Sem Idealize.ShloMosaic.StableHlo

variable {F : FTy → Type} [FloatOps F]

/-- The row indices: the kernel program's `main_v19` and the reference's `main_v17`. -/
theorem idx_agree_i
    (VK : Valuation Cert.KernelIdeal.τ Cert.KernelIdeal.sig (Elt F)) (VR : Valuation Cert.ReferenceIdeal.τ Cert.ReferenceIdeal.sig (Elt F)) :
    after Cert.KernelIdeal.Region.segA VK (Proc.devRef .tc Cert.KernelIdeal.main_v19)
      = after Cert.ReferenceIdeal.RefRun.opsA VR (Proc.devRef .tc Cert.ReferenceIdeal.main_v17) := by
  delta Cert.KernelIdeal.Region.segA Cert.KernelIdeal.Gen.hostOps1 Cert.KernelIdeal.Gen.hostOps1_1 Cert.KernelIdeal.Gen.hostOps1_2 Cert.KernelIdeal.Gen.hostOps1_3 Cert.KernelIdeal.Gen.hostOps1_4 Cert.KernelIdeal.Gen.hostOps1_5 Cert.KernelIdeal.Gen.hostOps1_6 Cert.KernelIdeal.Gen.hostOps1_7 Cert.KernelIdeal.Gen.hostOps1_8 Cert.KernelIdeal.Gen.hostOps1_9 Cert.KernelIdeal.Gen.hostOps1_10 Cert.KernelIdeal.Gen.hostOps1_11 Cert.KernelIdeal.Gen.hostOps1_12 Cert.KernelIdeal.Gen.hostOps1_13 Cert.KernelIdeal.Gen.hostOps1_14 Cert.KernelIdeal.Gen.hostOps1_15 Cert.ReferenceIdeal.RefRun.opsA
  simp only [List.flatten_cons, List.flatten_nil, List.append_nil, List.cons_append, List.nil_append]
  after_results_simp
  try rfl

/-- The column indices: the kernel program's `main_v21` and the reference's `main_v19`. -/
theorem idx_agree_j
    (VK : Valuation Cert.KernelIdeal.τ Cert.KernelIdeal.sig (Elt F)) (VR : Valuation Cert.ReferenceIdeal.τ Cert.ReferenceIdeal.sig (Elt F)) :
    after Cert.KernelIdeal.Region.segA VK (Proc.devRef .tc Cert.KernelIdeal.main_v21)
      = after Cert.ReferenceIdeal.RefRun.opsA VR (Proc.devRef .tc Cert.ReferenceIdeal.main_v19) := by
  delta Cert.KernelIdeal.Region.segA Cert.KernelIdeal.Gen.hostOps1 Cert.KernelIdeal.Gen.hostOps1_1 Cert.KernelIdeal.Gen.hostOps1_2 Cert.KernelIdeal.Gen.hostOps1_3 Cert.KernelIdeal.Gen.hostOps1_4 Cert.KernelIdeal.Gen.hostOps1_5 Cert.KernelIdeal.Gen.hostOps1_6 Cert.KernelIdeal.Gen.hostOps1_7 Cert.KernelIdeal.Gen.hostOps1_8 Cert.KernelIdeal.Gen.hostOps1_9 Cert.KernelIdeal.Gen.hostOps1_10 Cert.KernelIdeal.Gen.hostOps1_11 Cert.KernelIdeal.Gen.hostOps1_12 Cert.KernelIdeal.Gen.hostOps1_13 Cert.KernelIdeal.Gen.hostOps1_14 Cert.KernelIdeal.Gen.hostOps1_15 Cert.ReferenceIdeal.RefRun.opsA
  simp only [List.flatten_cons, List.flatten_nil, List.append_nil, List.cons_append, List.nil_append]
  after_results_simp
  try rfl

end Cert.CrossTail

end
-- ==== Proof.CrossTailC.lean ====
/-
  The bookkeeping the two programs share, compared across them. Both programs end with the same sixty-five host
  operations (two concatenations of the pair indices, the negated and plain displacements concatenated, the cutoff
  bits doubled, the sort key, the stable sort's permutation, the gathers through it, the masked product, the
  count), each over its own buffers. From any two valuations that agree on the four arrays those operations read
  (row indices, column indices, displacements, cutoff bits), the six results agree: each side's fold evaluates to
  the composition of the operations' functions over those four arrays, and the two compositions are the same
  functions (the programs' shape names, dimension records and side-condition proofs are separate declarations with
  equal contents).
-/
import proofs.«127677_j1614907703797_1_alg».proof.Proof.KStage
import proofs.«127677_j1614907703797_1_alg».proof.Proof.RefStage

set_option maxRecDepth 16384

noncomputable section

namespace Cert.CrossTail

open Idealize.ShloMosaic Idealize.ShloMosaic.TcCoe Idealize.SL.Sem Idealize.ShloMosaic.StableHlo

variable {F : FTy → Type} [FloatOps F]

/-- Two arrays concatenated along an axis, each a direct argument (the same function as `concatenate` of the
    two-element list). -/
def concat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem concatenate_pair {α : Type} (t : Shape) (a : Fin t.rank) (s₁ s₂ : Shape) (x : s₁.Idx → α) (y : s₂.Idx → α)
    (h : Shape.Concatenates (([⟨s₁, x⟩, ⟨s₂, y⟩] : List ((s : Shape) × (s.Idx → α))).map (fun p : (s : Shape) × (s.Idx → α) => p.1)) t a) :
    concatenate t a [⟨s₁, x⟩, ⟨s₂, y⟩] h = concat2 t a s₁ s₂ h x y := rfl

/-- The fold at a buffer, every operation's result rewritten to its function's value at its own buffer and to what
    was there at any other, two-operand concatenations restated so that their operands are rewritten too. -/
macro "after_eval" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concatenate_pair]))

section
variable (VK : Valuation Cert.KernelIdeal.τ Cert.KernelIdeal.sig (Elt F)) (VR : Valuation Cert.ReferenceIdeal.τ Cert.ReferenceIdeal.sig (Elt F))
    (h1 : VK (Proc.devRef .tc Cert.KernelIdeal.main_v19) = VR (Proc.devRef .tc Cert.ReferenceIdeal.main_v17))
    (h2 : VK (Proc.devRef .tc Cert.KernelIdeal.main_v21) = VR (Proc.devRef .tc Cert.ReferenceIdeal.main_v19))
    (h3 : VK (Proc.devRef .tc Cert.KernelIdeal.main_v37) = VR (Proc.devRef .tc Cert.ReferenceIdeal.main_v34))
    (h4 : VK (Proc.devRef .tc Cert.KernelIdeal.main_v54) = VR (Proc.devRef .tc Cert.ReferenceIdeal.main_v37))
include h1 h2 h3 h4

/-- The first index list: the kernel program's `main_v76` and the reference's `main_v59`. -/
theorem tail_main_v76 :
    after Cert.KernelIdeal.Region.segC VK (Proc.devRef .tc Cert.KernelIdeal.main_v76)
      = after Cert.ReferenceIdeal.RefRun.opsC VR (Proc.devRef .tc Cert.ReferenceIdeal.main_v59) := by
  delta Cert.KernelIdeal.Region.segC Cert.KernelIdeal.Region.segC0 Cert.KernelIdeal.Gen.hostOps1_17 Cert.KernelIdeal.Gen.hostOps1_18 Cert.KernelIdeal.Gen.hostOps1_19 Cert.KernelIdeal.Gen.hostOps1_20 Cert.KernelIdeal.Gen.hostOps1_21 Cert.KernelIdeal.Gen.hostOps1_22 Cert.KernelIdeal.Gen.hostOps1_23 Cert.ReferenceIdeal.RefRun.opsC
  simp only [List.flatten_cons, List.flatten_nil, List.append_nil, List.cons_append, List.nil_append]
  after_eval
  try rw [h1]
  try rw [h2]
  try rw [h3]
  try rw [h4]
  try rfl

/-- The second index list: the kernel program's `main_v84` and the reference's `main_v67`. -/
theorem tail_main_v84 :
    after Cert.KernelIdeal.Region.segC VK (Proc.devRef .tc Cert.KernelIdeal.main_v84)
      = after Cert.ReferenceIdeal.RefRun.opsC VR (Proc.devRef .tc Cert.ReferenceIdeal.main_v67) := by
  delta Cert.KernelIdeal.Region.segC Cert.KernelIdeal.Region.segC0 Cert.KernelIdeal.Gen.hostOps1_17 Cert.KernelIdeal.Gen.hostOps1_18 Cert.KernelIdeal.Gen.hostOps1_19 Cert.KernelIdeal.Gen.hostOps1_20 Cert.KernelIdeal.Gen.hostOps1_21 Cert.KernelIdeal.Gen.hostOps1_22 Cert.KernelIdeal.Gen.hostOps1_23 Cert.ReferenceIdeal.RefRun.opsC
  simp only [List.flatten_cons, List.flatten_nil, List.append_nil, List.cons_append, List.nil_append]
  after_eval
  try rw [h1]
  try rw [h2]
  try rw [h3]
  try rw [h4]
  try rfl

/-- The masked displacements: the kernel program's `main_v95` and the reference's `main_v78`. -/
theorem tail_main_v95 :
    after Cert.KernelIdeal.Region.segC VK (Proc.devRef .tc Cert.KernelIdeal.main_v95)
      = after Cert.ReferenceIdeal.RefRun.opsC VR (Proc.devRef .tc Cert.ReferenceIdeal.main_v78) := by
  delta Cert.KernelIdeal.Region.segC Cert.KernelIdeal.Region.segC0 Cert.KernelIdeal.Gen.hostOps1_17 Cert.KernelIdeal.Gen.hostOps1_18 Cert.KernelIdeal.Gen.hostOps1_19 Cert.KernelIdeal.Gen.hostOps1_20 Cert.KernelIdeal.Gen.hostOps1_21 Cert.KernelIdeal.Gen.hostOps1_22 Cert.KernelIdeal.Gen.hostOps1_23 Cert.ReferenceIdeal.RefRun.opsC
  simp only [List.flatten_cons, List.flatten_nil, List.append_nil, List.cons_append, List.nil_append]
  after_eval
  try rw [h1]
  try rw [h2]
  try rw [h3]
  try rw [h4]
  try rfl

/-- The zero shifts: the kernel program's `main_v96` and the reference's `main_v79`. -/
theorem tail_main_v96 :
    after Cert.KernelIdeal.Region.segC VK (Proc.devRef .tc Cert.KernelIdeal.main_v96)
      = after Cert.ReferenceIdeal.RefRun.opsC VR (Proc.devRef .tc Cert.ReferenceIdeal.main_v79) := by
  delta Cert.KernelIdeal.Region.segC Cert.KernelIdeal.Region.segC0 Cert.KernelIdeal.Gen.hostOps1_17 Cert.KernelIdeal.Gen.hostOps1_18 Cert.KernelIdeal.Gen.hostOps1_19 Cert.KernelIdeal.Gen.hostOps1_20 Cert.KernelIdeal.Gen.hostOps1_21 Cert.KernelIdeal.Gen.hostOps1_22 Cert.KernelIdeal.Gen.hostOps1_23 Cert.ReferenceIdeal.RefRun.opsC
  simp only [List.flatten_cons, List.flatten_nil, List.append_nil, List.cons_append, List.nil_append]
  after_eval
  try rw [h1]
  try rw [h2]
  try rw [h3]
  try rw [h4]
  try rfl

/-- The sorted cutoff bits: the kernel program's `main_v68` and the reference's `main_v51`. -/
theorem tail_main_v68 :
    after Cert.KernelIdeal.Region.segC VK (Proc.devRef .tc Cert.KernelIdeal.main_v68)
      = after Cert.ReferenceIdeal.RefRun.opsC VR (Proc.devRef .tc Cert.ReferenceIdeal.main_v51) := by
  delta Cert.KernelIdeal.Region.segC Cert.KernelIdeal.Region.segC0 Cert.KernelIdeal.Gen.hostOps1_17 Cert.KernelIdeal.Gen.hostOps1_18 Cert.KernelIdeal.Gen.hostOps1_19 Cert.KernelIdeal.Gen.hostOps1_20 Cert.KernelIdeal.Gen.hostOps1_21 Cert.KernelIdeal.Gen.hostOps1_22 Cert.KernelIdeal.Gen.hostOps1_23 Cert.ReferenceIdeal.RefRun.opsC
  simp only [List.flatten_cons, List.flatten_nil, List.append_nil, List.cons_append, List.nil_append]
  after_eval
  try rw [h1]
  try rw [h2]
  try rw [h3]
  try rw [h4]
  try rfl

/-- The count: the kernel program's `main_v98` and the reference's `main_v81`. -/
theorem tail_main_v98 :
    after Cert.KernelIdeal.Region.segC VK (Proc.devRef .tc Cert.KernelIdeal.main_v98)
      = after Cert.ReferenceIdeal.RefRun.opsC VR (Proc.devRef .tc Cert.ReferenceIdeal.main_v81) := by
  delta Cert.KernelIdeal.Region.segC Cert.KernelIdeal.Region.segC0 Cert.KernelIdeal.Gen.hostOps1_17 Cert.KernelIdeal.Gen.hostOps1_18 Cert.KernelIdeal.Gen.hostOps1_19 Cert.KernelIdeal.Gen.hostOps1_20 Cert.KernelIdeal.Gen.hostOps1_21 Cert.KernelIdeal.Gen.hostOps1_22 Cert.KernelIdeal.Gen.hostOps1_23 Cert.ReferenceIdeal.RefRun.opsC
  simp only [List.flatten_cons, List.flatten_nil, List.append_nil, List.cons_append, List.nil_append]
  after_eval
  try rw [h1]
  try rw [h2]
  try rw [h3]
  try rw [h4]
  try rfl

end

end Cert.CrossTail

end
-- ==== Proof.CrossTail.lean ====
/-
  The stretches of host operations the two programs share, compared across them: the pair-index computation
  (`idx_agree_i`, `idx_agree_j`) and the bookkeeping after the displacements and the cutoff bits (`tail_main_v76`,
  `tail_main_v84`, `tail_main_v95`, `tail_main_v96`, `tail_main_v68`, `tail_main_v98`).
-/
import proofs.«127677_j1614907703797_1_alg».proof.Proof.CrossTailA
import proofs.«127677_j1614907703797_1_alg».proof.Proof.CrossTailC
-- ==== Proof.RStageB.lean ====
/-
  The reference's middle stretch as pure terms: what its 26 operations leave in the displacement buffer and in the
  cutoff buffer, as functions of the positions and of the row and column indices; the index buffers are untouched.
-/
import proofs.«127677_j1614907703797_1_alg».proof.Proof.RefStage
import Idealize.ShloMosaic.Lib.StableHlo.Run

set_option maxRecDepth 16384

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- A row or column index array normalised: a negative index is counted from the end (4096 is added to it). -/
def normIdxR (x : IVec S8386560 32) : IVec S8386560 32 :=
  select (cmpi .slt x (broadcastInDim S8386560 ![] bcast_S_S8386560 (constantI S_ 32 0#32)))
    (addi x (broadcastInDim S8386560 ![] bcast_S_S8386560 (constantI S_ 32 4096#32))) x

/-- The displacements: the rows of the positions at the row indices less the rows at the column indices. -/
def diffStage (pos : FVec F S4096x3 .f32) (ii jj : IVec S8386560 32) : FVec F S8386560x3 .f32 :=
  subf
    (Host.gather gather_S4096x3_S8386560x1_S8386560x3_1_0_n_n_0_1_13 pos
      (broadcastInDim S8386560x1 ![0] bcast_S8386560_S8386560x1_0 (normIdxR ii)))
    (Host.gather gather_S4096x3_S8386560x1_S8386560x3_1_0_n_n_0_1_13 pos
      (broadcastInDim S8386560x1 ![0] bcast_S8386560_S8386560x1_0 (normIdxR jj)))

/-- The cutoff bits: the length of each displacement compared with the cutoff literal. -/
def cutStageR (pos : FVec F S4096x3 .f32) (ii jj : IVec S8386560 32) : IVec S8386560 1 :=
  cmpf .olt
    (Host.sqrt (Host.reduceAdd (mulf (diffStage pos ii jj) (diffStage pos ii jj)) (constant S_ .f32 0x00000000#32)
      reducesTo_S8386560x3_S8386560_d1 h_S_))
    (broadcastInDim S8386560 ![] bcast_S_S8386560 (constant S_ .f32 0x40A00000#32))

set_option maxHeartbeats 8000000 in
theorem opsB_rij (V : Valuation τ sig (Elt F)) :
    after opsB V (Proc.devRef .tc main_v34)
      = diffStage (V (Proc.devRef .tc main_arg0)) (V (Proc.devRef .tc main_v17)) (V (Proc.devRef .tc main_v19)) := by
  after_results
  rfl

set_option maxHeartbeats 8000000 in
theorem opsB_cut (V : Valuation τ sig (Elt F)) :
    after opsB V (Proc.devRef .tc main_v37)
      = cutStageR (V (Proc.devRef .tc main_arg0)) (V (Proc.devRef .tc main_v17)) (V (Proc.devRef .tc main_v19)) := by
  after_results
  rfl

set_option maxHeartbeats 8000000 in
theorem opsB_i (V : Valuation τ sig (Elt F)) : after opsB V (Proc.devRef .tc main_v17) = V (Proc.devRef .tc main_v17) := by
  after_results_simp

set_option maxHeartbeats 8000000 in
theorem opsB_j (V : Valuation τ sig (Elt F)) : after opsB V (Proc.devRef .tc main_v19) = V (Proc.devRef .tc main_v19) := by
  after_results_simp

end Cert.ReferenceIdeal.RefRun

end
-- ==== Proof.LibGatherPair.lean ====
/-
  GATHERS WHOSE START INDEX NAMES WHOLE AXES, READ AT AN INDEX — general lemmas, no program imported.

  `stablehlo.gather` (PureOps/ShapeOps.lean `Host.gather`) reads each result element from the operand at the index whose
  coordinate on every axis is the start index's component for that axis — read off the start-indices array as a signed
  integer and clamped so that the slice fits — plus the result's offset coordinate on the axes that are not collapsed.
  Three patterns of dimension numbers, each with the start indices' last axis the index vector (`index_vector_dim = 1`):
  • ROWS of a matrix, `x[idx]` along axis 0 (`rowsDims`, `gather_rows_apply`): operand `[N, K]`, start indices `[R, 1]`,
    result `[R, K]`; result `(r, k)` is the operand at `(clamp idx[r, 0], k)`.
  • PAIRS out of a stack of matrices, `x[:, i, j]` (`stackPairDims`, `gather_stackPair_apply`): operand `[K, N, M]`,
    start indices `[R, 2]`, result `[K, R]`; result `(k, r)` is the operand at `(k, clamp idx[r, 0], clamp idx[r, 1])`.
  • PAIRS out of one matrix, `x[i, j]` (`pairDims`, `gather_pair_apply`): operand `[N, M]`, start indices `[R, 2]`,
    result `[R]`; result `r` is the operand at `(clamp idx[r, 0], clamp idx[r, 1])`.
  `clamp` on an axis of extent `N` is `min (·).toInt.toNat (N - 1)`: a negative start reads position 0, one past the
  end the last position — no range hypothesis on the indices is needed.
  And the usual form of such start indices: two index vectors made columns (`broadcast_in_dim` to
  `[R, 1]`) and set side by side (`concatenate` along axis 1) read back as the two vectors (`cols_apply_zero`,
  `cols_apply_one`), one column alone as its vector (`col_apply`).
-/
import Idealize.ShloMosaic.Lib.ValueIdx
import Idealize.ShloMosaic.Lib.Pipeline.Value

noncomputable section

namespace GatherPair

open Idealize.ShloMosaic Idealize.ShloMosaic.ValueIdx

variable {α : Type}

/-! ## Rows of a matrix -/

/-- The dimension numbers of `x[idx]` along axis 0 of a matrix. -/
abbrev rowsDims (N K R : Nat) (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

/-- THE ROW GATHER READ AT `(r, k)`: the operand's row at the start index `idx[r, 0]`, read signed and clamped into
    `[0, N - 1]`, at column `k`. -/
theorem gather_rows_apply {N K R w : Nat} (hN : 0 < N)
    (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ w) (r : Fin R) (k : Fin K) :
    Host.gather (rowsDims N K R wf) x idx (ix2 r k)
      = x (ix2 ⟨min (idx (ix2 r (0 : Fin 1))).toInt.toNat (N - 1), by omega⟩ k) := by
  unfold Host.gather
  congr 1
  funext a
  refine Fin.ext ?_
  match a with
  | ⟨0, _⟩ =>
    show (rowsDims N K R wf).start (ix2 r k) idx 0 + (rowsDims N K R wf).batchCoord (ix2 r k) 0
      + (rowsDims N K R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N K R wf).startIndexMap from List.mem_singleton.mpr rfl)]
    have hsi : (rowsDims N K R wf).siIdx (ix2 r k) ⟨List.idxOf (0 : Fin 2) (rowsDims N K R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N K R wf).start (ix2 r k) idx 1 + (rowsDims N K R wf).batchCoord (ix2 r k) 1
      + (rowsDims N K R wf).offCoord (ix2 r k) 1 = k.val
    have h10 : (1 : Fin 2) ∉ ([0] : List (Fin 2)) := by decide
    rw [GatherDims.batchCoord_eq_zero _ _ _ List.not_mem_nil]
    have hst : (rowsDims N K R wf).start (ix2 r k) idx 1 = 0 := by
      unfold GatherDims.start; rw [dif_neg h10]
    have hof : (rowsDims N K R wf).offCoord (ix2 r k) 1 = k.val := by
      unfold GatherDims.offCoord
      rw [dif_pos ((GatherDims.mem_sKept _ _).mpr ⟨h10, List.not_mem_nil⟩)]
      rfl
    rw [hst, hof]; omega

/-! ## Pairs out of a stack of matrices -/

/-- The dimension numbers of `x[:, i, j]` for a stack `x : [K, N, M]` and index pairs `[R, 2]`. -/
abbrev stackPairDims (K N M R : Nat)
    (wf : GatherDims.WF ⟨3, ![K, N, M]⟩ ⟨2, ![R, 2]⟩ ⟨2, ![K, R]⟩ [0] [1, 2] [] [1, 2] [] 1 ![K, 1, 1]) :
    GatherDims ⟨3, ![K, N, M]⟩ ⟨2, ![R, 2]⟩ ⟨2, ![K, R]⟩ where
  offsetDims := [0]
  collapsedSliceDims := [1, 2]
  operandBatchingDims := []
  startIndicesBatchingDims := []
  startIndexMap := [1, 2]
  indexVectorDim := 1
  sliceSizes := ![K, 1, 1]
  wf := wf

/-- THE STACK-PAIR GATHER READ AT `(k, r)`: matrix `k` of the stack at the start index `(idx[r, 0], idx[r, 1])`, each
    component read signed and clamped into its axis. -/
theorem gather_stackPair_apply {K N M R w : Nat} (hN : 0 < N) (hM : 0 < M)
    (wf : GatherDims.WF ⟨3, ![K, N, M]⟩ ⟨2, ![R, 2]⟩ ⟨2, ![K, R]⟩ [0] [1, 2] [] [1, 2] [] 1 ![K, 1, 1])
    (x : (⟨3, ![K, N, M]⟩ : Shape).Idx → α) (idx : IVec ⟨2, ![R, 2]⟩ w) (k : Fin K) (r : Fin R) :
    Host.gather (stackPairDims K N M R wf) x idx (ix2 k r)
      = x (ix3 k ⟨min (idx (ix2 r (0 : Fin 2))).toInt.toNat (N - 1), by omega⟩
            ⟨min (idx (ix2 r (1 : Fin 2))).toInt.toNat (M - 1), by omega⟩) := by
  unfold Host.gather
  congr 1
  funext a
  refine Fin.ext ?_
  have h0 : (0 : Fin 3) ∉ ([1, 2] : List (Fin 3)) := by decide
  have h1 : (1 : Fin 3) ∈ ([1, 2] : List (Fin 3)) := by decide
  have h2 : (2 : Fin 3) ∈ ([1, 2] : List (Fin 3)) := by decide
  match a with
  | ⟨0, _⟩ =>
    show (stackPairDims K N M R wf).start (ix2 k r) idx 0 + (stackPairDims K N M R wf).batchCoord (ix2 k r) 0
      + (stackPairDims K N M R wf).offCoord (ix2 k r) 0 = k.val
    rw [GatherDims.batchCoord_eq_zero _ _ _ List.not_mem_nil]
    have hst : (stackPairDims K N M R wf).start (ix2 k r) idx 0 = 0 := by
      unfold GatherDims.start; rw [dif_neg h0]
    have hof : (stackPairDims K N M R wf).offCoord (ix2 k r) 0 = k.val := by
      unfold GatherDims.offCoord
      rw [dif_pos ((GatherDims.mem_sKept _ _).mpr ⟨h0, List.not_mem_nil⟩)]
      rfl
    rw [hst, hof]; omega
  | ⟨1, _⟩ =>
    show (stackPairDims K N M R wf).start (ix2 k r) idx 1 + (stackPairDims K N M R wf).batchCoord (ix2 k r) 1
      + (stackPairDims K N M R wf).offCoord (ix2 k r) 1 = _
    rw [GatherDims.batchCoord_eq_zero _ _ _ List.not_mem_nil,
      GatherDims.offCoord_eq_zero _ _ _ (fun h => ((GatherDims.mem_sKept _ _).mp h).1 h1)]
    simp only [Nat.add_zero]
    unfold GatherDims.start
    rw [dif_pos (show (1 : Fin 3) ∈ (stackPairDims K N M R wf).startIndexMap from h1)]
    have hsi : (stackPairDims K N M R wf).siIdx (ix2 k r) ⟨List.idxOf (1 : Fin 3) (stackPairDims K N M R wf).startIndexMap,
        List.idxOf_lt_length_iff.2 h1⟩ = ix2 r (0 : Fin 2) := by
      funext b; refine Fin.ext ?_
      match b with
      | ⟨0, _⟩ => rfl
      | ⟨1, _⟩ => rfl
    rw [hsi]
    rfl
  | ⟨2, _⟩ =>
    show (stackPairDims K N M R wf).start (ix2 k r) idx 2 + (stackPairDims K N M R wf).batchCoord (ix2 k r) 2
      + (stackPairDims K N M R wf).offCoord (ix2 k r) 2 = _
    rw [GatherDims.batchCoord_eq_zero _ _ _ List.not_mem_nil,
      GatherDims.offCoord_eq_zero _ _ _ (fun h => ((GatherDims.mem_sKept _ _).mp h).1 h2)]
    simp only [Nat.add_zero]
    unfold GatherDims.start
    rw [dif_pos (show (2 : Fin 3) ∈ (stackPairDims K N M R wf).startIndexMap from h2)]
    have hsi : (stackPairDims K N M R wf).siIdx (ix2 k r) ⟨List.idxOf (2 : Fin 3) (stackPairDims K N M R wf).startIndexMap,
        List.idxOf_lt_length_iff.2 h2⟩ = ix2 r (1 : Fin 2) := by
      funext b; refine Fin.ext ?_
      match b with
      | ⟨0, _⟩ => rfl
      | ⟨1, _⟩ => rfl
    rw [hsi]
    rfl

/-! ## Pairs out of one matrix -/

/-- The dimension numbers of `x[i, j]` for a matrix `x : [N, M]` and index pairs `[R, 2]`. -/
abbrev pairDims (N M R : Nat) (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- THE PAIR GATHER READ AT `r`: the matrix at the start index `(idx[r, 0], idx[r, 1])`, each component read signed and
    clamped into its axis. -/
theorem gather_pair_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (r : Fin R) :
    Host.gather (pairDims N M R wf) x idx (ix1 r)
      = x (ix2 ⟨min (idx (ix2 r (0 : Fin 2))).toInt.toNat (N - 1), by omega⟩
            ⟨min (idx (ix2 r (1 : Fin 2))).toInt.toNat (M - 1), by omega⟩) := by
  unfold Host.gather
  congr 1
  funext a
  refine Fin.ext ?_
  have h0 : (0 : Fin 2) ∈ ([0, 1] : List (Fin 2)) := by decide
  have h1 : (1 : Fin 2) ∈ ([0, 1] : List (Fin 2)) := by decide
  match a with
  | ⟨0, _⟩ =>
    show (pairDims N M R wf).start (ix1 r) idx 0 + (pairDims N M R wf).batchCoord (ix1 r) 0
      + (pairDims N M R wf).offCoord (ix1 r) 0 = _
    rw [GatherDims.batchCoord_eq_zero _ _ _ List.not_mem_nil,
      GatherDims.offCoord_eq_zero _ _ _ (fun h => ((GatherDims.mem_sKept _ _).mp h).1 h0)]
    simp only [Nat.add_zero]
    unfold GatherDims.start
    rw [dif_pos (show (0 : Fin 2) ∈ (pairDims N M R wf).startIndexMap from h0)]
    have hsi : (pairDims N M R wf).siIdx (ix1 r) ⟨List.idxOf (0 : Fin 2) (pairDims N M R wf).startIndexMap,
        List.idxOf_lt_length_iff.2 h0⟩ = ix2 r (0 : Fin 2) := by
      funext b; refine Fin.ext ?_
      match b with
      | ⟨0, _⟩ => rfl
      | ⟨1, _⟩ => rfl
    rw [hsi]
    rfl
  | ⟨1, _⟩ =>
    show (pairDims N M R wf).start (ix1 r) idx 1 + (pairDims N M R wf).batchCoord (ix1 r) 1
      + (pairDims N M R wf).offCoord (ix1 r) 1 = _
    rw [GatherDims.batchCoord_eq_zero _ _ _ List.not_mem_nil,
      GatherDims.offCoord_eq_zero _ _ _ (fun h => ((GatherDims.mem_sKept _ _).mp h).1 h1)]
    simp only [Nat.add_zero]
    unfold GatherDims.start
    rw [dif_pos (show (1 : Fin 2) ∈ (pairDims N M R wf).startIndexMap from h1)]
    have hsi : (pairDims N M R wf).siIdx (ix1 r) ⟨List.idxOf (1 : Fin 2) (pairDims N M R wf).startIndexMap,
        List.idxOf_lt_length_iff.2 h1⟩ = ix2 r (1 : Fin 2) := by
      funext b; refine Fin.ext ?_
      match b with
      | ⟨0, _⟩ => rfl
      | ⟨1, _⟩ => rfl
    rw [hsi]
    rfl

/-! ## Index vectors as columns, side by side -/

/-- An index vector made a column (`broadcast_in_dim` `[R] → [R, 1]` along axis 0) reads, at `(r, u)`, the vector at `r`. -/
theorem col_apply {R : Nat} (v : (⟨1, ![R]⟩ : Shape).Idx → α)
    (h : (⟨1, ![R]⟩ : Shape).BroadcastsInDim ⟨2, ![R, 1]⟩ (![0] : Fin 1 → Fin 2)) (r : Fin R) (u : Fin 1) :
    broadcastInDim ⟨2, ![R, 1]⟩ (![0] : Fin 1 → Fin 2) h v (ix2 r u) = v (ix1 r) := by
  refine broadcastInDim_apply _ h v (ix2 r u) (ix1 r) fun a => ?_
  match a with
  | ⟨0, _⟩ =>
    show r.val = if R = 1 then 0 else r.val
    split
    · have := r.isLt; omega
    · rfl

/-- Two columns side by side (`concatenate` along axis 1) read, at `(r, 0)`, the first column at `(r, 0)`. -/
theorem cols_apply_zero {R : Nat} (A B : (⟨2, ![R, 1]⟩ : Shape).Idx → α)
    (h : Shape.Concatenates [(⟨2, ![R, 1]⟩ : Shape), ⟨2, ![R, 1]⟩] ⟨2, ![R, 2]⟩ 1) (r : Fin R) :
    concatenate ⟨2, ![R, 2]⟩ 1 [⟨⟨2, ![R, 1]⟩, A⟩, ⟨⟨2, ![R, 1]⟩, B⟩] h (ix2 r (0 : Fin 2)) = A (ix2 r (0 : Fin 1)) :=
  concatenate_pair_apply_left 1 A B h (ix2 r (0 : Fin 2)) rfl (ix2 r (0 : Fin 1)) fun b =>
    match b with | ⟨0, _⟩ => rfl | ⟨1, _⟩ => rfl

/-- … and, at `(r, 1)`, the second column at `(r, 0)`. -/
theorem cols_apply_one {R : Nat} (A B : (⟨2, ![R, 1]⟩ : Shape).Idx → α)
    (h : Shape.Concatenates [(⟨2, ![R, 1]⟩ : Shape), ⟨2, ![R, 1]⟩] ⟨2, ![R, 2]⟩ 1) (r : Fin R) :
    concatenate ⟨2, ![R, 2]⟩ 1 [⟨⟨2, ![R, 1]⟩, A⟩, ⟨⟨2, ![R, 1]⟩, B⟩] h (ix2 r (1 : Fin 2)) = B (ix2 r (0 : Fin 1)) :=
  concatenate_pair_apply_right 1 A B h (ix2 r (1 : Fin 2)) rfl rfl (ix2 r (0 : Fin 1))
    (fun b hb => match b, hb with | ⟨0, _⟩, _ => rfl | ⟨1, _⟩, hb => absurd rfl hb) rfl

end GatherPair

end
-- ==== Proof.PairBridge.lean ====
/-
  The two programs' displacement and cutoff values, gathered at the same pairs, are the same arrays.

  `pos : [4096, 3]` are the positions (every entry FINITE: a real number), `a` and `b` two arrays of 8386560 row indices
  (any 32-bit words: a gather reads its start index signed and clamped into the axis, `rowOf`). One program forms all
  displacements `rij[c, i, j] = posT[c, j] - posT[c, i]` of the transposed positions and their cutoff words, gathers both
  at the pairs `(a p, b p)` and negates the displacements; the other gathers the rows `pos[a p]`, `pos[b p]`, subtracts,
  and compares the length `√(∑ c, d c²)` with 5. On finite values `-(y - x) = x - y` (`bridge_rij`), and "the squared
  length is below 25", read off the stored word by a comparison with zero, is "the length is below 5" (`bridge_cut`).
-/
import proofs.«127677_j1614907703797_1_alg».proof.Proof.Gen.KernelIdeal
import proofs.«127677_j1614907703797_1_alg».proof.Proof.Gen.ReferenceIdeal
import proofs.«127677_j1614907703797_1_alg».proof.Proof.PairSpec
import proofs.«127677_j1614907703797_1_alg».proof.Proof.LibGatherPair
import Idealize.ShloMosaic.Lib.ValueLayout

noncomputable section

open scoped BigOperators

namespace PairBridge

open Idealize.ShloMosaic Idealize.ShloMosaic.ValueIdx
open Cert

/-! ## The arrays both sides are built from -/

/-- The row a gather reads for pair `p` of the index array `a`: the word read signed, clamped into `[0, 4095]`. -/
def rowOf (a : IVec ⟨1, ![8386560]⟩ 32) (p : Fin 8386560) : Fin 4096 :=
  ⟨min (a (ix1 p)).toInt.toNat (4096 - 1), by omega⟩

/-- The transposed positions `[3, 4096]`. -/
abbrev posT (pos : FVec Ideal KernelIdeal.S4096x3 .f32) : FVec Ideal KernelIdeal.S3x4096 .f32 :=
  transpose KernelIdeal.S3x4096 [1, 0] pos KernelIdeal.Facts₀.transposes_S4096x3_S3x4096_1_0

/-- The pairs `[8386560, 2]`: the two index arrays as columns, side by side. -/
abbrev pairIdx (a b : IVec KernelIdeal.S8386560 32) : IVec KernelIdeal.S8386560x2 32 :=
  concatenate KernelIdeal.S8386560x2 1
    [⟨KernelIdeal.S8386560x1, broadcastInDim KernelIdeal.S8386560x1 ![0] KernelIdeal.Facts₀.bcast_S8386560_S8386560x1_0 a⟩,
     ⟨KernelIdeal.S8386560x1, broadcastInDim KernelIdeal.S8386560x1 ![0] KernelIdeal.Facts₀.bcast_S8386560_S8386560x1_0 b⟩]
    KernelIdeal.Facts₀.concatenates_S8386560x1_S8386560x1_S8386560x2_d1

/-- One index array as a column `[8386560, 1]`. -/
abbrev colIdx (a : IVec ReferenceIdeal.S8386560 32) : IVec ReferenceIdeal.S8386560x1 32 :=
  broadcastInDim ReferenceIdeal.S8386560x1 ![0] ReferenceIdeal.Facts₀.bcast_S8386560_S8386560x1_0 a

/-- The rows' difference `pos[a p] - pos[b p]`, as gathered and subtracted. -/
abbrev rowDiff (pos : FVec Ideal ReferenceIdeal.S4096x3 .f32) (a b : IVec ReferenceIdeal.S8386560 32) :
    FVec Ideal ReferenceIdeal.S8386560x3 .f32 :=
  subf (Host.gather ReferenceIdeal.gather_S4096x3_S8386560x1_S8386560x3_1_0_n_n_0_1_13 pos (colIdx a))
    (Host.gather ReferenceIdeal.gather_S4096x3_S8386560x1_S8386560x3_1_0_n_n_0_1_13 pos (colIdx b))

/-! ## Each gather read at an index -/

theorem pairIdx_zero (a b : IVec KernelIdeal.S8386560 32) (p : Fin 8386560) :
    pairIdx a b (ix2 p (0 : Fin 2)) = a (ix1 p) :=
  (GatherPair.cols_apply_zero _ _ _ p).trans (GatherPair.col_apply a _ p 0)

theorem pairIdx_one (a b : IVec KernelIdeal.S8386560 32) (p : Fin 8386560) :
    pairIdx a b (ix2 p (1 : Fin 2)) = b (ix1 p) :=
  (GatherPair.cols_apply_one _ _ _ p).trans (GatherPair.col_apply b _ p 0)

/-- One index array as a column reads, at `(p, u)`, the array at `p`. -/
theorem colIdx_apply (a : IVec ReferenceIdeal.S8386560 32) (p : Fin 8386560) (u : Fin 1) :
    colIdx a (ix2 p u) = a (ix1 p) :=
  GatherPair.col_apply a _ p u

/-- The transposed positions at `(c, i)` are the positions at `(i, c)`. -/
theorem posT_apply (pos : FVec Ideal KernelIdeal.S4096x3 .f32) (c : Fin 3) (i : Fin 4096) :
    posT pos (ix2 c i) = pos (ix2 i c) :=
  transpose_ix2_apply pos _ c i

/-- The displacements gathered at the pairs: at `(c, p)`, `pos[b p, c] - pos[a p, c]`. -/
theorem gather_rij_apply (pos : FVec Ideal KernelIdeal.S4096x3 .f32) (a b : IVec KernelIdeal.S8386560 32)
    (c : Fin 3) (p : Fin 8386560) :
    Host.gather KernelIdeal.gather_S3x4096x4096_S8386560x2_S3x8386560_0_12_n_n_12_1_311
        (PairSpec.rijOf (posT pos)) (pairIdx a b) (ix2 c p)
      = pos (ix2 (rowOf b p) c) - pos (ix2 (rowOf a p) c) := by
  refine (GatherPair.gather_stackPair_apply (K := 3) (N := 4096) (M := 4096) (R := 8386560) (by decide) (by decide)
    KernelIdeal.Facts₀.gather_S3x4096x4096_S8386560x2_S3x8386560_0_12_n_n_12_1_311_wf
    (PairSpec.rijOf (posT pos)) (pairIdx a b) c p).trans ?_
  rw [PairSpec.rijOf_ix3, posT_apply, posT_apply]
  have ea : (⟨min (pairIdx a b (ix2 p (0 : Fin 2))).toInt.toNat (4096 - 1), by omega⟩ : Fin 4096) = rowOf a p :=
    Fin.ext (by show min _ _ = min _ _; rw [pairIdx_zero])
  have eb : (⟨min (pairIdx a b (ix2 p (1 : Fin 2))).toInt.toNat (4096 - 1), by omega⟩ : Fin 4096) = rowOf b p :=
    Fin.ext (by show min _ _ = min _ _; rw [pairIdx_one])
  rw [ea, eb]

/-- The cutoff words gathered at the pairs: at `p`, the word of the displacement `pos[b p] - pos[a p]`. -/
theorem gather_mask_apply (pos : FVec Ideal KernelIdeal.S4096x3 .f32) (a b : IVec KernelIdeal.S8386560 32)
    (p : Fin 8386560) :
    Host.gather KernelIdeal.gather_S4096x4096_S8386560x2_S8386560_n_01_n_n_01_1_11
        (PairSpec.maskOf (posT pos)) (pairIdx a b) (ix1 p)
      = PairSpec.cutBit fun c => pos (ix2 (rowOf b p) c) - pos (ix2 (rowOf a p) c) := by
  refine (GatherPair.gather_pair_apply (N := 4096) (M := 4096) (R := 8386560) (by decide) (by decide)
    KernelIdeal.Facts₀.gather_S4096x4096_S8386560x2_S8386560_n_01_n_n_01_1_11_wf
    (PairSpec.maskOf (posT pos)) (pairIdx a b) p).trans ?_
  have ea : (⟨min (pairIdx a b (ix2 p (0 : Fin 2))).toInt.toNat (4096 - 1), by omega⟩ : Fin 4096) = rowOf a p :=
    Fin.ext (by show min _ _ = min _ _; rw [pairIdx_zero])
  have eb : (⟨min (pairIdx a b (ix2 p (1 : Fin 2))).toInt.toNat (4096 - 1), by omega⟩ : Fin 4096) = rowOf b p :=
    Fin.ext (by show min _ _ = min _ _; rw [pairIdx_one])
  rw [ea, eb, PairSpec.maskOf_ix2]
  exact congrArg PairSpec.cutBit (funext fun c => by rw [posT_apply, posT_apply])

/-- The rows gathered at one index array: at `(p, c)`, `pos[a p, c]`. -/
theorem gather_rows_apply (pos : FVec Ideal ReferenceIdeal.S4096x3 .f32) (a : IVec ReferenceIdeal.S8386560 32)
    (p : Fin 8386560) (c : Fin 3) :
    Host.gather ReferenceIdeal.gather_S4096x3_S8386560x1_S8386560x3_1_0_n_n_0_1_13 pos (colIdx a) (ix2 p c)
      = pos (ix2 (rowOf a p) c) := by
  refine (GatherPair.gather_rows_apply (N := 4096) (K := 3) (R := 8386560) (by decide)
    ReferenceIdeal.Facts₀.gather_S4096x3_S8386560x1_S8386560x3_1_0_n_n_0_1_13_wf pos (colIdx a) p c).trans ?_
  have ea : (⟨min (colIdx a (ix2 p (0 : Fin 1))).toInt.toNat (4096 - 1), by omega⟩ : Fin 4096) = rowOf a p :=
    Fin.ext (by show min _ _ = min _ _; rw [colIdx_apply])
  rw [ea]

/-- The rows' difference at `(p, c)`. -/
theorem rowDiff_apply (pos : FVec Ideal ReferenceIdeal.S4096x3 .f32) (a b : IVec ReferenceIdeal.S8386560 32)
    (p : Fin 8386560) (c : Fin 3) :
    rowDiff pos a b (ix2 p c) = pos (ix2 (rowOf a p) c) - pos (ix2 (rowOf b p) c) := by
  show Host.gather _ pos (colIdx a) (ix2 p c) - Host.gather _ pos (colIdx b) (ix2 p c) = _
  rw [gather_rows_apply, gather_rows_apply]

/-! ## The displacements -/

/-- The gathered displacements, transposed and negated, are the rows' difference. -/
theorem bridge_rij (pos : FVec Ideal KernelIdeal.S4096x3 .f32) (hfin : ∀ i, ∃ r : ℝ, pos i = (r : EReal))
    (a b : IVec KernelIdeal.S8386560 32) :
    Host.negf (transpose KernelIdeal.S8386560x3 [1, 0]
        (Host.gather KernelIdeal.gather_S3x4096x4096_S8386560x2_S3x8386560_0_12_n_n_12_1_311
          (PairSpec.rijOf (posT pos)) (pairIdx a b))
        KernelIdeal.Facts₀.transposes_S3x8386560_S8386560x3_1_0)
      = rowDiff pos a b := by
  funext y
  obtain ⟨p, c, rfl⟩ : ∃ (p : Fin 8386560) (c : Fin 3), y = ix2 p c := ⟨y 0, y 1, eq_ix2 y⟩
  rw [rowDiff_apply]
  show -(transpose KernelIdeal.S8386560x3 [1, 0] _ _ (ix2 p c)) = _
  rw [transpose_ix2_apply, gather_rij_apply]
  obtain ⟨r, hr⟩ := hfin (ix2 (rowOf a p) c)
  obtain ⟨s, hs⟩ := hfin (ix2 (rowOf b p) c)
  rw [hr, hs]
  exact PairSpec.neg_sub_coe r s

/-! ## The cutoff -/

/-- On real displacements: "the squared length is below 25" is "the length is below 5", whatever the sign of the
    displacement, as the two comparisons of extended reals. -/
theorem cut_eq (x y : Fin 3 → ℝ) :
    Ideal.cmp .olt (∑ c : Fin 3, ((y c : EReal) - (x c : EReal)) * ((y c : EReal) - (x c : EReal)))
        (Ideal.ofBits .f32 0x41C80000#32)
      = Ideal.cmp .olt (Ideal.sqrt (Ideal.ofBits .f32 0x00000000#32
          + ∑ c : Fin 3, ((x c : EReal) - (y c : EReal)) * ((x c : EReal) - (y c : EReal))))
        (Ideal.ofBits .f32 0x40A00000#32) := by
  have hs : 0 ≤ ∑ c : Fin 3, (x c - y c) * (x c - y c) := Finset.sum_nonneg fun c _ => mul_self_nonneg _
  rw [PairSpec.sum_sq_coe y x, PairSpec.sum_sq_coe x y, PairSpec.sum_sq_sub_comm x y, Ideal.ofBits_zero_f32, zero_add,
    PairSpec.ofBits_25, PairSpec.ofBits_5, Ideal.sqrt_coe, if_neg (not_lt.mpr hs)]
  unfold Ideal.cmp
  simp only [EReal.coe_lt_coe_iff, PairSpec.sqrt_lt_five_iff hs]

/-- The sum of squares the length is taken of, at pair `p`. -/
theorem sumsq_apply (pos : FVec Ideal ReferenceIdeal.S4096x3 .f32) (a b : IVec ReferenceIdeal.S8386560 32)
    (p : Fin 8386560) :
    Host.reduceAdd (F := Ideal) (mulf (rowDiff pos a b) (rowDiff pos a b))
        (constant (F := Ideal) ReferenceIdeal.S_ .f32 0x00000000#32)
        ReferenceIdeal.Facts₀.reducesTo_S8386560x3_S8386560_d1 ReferenceIdeal.Facts₀.h_S_ (ix1 p)
      = Ideal.ofBits .f32 0x00000000#32
        + ∑ c : Fin 3, (pos (ix2 (rowOf a p) c) - pos (ix2 (rowOf b p) c))
            * (pos (ix2 (rowOf a p) c) - pos (ix2 (rowOf b p) c)) := by
  have hR : ReferenceIdeal.S8386560x3.Reduces [1] ReferenceIdeal.S8386560 := by decide
  show Ideal.hostReduceAdd ReferenceIdeal.Facts₀.reducesTo_S8386560x3_S8386560_d1
    (mulf (rowDiff pos a b) (rowDiff pos a b)) (Ideal.ofBits .f32 0x00000000#32) (ix1 p) = _
  rw [Ideal.hostReduceAdd_single _ hR]
  show _ + (∑ c : Fin 3, mulf (rowDiff pos a b) (rowDiff pos a b) (hR.lift (ix1 p) c)) = _
  refine congrArg _ (Finset.sum_congr rfl fun c _ => ?_)
  have hl : hR.lift (ix1 p) c = ix2 p c := by
    funext d; refine Fin.ext ?_
    match d with
    | ⟨0, _⟩ => rfl
    | ⟨1, _⟩ => rfl
  rw [hl, mulf_apply, rowDiff_apply]

/-- A comparison of words with the zero splat, at an index. -/
theorem cmpi_ne_zero_apply {t : Shape} (X : IVec t 32) (h : (⟨0, ![]⟩ : Shape).BroadcastsInDim t (![] : Fin 0 → Fin t.rank))
    (j : t.Idx) :
    cmpi .ne X (broadcastInDim t ![] h (constantI ⟨0, ![]⟩ 32 0#32)) j = IntOp.cmpi .ne (X j) 0#32 := rfl

/-- A comparison of a square root with a splat constant, at an index, at the ideal values. -/
theorem cmpf_olt_sqrt_apply {t : Shape} (Y : FVec Ideal t .f32) (w : BitVec 32)
    (h : (⟨0, ![]⟩ : Shape).BroadcastsInDim t (![] : Fin 0 → Fin t.rank)) (j : t.Idx) :
    cmpf .olt (Host.sqrt Y) (broadcastInDim t ![] h (constant (F := Ideal) ⟨0, ![]⟩ .f32 w)) j
      = Ideal.cmp .olt (Ideal.sqrt (Y j)) (Ideal.ofBits .f32 w) := rfl

/-- The gathered cutoff words, compared with zero, are the comparison of the rows' distance with 5. -/
theorem bridge_cut (pos : FVec Ideal KernelIdeal.S4096x3 .f32) (hfin : ∀ i, ∃ r : ℝ, pos i = (r : EReal))
    (a b : IVec KernelIdeal.S8386560 32) :
    cmpi .ne
        (Host.gather KernelIdeal.gather_S4096x4096_S8386560x2_S8386560_n_01_n_n_01_1_11
          (PairSpec.maskOf (posT pos)) (pairIdx a b))
        (broadcastInDim KernelIdeal.S8386560 ![] KernelIdeal.Facts₀.bcast_S_S8386560 (constantI KernelIdeal.S_ 32 0#32))
      = cmpf .olt
        (Host.sqrt (Host.reduceAdd (F := Ideal) (mulf (rowDiff pos a b) (rowDiff pos a b))
          (constant (F := Ideal) ReferenceIdeal.S_ .f32 0x00000000#32)
          ReferenceIdeal.Facts₀.reducesTo_S8386560x3_S8386560_d1 ReferenceIdeal.Facts₀.h_S_))
        (broadcastInDim ReferenceIdeal.S8386560 ![] ReferenceIdeal.Facts₀.bcast_S_S8386560
          (constant (F := Ideal) ReferenceIdeal.S_ .f32 0x40A00000#32)) := by
  funext y
  obtain ⟨p, rfl⟩ : ∃ p : Fin 8386560, y = ix1 p := ⟨y 0, eq_ix1 y⟩
  refine (cmpi_ne_zero_apply _ _ _).trans (Eq.trans ?_ (cmpf_olt_sqrt_apply _ _ _ _).symm)
  rw [gather_mask_apply, sumsq_apply]
  unfold PairSpec.cutBit
  rw [PairSpec.cmpi_ne_setWidth]
  choose f hf using hfin
  simp only [hf]
  exact cut_eq (fun c => f (ix2 (rowOf a p) c)) (fun c => f (ix2 (rowOf b p) c))

end PairBridge

end
-- ==== Proof.StageB.lean ====
/-
  The middle stretch of the two programs agrees. From valuations in which the two programs' row and column index
  buffers hold the same arrays, the first program's two result buffers hold the displacement array and the cutoff
  array of the transposed positions, and the second program's argument buffer holds the (finite) positions, the first
  program's displacement and cutoff buffers after its stretch hold what the second's hold after its own; the index
  buffers still agree. (Every statement takes the same hypotheses, used or not, so that they are applied alike.)
-/
import proofs.«127677_j1614907703797_1_alg».proof.Proof.KStageB
import proofs.«127677_j1614907703797_1_alg».proof.Proof.RStageB
import proofs.«127677_j1614907703797_1_alg».proof.Proof.PairBridge

set_option maxRecDepth 16384

noncomputable section

namespace StageB

open Idealize.ShloMosaic Idealize.ShloMosaic.TcCoe Idealize.SL.Sem Idealize.ShloMosaic.StableHlo
open Cert

/-- The row-index buffers still agree. -/
theorem stageB_i (VK : Valuation KernelIdeal.τ KernelIdeal.sig (Elt Ideal))
    (VR : Valuation ReferenceIdeal.τ ReferenceIdeal.sig (Elt Ideal))
    (pos : FVec Ideal KernelIdeal.S4096x3 .f32) (hfin : ∀ i, ∃ r : ℝ, pos i = (r : EReal))
    (hi : VK (Proc.devRef .tc KernelIdeal.main_v19) = VR (Proc.devRef .tc ReferenceIdeal.main_v17))
    (hj : VK (Proc.devRef .tc KernelIdeal.main_v21) = VR (Proc.devRef .tc ReferenceIdeal.main_v19))
    (hrij : VK (Proc.devRef .tc KernelIdeal.main_v1_0) = PairSpec.rijOf (PairBridge.posT pos))
    (hcut : VK (Proc.devRef .tc KernelIdeal.main_v1_1) = PairSpec.maskOf (PairBridge.posT pos))
    (hpos : VR (Proc.devRef .tc ReferenceIdeal.main_arg0) = pos) :
    after KernelIdeal.Region.segB VK (Proc.devRef .tc KernelIdeal.main_v19)
      = after ReferenceIdeal.RefRun.opsB VR (Proc.devRef .tc ReferenceIdeal.main_v17) := by
  rw [KernelIdeal.Region.segB_i, ReferenceIdeal.RefRun.opsB_i]
  exact hi

/-- The column-index buffers still agree. -/
theorem stageB_j (VK : Valuation KernelIdeal.τ KernelIdeal.sig (Elt Ideal))
    (VR : Valuation ReferenceIdeal.τ ReferenceIdeal.sig (Elt Ideal))
    (pos : FVec Ideal KernelIdeal.S4096x3 .f32) (hfin : ∀ i, ∃ r : ℝ, pos i = (r : EReal))
    (hi : VK (Proc.devRef .tc KernelIdeal.main_v19) = VR (Proc.devRef .tc ReferenceIdeal.main_v17))
    (hj : VK (Proc.devRef .tc KernelIdeal.main_v21) = VR (Proc.devRef .tc ReferenceIdeal.main_v19))
    (hrij : VK (Proc.devRef .tc KernelIdeal.main_v1_0) = PairSpec.rijOf (PairBridge.posT pos))
    (hcut : VK (Proc.devRef .tc KernelIdeal.main_v1_1) = PairSpec.maskOf (PairBridge.posT pos))
    (hpos : VR (Proc.devRef .tc ReferenceIdeal.main_arg0) = pos) :
    after KernelIdeal.Region.segB VK (Proc.devRef .tc KernelIdeal.main_v21)
      = after ReferenceIdeal.RefRun.opsB VR (Proc.devRef .tc ReferenceIdeal.main_v19) := by
  rw [KernelIdeal.Region.segB_j, ReferenceIdeal.RefRun.opsB_j]
  exact hj

/-- The displacement buffers agree after the stretch. -/
theorem stageB_rij (VK : Valuation KernelIdeal.τ KernelIdeal.sig (Elt Ideal))
    (VR : Valuation ReferenceIdeal.τ ReferenceIdeal.sig (Elt Ideal))
    (pos : FVec Ideal KernelIdeal.S4096x3 .f32) (hfin : ∀ i, ∃ r : ℝ, pos i = (r : EReal))
    (hi : VK (Proc.devRef .tc KernelIdeal.main_v19) = VR (Proc.devRef .tc ReferenceIdeal.main_v17))
    (hj : VK (Proc.devRef .tc KernelIdeal.main_v21) = VR (Proc.devRef .tc ReferenceIdeal.main_v19))
    (hrij : VK (Proc.devRef .tc KernelIdeal.main_v1_0) = PairSpec.rijOf (PairBridge.posT pos))
    (hcut : VK (Proc.devRef .tc KernelIdeal.main_v1_1) = PairSpec.maskOf (PairBridge.posT pos))
    (hpos : VR (Proc.devRef .tc ReferenceIdeal.main_arg0) = pos) :
    after KernelIdeal.Region.segB VK (Proc.devRef .tc KernelIdeal.main_v37)
      = after ReferenceIdeal.RefRun.opsB VR (Proc.devRef .tc ReferenceIdeal.main_v34) := by
  rw [KernelIdeal.Region.segB_rij, ReferenceIdeal.RefRun.opsB_rij, hrij, hpos, hi, hj]
  exact PairBridge.bridge_rij pos hfin _ _

/-- The cutoff buffers agree after the stretch. -/
theorem stageB_cut (VK : Valuation KernelIdeal.τ KernelIdeal.sig (Elt Ideal))
    (VR : Valuation ReferenceIdeal.τ ReferenceIdeal.sig (Elt Ideal))
    (pos : FVec Ideal KernelIdeal.S4096x3 .f32) (hfin : ∀ i, ∃ r : ℝ, pos i = (r : EReal))
    (hi : VK (Proc.devRef .tc KernelIdeal.main_v19) = VR (Proc.devRef .tc ReferenceIdeal.main_v17))
    (hj : VK (Proc.devRef .tc KernelIdeal.main_v21) = VR (Proc.devRef .tc ReferenceIdeal.main_v19))
    (hrij : VK (Proc.devRef .tc KernelIdeal.main_v1_0) = PairSpec.rijOf (PairBridge.posT pos))
    (hcut : VK (Proc.devRef .tc KernelIdeal.main_v1_1) = PairSpec.maskOf (PairBridge.posT pos))
    (hpos : VR (Proc.devRef .tc ReferenceIdeal.main_arg0) = pos) :
    after KernelIdeal.Region.segB VK (Proc.devRef .tc KernelIdeal.main_v54)
      = after ReferenceIdeal.RefRun.opsB VR (Proc.devRef .tc ReferenceIdeal.main_v37) := by
  rw [KernelIdeal.Region.segB_cut, ReferenceIdeal.RefRun.opsB_cut, hcut, hpos, hi, hj]
  exact PairBridge.bridge_cut pos hfin _ _

end StageB

end
-- ==== Proof.PairFinite.lean ====
/-
  From the precondition "every float input is finite" to "every position is a real number".

  The precondition is the conjunction of two `all`s: every entry `x` of the positions, and of the cell, has
  `|x| < +∞`, the bound being the f32 pattern `0x7F800000`, which denotes `⊤`. On the extended reals `|x| = max x (-x)`
  is `⊤` at both infinities, so an entry below the bound is a real number.
-/
import proofs.«127677_j1614907703797_1_alg».proof.Pre_finite_inputs
import Idealize.ShloMosaic.Lib.ReduceAll
import Idealize.ShloMosaic.Lib.ValueIdx

noncomputable section

namespace PairFinite

open Idealize.ShloMosaic Idealize.ShloMosaic.ValueIdx

/-- The scalar shape has one index. -/
instance : Subsingleton (Cert.Pre_finite_inputs.S_.Idx) := ⟨fun a b => funext fun d => d.elim0⟩

/-- The f32 pattern `0x7F800000` denotes `⊤`. -/
theorem ofBits_inf : Ideal.ofBits .f32 0x7F800000#32 = ⊤ := by simp [Ideal.ofBits, Ideal.ieee]

/-- An extended real whose absolute value is below `⊤` is a real number. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- Under the precondition every position is a real number. -/
theorem pos_finite [Cert.Pre_finite_inputs.Facts] (pos : FVec Ideal Cert.Pre_finite_inputs.S4096x3 .f32)
    (cell : FVec Ideal Cert.Pre_finite_inputs.S3x3 .f32) (pbc : IVec Cert.Pre_finite_inputs.S3 1)
    (h : Cert.Pre_finite_inputs.fn (F := Ideal) pos cell pbc = fun _ => 1#1) :
    ∀ i, ∃ r : ℝ, pos i = (r : EReal) := by
  intro i
  have h0 := congrFun h ix0
  dsimp only [Cert.Pre_finite_inputs.fn] at h0
  have h1 := (IntOp.andi_eq_one.1 h0).1
  have h2 := Host.reduce_andi_all _ _ _ _ _ h1 i
  exact real_of_abs_lt_top (pos i) (by rw [← ofBits_inf]; exact h2)

end PairFinite

end
-- ==== Proof.Algebraic.lean ====
/-
  The two idealized programs end with equal results.

  The kernel's program: the region leaves the displacement array rij[c, i, j] = p[c, j] − p[c, i] and the cutoff array
  (Σ_c rij[c, i, j]² < 25) of the transposed positions p; the lines after it compute the pair indices, read both arrays
  at the pairs, and do the bookkeeping. The reference computes the same pair indices, the row differences
  positions[i] − positions[j] and their norms' comparison with 5, and does the same bookkeeping. The pair indices are the
  same closed computation; the middle stretches agree for finite positions (−(p_j − p_i) = p_i − p_j, and
  √s < 5 ⇔ s < 25 for a sum of squares s); the bookkeeping is one function of what the middle stretch hands on.
-/
import proofs.«127677_j1614907703797_1_alg».proof.Defs
import proofs.«127677_j1614907703797_1_alg».proof.Proof.KRun
import proofs.«127677_j1614907703797_1_alg».proof.Proof.KValue
import proofs.«127677_j1614907703797_1_alg».proof.Proof.KStage
import proofs.«127677_j1614907703797_1_alg».proof.Proof.KStageB
import proofs.«127677_j1614907703797_1_alg».proof.Proof.RefRun
import proofs.«127677_j1614907703797_1_alg».proof.Proof.RefStage
import proofs.«127677_j1614907703797_1_alg».proof.Proof.CrossTail
import proofs.«127677_j1614907703797_1_alg».proof.Proof.StageB
import proofs.«127677_j1614907703797_1_alg».proof.Proof.PairBridge
import proofs.«127677_j1614907703797_1_alg».proof.Proof.PairFinite
import proofs.«127677_j1614907703797_1_alg».proof.Proof.Gen.Pre_finite_inputs
import proofs.«127677_j1614907703797_1_alg».proof.Proof.Gen.KernelIdeal
import proofs.«127677_j1614907703797_1_alg».proof.Proof.Gen.ReferenceIdeal

set_option maxRecDepth 16384

noncomputable section

namespace Cert.Proof.Pairs

open Idealize.ShloMosaic Idealize.ShloMosaic.TcCoe Idealize.ShloMosaic.StableHlo Idealize.SL.Sem
open Cert.KernelIdeal.Region (Vend Wex segA segB segC tailOps)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The positions as the kernel's program is launched with them. -/
abbrev pos (c : Dev Cert.KernelIdeal.nD) : FVec Ideal Cert.KernelIdeal.S4096x3 .f32 := m ((c.tc : Thread Cert.KernelIdeal.nD Cert.KernelIdeal.τ).loc Cert.KernelIdeal.main_arg0)

/-- The region finds the transposed positions: the one host line before it. -/
theorem posT_eq (c : Dev Cert.KernelIdeal.nD) : Cert.KernelIdeal.Region.posT m c = PairBridge.posT (pos m c) := by
  show StableHlo.after (List.flatten [Cert.KernelIdeal.Gen.hostOps0]) (fun b => m (c, b)) (Proc.devRef .tc Cert.KernelIdeal.main_v0) = _
  simp only [Cert.KernelIdeal.Gen.hostOps0, List.flatten_cons, List.flatten_nil, List.append_nil]
  after_results

theorem segA_sub {op : HloOp Cert.KernelIdeal.τ Cert.KernelIdeal.sig (Elt Ideal)} (h : op ∈ (segA : List (HloOp Cert.KernelIdeal.τ Cert.KernelIdeal.sig (Elt Ideal)))) :
    op ∈ (tailOps.flatten : List (HloOp Cert.KernelIdeal.τ Cert.KernelIdeal.sig (Elt Ideal))) := by
  rw [Cert.KernelIdeal.Region.tail_split]; exact List.mem_append_left _ h

/-- The pair-index computation leaves the two result arrays as the region left them. -/
theorem afterA_rij (c : Dev Cert.KernelIdeal.nD) :
    after segA (Wex m c) (Proc.devRef .tc Cert.KernelIdeal.main_v1_0) = PairSpec.rijOf (PairBridge.posT (pos m c)) :=
  (after_of_forall_not_mem _ _ fun op hop => Cert.KernelIdeal.Region.tail_keeps_main_v1_0 op (segA_sub hop)).trans
    ((Cert.KernelIdeal.Region.Wex_rij m c).trans ((Cert.KernelIdeal.Region.finalRij m c).trans (congrArg PairSpec.rijOf (posT_eq m c))))
theorem afterA_cut (c : Dev Cert.KernelIdeal.nD) :
    after segA (Wex m c) (Proc.devRef .tc Cert.KernelIdeal.main_v1_1) = PairSpec.maskOf (PairBridge.posT (pos m c)) :=
  (after_of_forall_not_mem _ _ fun op hop => Cert.KernelIdeal.Region.tail_keeps_main_v1_1 op (segA_sub hop)).trans
    ((Cert.KernelIdeal.Region.Wex_cut m c).trans ((Cert.KernelIdeal.Region.finalCut m c).trans (congrArg PairSpec.maskOf (posT_eq m c))))

/-- The kernel program's final contents, stretch by stretch. -/
theorem Vend_split (c : Dev Cert.KernelIdeal.nD) (b : Ref Cert.KernelIdeal.sig .tc) :
    Vend m c b = after segC (after segB (after segA (Wex m c))) (Proc.devRef .tc b) := by
  unfold Cert.KernelIdeal.Region.Vend
  rw [Cert.KernelIdeal.Region.tail_split, StableHlo.after_append, StableHlo.after_append]

set_option maxHeartbeats 4000000 in
/-- The reference's pair-index computation leaves the positions as launched. -/
theorem opsA_pos (V : Valuation Cert.ReferenceIdeal.τ Cert.ReferenceIdeal.sig (Elt Ideal)) :
    after Cert.ReferenceIdeal.RefRun.opsA V (Proc.devRef .tc Cert.ReferenceIdeal.main_arg0) = V (Proc.devRef .tc Cert.ReferenceIdeal.main_arg0) := by
  after_results_simp

section Agree

variable (c : Dev Cert.KernelIdeal.nD)
  (hpos : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (hfin : ∀ i, ∃ r : ℝ, pos m c i = (r : EReal))

include hpos hfin

/-- What the middle stretches hand on agrees, buffer by buffer. -/
theorem mid_i : after segB (after segA (Wex m c)) (Proc.devRef .tc Cert.KernelIdeal.main_v19)
    = after Cert.ReferenceIdeal.RefRun.opsB (after Cert.ReferenceIdeal.RefRun.opsA (fun b => m' (c, b))) (Proc.devRef .tc Cert.ReferenceIdeal.main_v17) :=
  StageB.stageB_i _ _ (pos m c) hfin (CrossTail.idx_agree_i _ _) (CrossTail.idx_agree_j _ _) (afterA_rij m c) (afterA_cut m c)
    ((opsA_pos _).trans hpos)
theorem mid_j : after segB (after segA (Wex m c)) (Proc.devRef .tc Cert.KernelIdeal.main_v21)
    = after Cert.ReferenceIdeal.RefRun.opsB (after Cert.ReferenceIdeal.RefRun.opsA (fun b => m' (c, b))) (Proc.devRef .tc Cert.ReferenceIdeal.main_v19) :=
  StageB.stageB_j _ _ (pos m c) hfin (CrossTail.idx_agree_i _ _) (CrossTail.idx_agree_j _ _) (afterA_rij m c) (afterA_cut m c)
    ((opsA_pos _).trans hpos)
theorem mid_rij : after segB (after segA (Wex m c)) (Proc.devRef .tc Cert.KernelIdeal.main_v37)
    = after Cert.ReferenceIdeal.RefRun.opsB (after Cert.ReferenceIdeal.RefRun.opsA (fun b => m' (c, b))) (Proc.devRef .tc Cert.ReferenceIdeal.main_v34) :=
  StageB.stageB_rij _ _ (pos m c) hfin (CrossTail.idx_agree_i _ _) (CrossTail.idx_agree_j _ _) (afterA_rij m c) (afterA_cut m c)
    ((opsA_pos _).trans hpos)
theorem mid_cut : after segB (after segA (Wex m c)) (Proc.devRef .tc Cert.KernelIdeal.main_v54)
    = after Cert.ReferenceIdeal.RefRun.opsB (after Cert.ReferenceIdeal.RefRun.opsA (fun b => m' (c, b))) (Proc.devRef .tc Cert.ReferenceIdeal.main_v37) :=
  StageB.stageB_cut _ _ (pos m c) hfin (CrossTail.idx_agree_i _ _) (CrossTail.idx_agree_j _ _) (afterA_rij m c) (afterA_cut m c)
    ((opsA_pos _).trans hpos)

/-- The kernel program's `main_v76` ends as the reference's `main_v59`. -/
theorem res_main_v76 : Vend m c Cert.KernelIdeal.main_v76 = after Cert.ReferenceIdeal.RefRun.ops (fun b => m' (c, b)) (Proc.devRef .tc Cert.ReferenceIdeal.main_v59) := by
  rw [Vend_split, Cert.ReferenceIdeal.RefRun.after_ops]
  exact CrossTail.tail_main_v76 _ _ (mid_i m m' c hpos hfin) (mid_j m m' c hpos hfin) (mid_rij m m' c hpos hfin) (mid_cut m m' c hpos hfin)
/-- The kernel program's `main_v84` ends as the reference's `main_v67`. -/
theorem res_main_v84 : Vend m c Cert.KernelIdeal.main_v84 = after Cert.ReferenceIdeal.RefRun.ops (fun b => m' (c, b)) (Proc.devRef .tc Cert.ReferenceIdeal.main_v67) := by
  rw [Vend_split, Cert.ReferenceIdeal.RefRun.after_ops]
  exact CrossTail.tail_main_v84 _ _ (mid_i m m' c hpos hfin) (mid_j m m' c hpos hfin) (mid_rij m m' c hpos hfin) (mid_cut m m' c hpos hfin)
/-- The kernel program's `main_v95` ends as the reference's `main_v78`. -/
theorem res_main_v95 : Vend m c Cert.KernelIdeal.main_v95 = after Cert.ReferenceIdeal.RefRun.ops (fun b => m' (c, b)) (Proc.devRef .tc Cert.ReferenceIdeal.main_v78) := by
  rw [Vend_split, Cert.ReferenceIdeal.RefRun.after_ops]
  exact CrossTail.tail_main_v95 _ _ (mid_i m m' c hpos hfin) (mid_j m m' c hpos hfin) (mid_rij m m' c hpos hfin) (mid_cut m m' c hpos hfin)
/-- The kernel program's `main_v96` ends as the reference's `main_v79`. -/
theorem res_main_v96 : Vend m c Cert.KernelIdeal.main_v96 = after Cert.ReferenceIdeal.RefRun.ops (fun b => m' (c, b)) (Proc.devRef .tc Cert.ReferenceIdeal.main_v79) := by
  rw [Vend_split, Cert.ReferenceIdeal.RefRun.after_ops]
  exact CrossTail.tail_main_v96 _ _ (mid_i m m' c hpos hfin) (mid_j m m' c hpos hfin) (mid_rij m m' c hpos hfin) (mid_cut m m' c hpos hfin)
/-- The kernel program's `main_v68` ends as the reference's `main_v51`. -/
theorem res_main_v68 : Vend m c Cert.KernelIdeal.main_v68 = after Cert.ReferenceIdeal.RefRun.ops (fun b => m' (c, b)) (Proc.devRef .tc Cert.ReferenceIdeal.main_v51) := by
  rw [Vend_split, Cert.ReferenceIdeal.RefRun.after_ops]
  exact CrossTail.tail_main_v68 _ _ (mid_i m m' c hpos hfin) (mid_j m m' c hpos hfin) (mid_rij m m' c hpos hfin) (mid_cut m m' c hpos hfin)
/-- The kernel program's `main_v98` ends as the reference's `main_v81`. -/
theorem res_main_v98 : Vend m c Cert.KernelIdeal.main_v98 = after Cert.ReferenceIdeal.RefRun.ops (fun b => m' (c, b)) (Proc.devRef .tc Cert.ReferenceIdeal.main_v81) := by
  rw [Vend_split, Cert.ReferenceIdeal.RefRun.after_ops]
  exact CrossTail.tail_main_v98 _ _ (mid_i m m' c hpos hfin) (mid_j m m' c hpos hfin) (mid_rij m m' c hpos hfin) (mid_cut m m' c hpos hfin)

end Agree

/-- THE ALGEBRAIC CLAIM: from memories agreeing on the arguments, under finite inputs, both idealized programs run,
    end with equal results, and leave their arguments unchanged. -/
theorem algebraic : Cert.algebraic_KernelIdeal_ReferenceIdeal := by
  intro m ρ m' ρ' hpre hagree
  have hfin : ∀ c : Dev Cert.KernelIdeal.nD, ∀ i, ∃ r : ℝ, pos m c i = (r : EReal) := fun c =>
    PairFinite.pos_finite (pos m c) _ _ (hpre c)
  refine ⟨fun c => Vend m c Cert.KernelIdeal.main_v76, fun c => Vend m c Cert.KernelIdeal.main_v84, fun c => Vend m c Cert.KernelIdeal.main_v95, fun c => Vend m c Cert.KernelIdeal.main_v96, fun c => Vend m c Cert.KernelIdeal.main_v68, fun c => Vend m c Cert.KernelIdeal.main_v98, ?_, ?_⟩
  · exact (θ_run Cert.KernelIdeal.defs _ _).mono (fun _ h c =>
      ⟨(h c).2 Cert.KernelIdeal.main_v76 (Pipeline.mem_restRefs_of Cert.KernelIdeal.main_v76 (by decide) (by decide)),
        (h c).2 Cert.KernelIdeal.main_v84 (Pipeline.mem_restRefs_of Cert.KernelIdeal.main_v84 (by decide) (by decide)),
        (h c).2 Cert.KernelIdeal.main_v95 (Pipeline.mem_restRefs_of Cert.KernelIdeal.main_v95 (by decide) (by decide)),
        (h c).2 Cert.KernelIdeal.main_v96 (Pipeline.mem_restRefs_of Cert.KernelIdeal.main_v96 (by decide) (by decide)),
        (h c).2 Cert.KernelIdeal.main_v68 (Pipeline.mem_restRefs_of Cert.KernelIdeal.main_v68 (by decide) (by decide)),
        (h c).2 Cert.KernelIdeal.main_v98 (Pipeline.mem_restRefs_of Cert.KernelIdeal.main_v98 (by decide) (by decide)),
        ((h c).2 Cert.KernelIdeal.main_arg0 (Pipeline.mem_restRefs_of Cert.KernelIdeal.main_arg0 (by decide) (by decide))).trans
          (Cert.KernelIdeal.Region.Vend_arg m c Cert.KernelIdeal.main_arg0 Cert.KernelIdeal.Region.tail_keeps_main_arg0 (by decide) (by decide) (by decide)),
        ((h c).2 Cert.KernelIdeal.main_arg1 (Pipeline.mem_restRefs_of Cert.KernelIdeal.main_arg1 (by decide) (by decide))).trans
          (Cert.KernelIdeal.Region.Vend_arg m c Cert.KernelIdeal.main_arg1 Cert.KernelIdeal.Region.tail_keeps_main_arg1 (by decide) (by decide) (by decide)),
        ((h c).2 Cert.KernelIdeal.main_arg2 (Pipeline.mem_restRefs_of Cert.KernelIdeal.main_arg2 (by decide) (by decide))).trans
          (Cert.KernelIdeal.Region.Vend_arg m c Cert.KernelIdeal.main_arg2 Cert.KernelIdeal.Region.tail_keeps_main_arg2 (by decide) (by decide) (by decide))⟩)
      (Cert.KernelIdeal.Region.run_main (F := Ideal) m ρ)
  · exact (θ_run Cert.ReferenceIdeal.defs _ _).mono (fun _ h c =>
      ⟨(h c Cert.ReferenceIdeal.main_v59).trans (res_main_v76 m m' c (hagree c).1 (hfin c)).symm,
        (h c Cert.ReferenceIdeal.main_v67).trans (res_main_v84 m m' c (hagree c).1 (hfin c)).symm,
        (h c Cert.ReferenceIdeal.main_v78).trans (res_main_v95 m m' c (hagree c).1 (hfin c)).symm,
        (h c Cert.ReferenceIdeal.main_v79).trans (res_main_v96 m m' c (hagree c).1 (hfin c)).symm,
        (h c Cert.ReferenceIdeal.main_v51).trans (res_main_v68 m m' c (hagree c).1 (hfin c)).symm,
        (h c Cert.ReferenceIdeal.main_v81).trans (res_main_v98 m m' c (hagree c).1 (hfin c)).symm,
        (h c Cert.ReferenceIdeal.main_arg0).trans (Cert.ReferenceIdeal.RefRun.after_arg0 _),
        (h c Cert.ReferenceIdeal.main_arg1).trans (Cert.ReferenceIdeal.RefRun.after_arg1 _),
        (h c Cert.ReferenceIdeal.main_arg2).trans (Cert.ReferenceIdeal.RefRun.after_arg2 _)⟩)
      (Cert.ReferenceIdeal.RefRun.results (F := Ideal) m' ρ')

end Cert.Proof.Pairs

end
-- ==== Proof.lean ====
/-
  The certificate of the pairwise-displacement kernel against its jnp reference.

  The kernel computes, for all ordered pairs (i, j) of 4096 points, the displacement p_j − p_i and whether its squared
  length is below 25; the reference computes, for the pairs i < j, the difference p_i − p_j and whether its length is
  below 5. Around both, the same host bookkeeping: the pair indices, the pairs in both directions, a stable sort by
  the first index with the pairs beyond the cutoff moved to the end, and the count.

  The three frames: each program runs to the end, faults nowhere and leaves its arguments unchanged — the kernel's
  program by its region's run (its two input windows read one array, whose share is divided between them) and the
  host lines around it, the reference by the run of its host lines. Nothing was rewritten by the idealization, so
  its faithfulness claim is trivial. At the exact instance the two programs end with equal results for finite inputs.
-/
import proofs.«127677_j1614907703797_1_alg».proof.Defs
import proofs.«127677_j1614907703797_1_alg».proof.Proof.Gen.Kernel
import proofs.«127677_j1614907703797_1_alg».proof.Proof.Gen.KernelIdeal
import proofs.«127677_j1614907703797_1_alg».proof.Proof.Gen.ReferenceIdeal
import proofs.«127677_j1614907703797_1_alg».proof.Proof.Gen.Pre_finite_inputs
import proofs.«127677_j1614907703797_1_alg».proof.Proof.BRun
import proofs.«127677_j1614907703797_1_alg».proof.Proof.KRun
import proofs.«127677_j1614907703797_1_alg».proof.Proof.RefRun
import proofs.«127677_j1614907703797_1_alg».proof.Proof.Algebraic

noncomputable section

namespace Cert.Proof

open Idealize.ShloMosaic Idealize.SL.Sem

theorem frame_kernel : Cert.frame_Kernel := fun m ρ _ => Cert.Kernel.Region.frame (F := Bits) m ρ
theorem frame_kernelIdeal : Cert.frame_KernelIdeal := fun m ρ _ => Cert.KernelIdeal.Region.frame (F := Ideal) m ρ
theorem frame_referenceIdeal : Cert.frame_ReferenceIdeal := fun m ρ _ => Cert.ReferenceIdeal.RefRun.frame (F := Ideal) m ρ

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, Cert.Proof.Pairs.algebraic⟩

end Cert.Proof

end
